-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  IdealRules.named_const.Statement Cert.KernelIdeal.κ "inv_50000" .f32 0x37A7C5AC#32 ((1 / 50000 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S640000 : Shape := ⟨1, ![640000]⟩
abbrev S128x128 : Shape := ⟨2, ![128, 128]⟩
abbrev S128 : Shape := ⟨1, ![128]⟩
abbrev S128x2 : Shape := ⟨2, ![128, 2]⟩
abbrev S2 : Shape := ⟨1, ![2]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x2 : S_.BroadcastsInDim S128x2 (![] : Fin 0 → Fin S128x2.rank)
  reducesTo_S128x2_S_d0_1 : S128x2.ReducesTo [0, 1] S_
  bcast_S_S2 : S_.BroadcastsInDim S2 (![] : Fin 0 → Fin S2.rank)
  reducesTo_S2_S_d0 : S2.ReducesTo [0] S_

variable [Facts]

def fn_part1 {F : FTy → Type} [FloatOps F] (main_arg6 : FVec F S128 .f32) (main_arg7 : FVec F S128x2 .f32) (main_arg8 : FVec F S2 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x2 .f32 := Host.absf main_arg7
  let main_cst_8 : FVec F S_ .f32 := constant S_ .f32 0x7F800000#32
  let main_v25 : FVec F S128x2 .f32 := broadcastInDim S128x2 ![] bcast_S_S128x2 main_cst_8
  let main_v26 : IVec S128x2 1 := cmpf .olt main_v24 main_v25
  let main_c_9 : IVec S_ 1 := constantI S_ 1 1#1
  let main_v27 : IVec S_ 1 := (fun x v => Host.reduce IntOp.andi x v reducesTo_S128x2_S_d0_1 h_S_) main_v26 main_c_9
  let main_v28 : IVec S_ 1 := andi main_v23 main_v27
  let main_v29 : FVec F S2 .f32 := Host.absf main_arg8
  let main_cst_10 : FVec F S_ .f32 := constant S_ .f32 0x7F800000#32
  let main_v30 : FVec F S2 .f32 := broadcastInDim S2 ![] bcast_S_S2 main_cst_10
  let main_v31 : IVec S2 1 := cmpf .olt main_v29 main_v30
  let main_c_11 : IVec S_ 1 := constantI S_ 1 1#1
  let main_v32 : IVec S_ 1 := (fun x v => Host.reduce IntOp.andi x v reducesTo_S2_S_d0 h_S_) main_v31 main_c_11
  let main_v33 : IVec S_ 1 := andi main_v28 main_v32
  main_v33

def fn {F : FTy → Type} [FloatOps F] (main_arg0 : FVec F S50000x128 .f32) (main_arg1 : IVec S640000 32) (main_arg2 : IVec S640000 32) (main_arg3 : FVec F S128x128 .f32) (main_arg4 : FVec F S128 .f32) (main_arg5 : FVec F S128x128 .f32) (main_arg6 : FVec F S128 .f32) (main_arg7 : FVec F S128x2 .f32) (main_arg8 : FVec F S2 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_v13 main_v16
-- ==== Kernel.lean ====
abbrev S50000x128 : Shape := ⟨2, ![50000, 128]⟩
abbrev S640000 : Shape := ⟨1, ![640000]⟩
abbrev S128x128 : Shape := ⟨2, ![128, 128]⟩
abbrev S128 : Shape := ⟨1, ![128]⟩
abbrev S128x2 : Shape := ⟨2, ![128, 2]⟩
abbrev S2 : Shape := ⟨1, ![2]⟩
abbrev S_ : Shape := ⟨0, ![]⟩
abbrev S50000 : Shape := ⟨1, ![50000]⟩
abbrev S640000x1 : Shape := ⟨2, ![640000, 1]⟩
abbrev S50000x1 : Shape := ⟨2, ![50000, 1]⟩
abbrev S1x128 : Shape := ⟨2, ![1, 128]⟩
abbrev S1x2 : Shape := ⟨2, ![1, 2]⟩
abbrev S5000x128 : Shape := ⟨2, ![5000, 128]⟩
abbrev S5000x1 : Shape := ⟨2, ![5000, 1]⟩
abbrev S640000x128 : Shape := ⟨2, ![640000, 128]⟩

abbrev nBuf : Space → Nat
  | .hbm => 77
  | .vmem => 26
  | .smem => 0
  | _ => 0

abbrev bufTy : (tb : Table) → Fin (tcTables nBuf tb) → BufTy
  | .hbm, ⟨0, _⟩ => ⟨S50000x128, .f32⟩
  | .hbm, ⟨1, _⟩ => ⟨S640000, .i32⟩
  | .hbm, ⟨2, _⟩ => ⟨S640000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x2, .f32⟩
  | .hbm, ⟨8, _⟩ => ⟨S2, .f32⟩
  | .hbm, ⟨9, _⟩ => ⟨S_, .f32⟩
  | .hbm, ⟨10, _⟩ => ⟨S640000, .f32⟩
  | .hbm, ⟨11, _⟩ => ⟨S_, .f32⟩
  | .hbm, ⟨12, _⟩ => ⟨S50000, .f32⟩
  | .hbm, ⟨13, _⟩ => ⟨S640000x1, .i32⟩
  | .hbm, ⟨14, _⟩ => ⟨S50000, .f32⟩
  | .hbm, ⟨15, _⟩ => ⟨S_, .f32⟩
  | .hbm, ⟨16, _⟩ => ⟨S50000, .f32⟩
  | .hbm, ⟨17, _⟩ => ⟨S50000, .i1⟩
  | .hbm, ⟨18, _⟩ => ⟨S_, .f32⟩
  | .hbm, ⟨19, _⟩ => ⟨S50000, .f32⟩
  | .hbm, ⟨20, _⟩ => ⟨S50000, .f32⟩
  | .hbm, ⟨21, _⟩ => ⟨S50000, .f32⟩
  | .hbm, ⟨22, _⟩ => ⟨S_, .f32⟩
  | .hbm, ⟨23, _⟩ => ⟨S_, .f32⟩
  | .hbm, ⟨24, _⟩ => ⟨S50000, .f32⟩
  | .hbm, ⟨25, _⟩ => ⟨S50000, .f32⟩
  | .hbm, ⟨26, _⟩ => ⟨S_, .f32⟩
  | .hbm, ⟨27, _⟩ => ⟨S640000, .f32⟩
  | .hbm, ⟨28, _⟩ => ⟨S_, .f32⟩
  | .hbm, ⟨29, _⟩ => ⟨S50000, .f32⟩
  | .hbm, ⟨30, _⟩ => ⟨S640000x1, .i32⟩
  | .hbm, ⟨31, _⟩ => ⟨S50000, .f32⟩
  | .hbm, ⟨32, _⟩ => ⟨S_, .f32⟩
  | .hbm, ⟨33, _⟩ => ⟨S50000, .f32⟩
  | .hbm, ⟨34, _⟩ => ⟨S50000, .i1⟩
  | .hbm, ⟨35, _⟩ => ⟨S_, .f32⟩
  | .hbm, ⟨36, _⟩ => ⟨S50000, .f32⟩
  | .hbm, ⟨37, _⟩ => ⟨S50000, .f32⟩
  | .hbm, ⟨38, _⟩ => ⟨S50000, .f32⟩
  | .hbm, ⟨39, _⟩ => ⟨S_, .f32⟩
  | .hbm, ⟨40, _⟩ => ⟨S_, .f32⟩
  | .hbm, ⟨41, _⟩ => ⟨S50000, .f32⟩
  | .hbm, ⟨42, _⟩ => ⟨S50000, .f32⟩
  | .hbm, ⟨43, _⟩ => ⟨S50000x1, .f32⟩
  | .hbm, ⟨44, _⟩ => ⟨S50000x1, .f32⟩
  | .hbm, ⟨45, _⟩ => ⟨S1x128, .f32⟩
  | .hbm, ⟨46, _⟩ => ⟨S1x128, .f32⟩
  | .hbm, ⟨47, _⟩ => ⟨S1x2, .f32⟩
  | .hbm, ⟨48, _⟩ => ⟨S50000x128, .f32⟩
  | .hbm, ⟨49, _⟩ => ⟨S_, .i32⟩
  | .hbm, ⟨50, _⟩ => ⟨S640000, .i32⟩
  | .hbm, ⟨51, _⟩ => ⟨S640000, .i1⟩
  | .hbm, ⟨52, _⟩ => ⟨S_, .i32⟩
  | .hbm, ⟨53, _⟩ => ⟨S640000, .i32⟩
  | .hbm, ⟨54, _⟩ => ⟨S640000, .i32⟩
  | .hbm, ⟨55, _⟩ => ⟨S640000, .i32⟩
  | .hbm, ⟨56, _⟩ => ⟨S640000x1, .i32⟩
  | .hbm, ⟨57, _⟩ => ⟨S640000x128, .f32⟩
  | .hbm, ⟨58, _⟩ => ⟨S_, .f32⟩
  | .hbm, ⟨59, _⟩ => ⟨S50000x128, .f32⟩
  | .hbm, ⟨60, _⟩ => ⟨S640000x1, .i32⟩
  | .hbm, ⟨61, _⟩ => ⟨S50000x128, .f32⟩
  | .hbm, ⟨62, _⟩ => ⟨S50000x128, .f32⟩
  | .hbm, ⟨63, _⟩ => ⟨S_, .i32⟩
  | .hbm, ⟨64, _⟩ => ⟨S640000, .i32⟩
  | .hbm, ⟨65, _⟩ => ⟨S640000, .i1⟩
  | .hbm, ⟨66, _⟩ => ⟨S_, .i32⟩
  | .hbm, ⟨67, _⟩ => ⟨S640000, .i32⟩
  | .hbm, ⟨68, _⟩ => ⟨S640000, .i32⟩
  | .hbm, ⟨69, _⟩ => ⟨S640000, .i32⟩
  | .hbm, ⟨70, _⟩ => ⟨S640000x1, .i32⟩
  | .hbm, ⟨71, _⟩ => ⟨S640000x128, .f32⟩
  | .hbm, ⟨72, _⟩ => ⟨S_, .f32⟩
  | .hbm, ⟨73, _⟩ => ⟨S50000x128, .f32⟩
  | .hbm, ⟨74, _⟩ => ⟨S640000x1, .i32⟩
  | .hbm, ⟨75, _⟩ => ⟨S50000x128, .f32⟩
  | .hbm, ⟨76, _⟩ => ⟨S1x2, .f32⟩
  | .local _ .vmem, ⟨0, _⟩ => ⟨S5000x128, .f32⟩
  | .local _ .vmem, ⟨1, _⟩ => ⟨S5000x128, .f32⟩
  | .local _ .vmem, ⟨2, _⟩ => ⟨S5000x1, .f32⟩
  | .local _ .vmem, ⟨3, _⟩ => ⟨S5000x1, .f32⟩
  | .local _ .vmem, ⟨4, _⟩ => ⟨S128x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x1, .f32⟩
  | .local _ .vmem, ⟨10, _⟩ => ⟨S5000x1, .f32⟩
  | .local _ .vmem, ⟨11, _⟩ => ⟨S1x128, .f32⟩
  | .local _ .vmem, ⟨12, _⟩ => ⟨S5000x1, .f32⟩
  | .local _ .vmem, ⟨13, _⟩ => ⟨S5000x1, .f32⟩
  | .local _ .vmem, ⟨14, _⟩ => ⟨S128x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x1, .f32⟩
  | .local _ .vmem, ⟨20, _⟩ => ⟨S5000x1, .f32⟩
  | .local _ .vmem, ⟨21, _⟩ => ⟨S1x128, .f32⟩
  | .local _ .vmem, ⟨22, _⟩ => ⟨S128x2, .f32⟩
  | .local _ .vmem, ⟨23, _⟩ => ⟨S1x2, .f32⟩
  | .local _ .vmem, ⟨24, _⟩ => ⟨S1x2, .f32⟩
  | .local _ .vmem, ⟨25, _⟩ => ⟨S1x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_v4 : Ref sig .tc := ⟨.hbm, 16, rfl⟩
abbrev main_v5 : Ref sig .tc := ⟨.hbm, 17, rfl⟩
abbrev main_cst_2 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_cst_3 : Ref sig .tc := ⟨.hbm, 22, rfl⟩
abbrev main_call0_v0 : Ref sig .tc := ⟨.hbm, 23, rfl⟩
abbrev main_call0_v1 : Ref sig .tc := ⟨.hbm, 24, rfl⟩
abbrev main_v9 : Ref sig .tc := ⟨.hbm, 25, rfl⟩
abbrev main_cst_4 : Ref sig .tc := ⟨.hbm, 26, rfl⟩
abbrev main_v10 : Ref sig .tc := ⟨.hbm, 27, rfl⟩
abbrev main_cst_5 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_cst_6 : Ref sig .tc := ⟨.hbm, 32, rfl⟩
abbrev main_v14 : Ref sig .tc := ⟨.hbm, 33, rfl⟩
abbrev main_v15 : Ref sig .tc := ⟨.hbm, 34, rfl⟩
abbrev main_cst_7 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_cst_8 : Ref sig .tc := ⟨.hbm, 39, rfl⟩
abbrev main_call1_v0 : Ref sig .tc := ⟨.hbm, 40, rfl⟩
abbrev main_call1_v1 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_c : Ref sig .tc := ⟨.hbm, 49, rfl⟩
abbrev main_v26 : Ref sig .tc := ⟨.hbm, 50, rfl⟩
abbrev main_v27 : Ref sig .tc := ⟨.hbm, 51, rfl⟩
abbrev main_c_9 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_cst_10 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_c_11 : Ref sig .tc := ⟨.hbm, 63, rfl⟩
abbrev main_v37 : Ref sig .tc := ⟨.hbm, 64, rfl⟩
abbrev main_v38 : Ref sig .tc := ⟨.hbm, 65, rfl⟩
abbrev main_c_12 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_cst_13 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg5_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg4_0 : Ref sig .tc := ⟨.vmem, 23, rfl⟩
abbrev cc2_stg5_0 : Ref sig .tc := ⟨.vmem, 24, rfl⟩
abbrev cc2_scratch0 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13
abbrev cc1_sem4_0 : DmaSem sig := 14
abbrev cc1_sem5_0 : DmaSem sig := 15
abbrev cc1_sem5_1 : DmaSem sig := 16
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem3_0 : DmaSem sig := 22
abbrev cc2_sem4_0 : DmaSem sig := 23
abbrev cc2_sem5_0 : DmaSem sig := 24

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def k2_cond2 (i : grid2.Coords) : BitVec 1 :=
  let arg0 : BitVec 32 := BitVec.ofNat 32 (i 0).val
  let c9_i32 : BitVec 32 := 9#32
  let v22 : BitVec 1 := Scalar.cmpi .eq arg0 c9_i32
  let v23 : BitVec 32 := Scalar.extui v22
  let c0_i32_11 : BitVec 32 := 0#32
  let v24 : BitVec 1 := Scalar.cmpi .ne v23 c0_i32_11
  v24

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x2 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x2 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x2 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

class Facts₀ : Prop where
  bcast_S_S640000 : S_.BroadcastsInDim S640000 (![] : Fin 0 → Fin S640000.rank)
  bcast_S_S50000 : S_.BroadcastsInDim S50000 (![] : Fin 0 → Fin S50000.rank)
  bcast_S640000_S640000x1_0 : S640000.BroadcastsInDim S640000x1 (![0] : Fin 1 → Fin S640000x1.rank)
  shapeCasts_S50000_S50000x1 : S50000.ShapeCasts S50000x1
  shapeCasts_S128_S1x128 : S128.ShapeCasts S1x128
  shapeCasts_S2_S1x2 : S2.ShapeCasts S1x2
  inb_S5000x128_S5000x128_0_0 : ∀ a, (![0, 0] : Fin 2 → Nat) a + S5000x128.size a ≤ S5000x128.size a
  h_S5000x128 : 0 < S5000x128.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S_S50000x128 : S_.BroadcastsInDim S50000x128 (![] : Fin 0 → Fin S50000x128.rank)
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  reduces_S5000x128_S128 : S5000x128.Reduces [0] S128
  inb_S128x2_S128x2_0_0 : ∀ a, (![0, 0] : Fin 2 → Nat) a + S128x2.size a ≤ S128x2.size a
  h_S128x2 : 0 < S128x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  scatter_S50000_S640000x1_S640000_n_0_0_1_wf : ScatterDims.WF S50000 S640000x1 S640000 [] [0] [0] 1
  dot_S5000x128_S128x128_S5000x128_1_0_0_1_n_n_wf : DotDims.WF S5000x128 S128x128 S5000x128 [1] [0] [0] [1] [] []
  gather_S50000x128_S640000x1_S640000x128_1_0_n_n_0_1_1128_wf : GatherDims.WF S50000x128 S640000x1 S640000x128 [1] [0] [] [0] [] 1 ![1, 128]
  scatter_S50000x128_S640000x1_S640000x128_1_0_0_1_wf : ScatterDims.WF S50000x128 S640000x1 S640000x128 [1] [0] [0] 1
  dot_S1x128_S128x2_S1x2_1_0_0_1_n_n_wf : DotDims.WF S1x128 S128x2 S1x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S50000x1.size a
  hwx0_1 : ∀ i : grid0.Coords, EltTy.bits .f32 = 32 ∨ (Rect.block (s := S50000x1) S5000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S50000x1.size a
  hwx1_1 : ∀ i : grid1.Coords, EltTy.bits .f32 = 32 ∨ (Rect.block (s := S50000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x1.size a ≤ S50000x1.size a
  hwx1_3 : ∀ i : grid1.Coords, EltTy.bits .f32 = 32 ∨ (Rect.block (s := S50000x1) S5000x1.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S50000x128.size a
  hwx1_5 : ∀ i : grid1.Coords, EltTy.bits .f32 = 32 ∨ (Rect.block (s := S50000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S50000x1.size a
  hwx2_1 : ∀ i : grid2.Coords, EltTy.bits .f32 = 32 ∨ (Rect.block (s := S50000x1) S5000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x2.size a ≤ S128x2.size a
  hwx2_3 : ∀ i : grid2.Coords, EltTy.bits .f32 = 32 ∨ (Rect.block (s := S128x2) S128x2.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x2.size a ≤ S1x2.size a
  hwx2_4 : ∀ i : grid2.Coords, EltTy.bits .f32 = 32 ∨ (Rect.block (s := S1x2) S1x2.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x2.size a ≤ S1x2.size a
  hwx2_5 : ∀ i : grid2.Coords, EltTy.bits .f32 = 32 ∨ (Rect.block (s := S1x2) S1x2.size (cc2_transform_5 i) (hinb2_5 i)).WholeWords (EltTy.packing .f32)

variable [Facts₀]

def scatter_S50000_S640000x1_S640000_n_0_0_1 : ScatterDims S50000 S640000x1 S640000 where
  updateWindowDims := []
  insertedWindowDims := [0]
  scatterDimsToOperandDims := [0]
  indexVectorDim := 1
  wf := scatter_S50000_S640000x1_S640000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S640000x1_S640000x128_1_0_n_n_0_1_1128 : GatherDims S50000x128 S640000x1 S640000x128 where
  offsetDims := [1]
  collapsedSliceDims := [0]
  operandBatchingDims := []
  startIndicesBatchingDims := []
  startIndexMap := [0]
  indexVectorDim := 1
  sliceSizes := ![1, 128]
  wf := gather_S50000x128_S640000x1_S640000x128_1_0_n_n_0_1_1128_wf
def scatter_S50000x128_S640000x1_S640000x128_1_0_0_1 : ScatterDims S50000x128 S640000x1 S640000x128 where
  updateWindowDims := [1]
  insertedWindowDims := [0]
  scatterDimsToOperandDims := [0]
  indexVectorDim := 1
  wf := scatter_S50000x128_S640000x1_S640000x128_1_0_0_1_wf
def dot_S1x128_S128x2_S1x2_1_0_0_1_n_n : DotDims S1x128 S128x2 S1x2 where
  lhsContracting := [1]
  rhsContracting := [0]
  lhsNonContracting := [0]
  rhsNonContracting := [1]
  lhsBatch := []
  rhsBatch := []
  wf := dot_S1x128_S128x2_S1x2_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v20) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v25) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v35) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v21) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v22) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v20) S5000x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg5) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v36) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v46) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v21) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v23) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg7) S128x2.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v24) S1x2.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v47) S1x2.size cc2_transform_5 reads2_5 true true 1 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev idle2 : Fin 6 → grid2.Coords → Bool := fun | 0 => fun _ => false | 1 => fun _ => false | 2 => fun _ => false | 3 => fun _ => false | 4 => fun _ => false | 5 => fun i => !(k2_cond2 i == 1#1) | ⟨_ + 6, h⟩ => absurd h (Nat.not_lt.2 (Nat.le_add_left _ _))

class Facts : Prop extends Facts₀ where

variable [Facts]
-- ==== ReferenceIdeal.lean ====
abbrev S50000x128 : Shape := ⟨2, ![50000, 128]⟩
abbrev S640000 : Shape := ⟨1, ![640000]⟩
abbrev S128x128 : Shape := ⟨2, ![128, 128]⟩
abbrev S128 : Shape := ⟨1, ![128]⟩
abbrev S128x2 : Shape := ⟨2, ![128, 2]⟩
abbrev S2 : Shape := ⟨1, ![2]⟩
abbrev S_ : Shape := ⟨0, ![]⟩
abbrev S50000 : Shape := ⟨1, ![50000]⟩
abbrev S640000x1 : Shape := ⟨2, ![640000, 1]⟩
abbrev S50000x1 : Shape := ⟨2, ![50000, 1]⟩
abbrev S640000x128 : Shape := ⟨2, ![640000, 128]⟩
abbrev S1x128 : Shape := ⟨2, ![1, 128]⟩
abbrev S1x2 : Shape := ⟨2, ![1, 2]⟩

abbrev nBuf : Space → Nat
  | .hbm => 104
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S640000, .i32⟩
  | .hbm, ⟨2, _⟩ => ⟨S640000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x2, .f32⟩
  | .hbm, ⟨8, _⟩ => ⟨S2, .f32⟩
  | .hbm, ⟨9, _⟩ => ⟨S_, .f32⟩
  | .hbm, ⟨10, _⟩ => ⟨S640000, .f32⟩
  | .hbm, ⟨11, _⟩ => ⟨S_, .f32⟩
  | .hbm, ⟨12, _⟩ => ⟨S50000, .f32⟩
  | .hbm, ⟨13, _⟩ => ⟨S640000x1, .i32⟩
  | .hbm, ⟨14, _⟩ => ⟨S50000, .f32⟩
  | .hbm, ⟨15, _⟩ => ⟨S_, .f32⟩
  | .hbm, ⟨16, _⟩ => ⟨S50000, .f32⟩
  | .hbm, ⟨17, _⟩ => ⟨S50000, .i1⟩
  | .hbm, ⟨18, _⟩ => ⟨S_, .f32⟩
  | .hbm, ⟨19, _⟩ => ⟨S50000, .f32⟩
  | .hbm, ⟨20, _⟩ => ⟨S50000, .f32⟩
  | .hbm, ⟨21, _⟩ => ⟨S50000, .f32⟩
  | .hbm, ⟨22, _⟩ => ⟨S_, .f32⟩
  | .hbm, ⟨23, _⟩ => ⟨S_, .f32⟩
  | .hbm, ⟨24, _⟩ => ⟨S50000, .f32⟩
  | .hbm, ⟨25, _⟩ => ⟨S50000, .f32⟩
  | .hbm, ⟨26, _⟩ => ⟨S_, .f32⟩
  | .hbm, ⟨27, _⟩ => ⟨S640000, .f32⟩
  | .hbm, ⟨28, _⟩ => ⟨S_, .f32⟩
  | .hbm, ⟨29, _⟩ => ⟨S50000, .f32⟩
  | .hbm, ⟨30, _⟩ => ⟨S640000x1, .i32⟩
  | .hbm, ⟨31, _⟩ => ⟨S50000, .f32⟩
  | .hbm, ⟨32, _⟩ => ⟨S_, .f32⟩
  | .hbm, ⟨33, _⟩ => ⟨S50000, .f32⟩
  | .hbm, ⟨34, _⟩ => ⟨S50000, .i1⟩
  | .hbm, ⟨35, _⟩ => ⟨S_, .f32⟩
  | .hbm, ⟨36, _⟩ => ⟨S50000, .f32⟩
  | .hbm, ⟨37, _⟩ => ⟨S50000, .f32⟩
  | .hbm, ⟨38, _⟩ => ⟨S50000, .f32⟩
  | .hbm, ⟨39, _⟩ => ⟨S_, .f32⟩
  | .hbm, ⟨40, _⟩ => ⟨S_, .f32⟩
  | .hbm, ⟨41, _⟩ => ⟨S50000, .f32⟩
  | .hbm, ⟨42, _⟩ => ⟨S50000, .f32⟩
  | .hbm, ⟨43, _⟩ => ⟨S50000x1, .f32⟩
  | .hbm, ⟨44, _⟩ => ⟨S50000x128, .f32⟩
  | .hbm, ⟨45, _⟩ => ⟨S50000x128, .f32⟩
  | .hbm, ⟨46, _⟩ => ⟨S50000x128, .f32⟩
  | .hbm, ⟨47, _⟩ => ⟨S_, .i32⟩
  | .hbm, ⟨48, _⟩ => ⟨S640000, .i32⟩
  | .hbm, ⟨49, _⟩ => ⟨S640000, .i1⟩
  | .hbm, ⟨50, _⟩ => ⟨S_, .i32⟩
  | .hbm, ⟨51, _⟩ => ⟨S640000, .i32⟩
  | .hbm, ⟨52, _⟩ => ⟨S640000, .i32⟩
  | .hbm, ⟨53, _⟩ => ⟨S640000, .i32⟩
  | .hbm, ⟨54, _⟩ => ⟨S640000x1, .i32⟩
  | .hbm, ⟨55, _⟩ => ⟨S640000x128, .f32⟩
  | .hbm, ⟨56, _⟩ => ⟨S_, .f32⟩
  | .hbm, ⟨57, _⟩ => ⟨S50000x128, .f32⟩
  | .hbm, ⟨58, _⟩ => ⟨S640000x1, .i32⟩
  | .hbm, ⟨59, _⟩ => ⟨S50000x128, .f32⟩
  | .hbm, ⟨60, _⟩ => ⟨S50000x1, .f32⟩
  | .hbm, ⟨61, _⟩ => ⟨S50000x128, .f32⟩
  | .hbm, ⟨62, _⟩ => ⟨S50000x128, .f32⟩
  | .hbm, ⟨63, _⟩ => ⟨S1x128, .f32⟩
  | .hbm, ⟨64, _⟩ => ⟨S50000x128, .f32⟩
  | .hbm, ⟨65, _⟩ => ⟨S50000x128, .f32⟩
  | .hbm, ⟨66, _⟩ => ⟨S_, .f32⟩
  | .hbm, ⟨67, _⟩ => ⟨S50000x128, .f32⟩
  | .hbm, ⟨68, _⟩ => ⟨S50000x128, .f32⟩
  | .hbm, ⟨69, _⟩ => ⟨S50000x1, .f32⟩
  | .hbm, ⟨70, _⟩ => ⟨S50000x128, .f32⟩
  | .hbm, ⟨71, _⟩ => ⟨S50000x128, .f32⟩
  | .hbm, ⟨72, _⟩ => ⟨S50000x128, .f32⟩
  | .hbm, ⟨73, _⟩ => ⟨S_, .i32⟩
  | .hbm, ⟨74, _⟩ => ⟨S640000, .i32⟩
  | .hbm, ⟨75, _⟩ => ⟨S640000, .i1⟩
  | .hbm, ⟨76, _⟩ => ⟨S_, .i32⟩
  | .hbm, ⟨77, _⟩ => ⟨S640000, .i32⟩
  | .hbm, ⟨78, _⟩ => ⟨S640000, .i32⟩
  | .hbm, ⟨79, _⟩ => ⟨S640000, .i32⟩
  | .hbm, ⟨80, _⟩ => ⟨S640000x1, .i32⟩
  | .hbm, ⟨81, _⟩ => ⟨S640000x128, .f32⟩
  | .hbm, ⟨82, _⟩ => ⟨S_, .f32⟩
  | .hbm, ⟨83, _⟩ => ⟨S50000x128, .f32⟩
  | .hbm, ⟨84, _⟩ => ⟨S640000x1, .i32⟩
  | .hbm, ⟨85, _⟩ => ⟨S50000x128, .f32⟩
  | .hbm, ⟨86, _⟩ => ⟨S50000x1, .f32⟩
  | .hbm, ⟨87, _⟩ => ⟨S50000x128, .f32⟩
  | .hbm, ⟨88, _⟩ => ⟨S50000x128, .f32⟩
  | .hbm, ⟨89, _⟩ => ⟨S1x128, .f32⟩
  | .hbm, ⟨90, _⟩ => ⟨S50000x128, .f32⟩
  | .hbm, ⟨91, _⟩ => ⟨S50000x128, .f32⟩
  | .hbm, ⟨92, _⟩ => ⟨S_, .f32⟩
  | .hbm, ⟨93, _⟩ => ⟨S50000x128, .f32⟩
  | .hbm, ⟨94, _⟩ => ⟨S50000x128, .f32⟩
  | .hbm, ⟨95, _⟩ => ⟨S_, .f32⟩
  | .hbm, ⟨96, _⟩ => ⟨S128, .f32⟩
  | .hbm, ⟨97, _⟩ => ⟨S1x128, .f32⟩
  | .hbm, ⟨98, _⟩ => ⟨S_, .f32⟩
  | .hbm, ⟨99, _⟩ => ⟨S1x128, .f32⟩
  | .hbm, ⟨100, _⟩ => ⟨S1x128, .f32⟩
  | .hbm, ⟨101, _⟩ => ⟨S1x2, .f32⟩
  | .hbm, ⟨102, _⟩ => ⟨S1x2, .f32⟩
  | .hbm, ⟨103, _⟩ => ⟨S1x2, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_v4 : Ref sig .tc := ⟨.hbm, 16, rfl⟩
abbrev main_v5 : Ref sig .tc := ⟨.hbm, 17, rfl⟩
abbrev main_cst_2 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_cst_3 : Ref sig .tc := ⟨.hbm, 22, rfl⟩
abbrev main_call0_v0 : Ref sig .tc := ⟨.hbm, 23, rfl⟩
abbrev main_call0_v1 : Ref sig .tc := ⟨.hbm, 24, rfl⟩
abbrev main_v9 : Ref sig .tc := ⟨.hbm, 25, rfl⟩
abbrev main_cst_4 : Ref sig .tc := ⟨.hbm, 26, rfl⟩
abbrev main_v10 : Ref sig .tc := ⟨.hbm, 27, rfl⟩
abbrev main_cst_5 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_cst_6 : Ref sig .tc := ⟨.hbm, 32, rfl⟩
abbrev main_v14 : Ref sig .tc := ⟨.hbm, 33, rfl⟩
abbrev main_v15 : Ref sig .tc := ⟨.hbm, 34, rfl⟩
abbrev main_cst_7 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_cst_8 : Ref sig .tc := ⟨.hbm, 39, rfl⟩
abbrev main_call1_v0 : Ref sig .tc := ⟨.hbm, 40, rfl⟩
abbrev main_call1_v1 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_c : Ref sig .tc := ⟨.hbm, 47, rfl⟩
abbrev main_v24 : Ref sig .tc := ⟨.hbm, 48, rfl⟩
abbrev main_v25 : Ref sig .tc := ⟨.hbm, 49, rfl⟩
abbrev main_c_9 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_cst_10 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_call2_cst : Ref sig .tc := ⟨.hbm, 66, rfl⟩
abbrev main_call2_v0 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_c_11 : Ref sig .tc := ⟨.hbm, 73, rfl⟩
abbrev main_v45 : Ref sig .tc := ⟨.hbm, 74, rfl⟩
abbrev main_v46 : Ref sig .tc := ⟨.hbm, 75, rfl⟩
abbrev main_c_12 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_cst_13 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_call3_cst : Ref sig .tc := ⟨.hbm, 92, rfl⟩
abbrev main_call3_v0 : Ref sig .tc := ⟨.hbm, 93, rfl⟩
abbrev main_v61 : Ref sig .tc := ⟨.hbm, 94, rfl⟩
abbrev main_cst_14 : Ref sig .tc := ⟨.hbm, 95, rfl⟩
abbrev main_v62 : Ref sig .tc := ⟨.hbm, 96, rfl⟩
abbrev main_v63 : Ref sig .tc := ⟨.hbm, 97, rfl⟩
abbrev main_cst_15 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩

abbrev nD : Nat := 1
abbrev τ : Topo := Topo.v7x

variable {F : FTy → Type} [FloatOps F]

class Facts₀ : Prop where
  bcast_S_S640000 : S_.BroadcastsInDim S640000 (![] : Fin 0 → Fin S640000.rank)
  bcast_S_S50000 : S_.BroadcastsInDim S50000 (![] : Fin 0 → Fin S50000.rank)
  bcast_S640000_S640000x1_0 : S640000.BroadcastsInDim S640000x1 (![0] : Fin 1 → Fin S640000x1.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S128_d0 : S50000x128.ReducesTo [0] S128
  h_S_ : 0 < S_.numel
  bcast_S_S1x128 : S_.BroadcastsInDim S1x128 (![] : Fin 0 → Fin S1x128.rank)
  bcast_S2_S1x2_1 : S2.BroadcastsInDim S1x2 (![1] : Fin 1 → Fin S1x2.rank)
  scatter_S50000_S640000x1_S640000_n_0_0_1_wf : ScatterDims.WF S50000 S640000x1 S640000 [] [0] [0] 1
  dot_S50000x128_S128x128_S50000x128_1_0_0_1_n_n_wf : DotDims.WF S50000x128 S128x128 S50000x128 [1] [0] [0] [1] [] []
  gather_S50000x128_S640000x1_S640000x128_1_0_n_n_0_1_1128_wf : GatherDims.WF S50000x128 S640000x1 S640000x128 [1] [0] [] [0] [] 1 ![1, 128]
  scatter_S50000x128_S640000x1_S640000x128_1_0_0_1_wf : ScatterDims.WF S50000x128 S640000x1 S640000x128 [1] [0] [0] 1
  dot_S1x128_S128x2_S1x2_1_0_0_1_n_n_wf : DotDims.WF S1x128 S128x2 S1x2 [1] [0] [0] [1] [] []

variable [Facts₀]

def scatter_S50000_S640000x1_S640000_n_0_0_1 : ScatterDims S50000 S640000x1 S640000 where
  updateWindowDims := []
  insertedWindowDims := [0]
  scatterDimsToOperandDims := [0]
  indexVectorDim := 1
  wf := scatter_S50000_S640000x1_S640000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S640000x1_S640000x128_1_0_n_n_0_1_1128 : GatherDims S50000x128 S640000x1 S640000x128 where
  offsetDims := [1]
  collapsedSliceDims := [0]
  operandBatchingDims := []
  startIndicesBatchingDims := []
  startIndexMap := [0]
  indexVectorDim := 1
  sliceSizes := ![1, 128]
  wf := gather_S50000x128_S640000x1_S640000x128_1_0_n_n_0_1_1128_wf
def scatter_S50000x128_S640000x1_S640000x128_1_0_0_1 : ScatterDims S50000x128 S640000x1 S640000x128 where
  updateWindowDims := [1]
  insertedWindowDims := [0]
  scatterDimsToOperandDims := [0]
  indexVectorDim := 1
  wf := scatter_S50000x128_S640000x1_S640000x128_1_0_0_1_wf
def dot_S1x128_S128x2_S1x2_1_0_0_1_n_n : DotDims S1x128 S128x2 S1x2 where
  lhsContracting := [1]
  rhsContracting := [0]
  lhsNonContracting := [0]
  rhsNonContracting := [1]
  lhsBatch := []
  rhsBatch := []
  wf := dot_S1x128_S128x2_S1x2_1_0_0_1_n_n_wf

class Facts : Prop extends Facts₀ where

variable [Facts]
-- ==== Proof.K.Region0.lean ====
/- The first pallas_call (layer 1: the normalised features times the weight matrix) as a pipeline region:
   per window its block at a grid point, the buffer its body leaves in the output window, the body's
   triple, the pipeline's proof data and the body obligation, all at a parameter `V`, the TensorCore's buffer
   contents when the region is entered, and for any float model `F`. -/
import proofs.«145645_j19997367730789_1_alg».proof.Proof.Gen.Kernel.Launch
import proofs.«145645_j19997367730789_1_alg».proof.Proof.Gen.Kernel.Skeleton
import proofs.«145645_j19997367730789_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of long extents: the structural check recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: everything below holds for any such contents
variable (V : (c : Dev nD) → (b : Ref sig .tc) → Buf (Elt F) ((c : Thread nD τ).loc b))

/-! # Region 0: the first layer's matmul kernel (custom_call 0, pipeline 0), at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, whether or not it is fetched there
    (an unfetched point has the block index of the point before it), for any proof data whose array is `V`'s and
    whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, whether or not it is fetched there
    (an unfetched point has the block index of the point before it), for any proof data whose array is `V`'s and
    whose body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, whether or not it is fetched there
    (an unfetched point has the block index of the point before it), for any proof data whose array is `V`'s and
    whose body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer whole -/

abbrev r0_S5000x128 : Rect S5000x128 := Rect.unit (s := S5000x128) ![0, 0] S5000x128.size inb_S5000x128_S5000x128_0_0
abbrev r0_S5000x1 : Rect S5000x1 := Rect.unit (s := S5000x1) ![0, 0] S5000x1.size inb_S5000x1_S5000x1_0_0
abbrev r0_S128x128 : Rect S128x128 := Rect.unit (s := S128x128) ![0, 0] S128x128.size inb_S128x128_S128x128_0_0

/-! ## What the body leaves in the output window's buffer -/

/-- Window 3's staging buffer after the body, from the input windows' blocks: its one store, of the whole buffer. -/
def out0_3 (x0 : Vec F S5000x128 .f32) (x1 : Vec F S5000x1 .f32) (x2 : Vec F S128x128 .f32) : Vec F S5000x128 .f32 :=
  View.canon [⟨r0_S5000x128, k0_pay1 (View.ld x0 r0_S5000x128) (View.ld x1 r0_S5000x1) (View.ld x2 r0_S128x128)⟩]

/-- The store covers the buffer. -/
theorem cover0_3 (p0 : Vec F S5000x128 .f32) (y : S5000x128.Idx) :
    ∃ pc ∈ ([⟨r0_S5000x128, p0⟩] : List (View.Piece (Elt F) S5000x128 .f32)), y ∈ pc.1.set :=
  View.cover_of_tiled [⟨r0_S5000x128, p0⟩] S5000x128.size (by rfl) y

/-! ## The body's triple -/

set_option maxHeartbeats 1000000 in
/-- The kernel body on whole staging memrefs, the inputs' at read contents `xW` and the output's at anything, runs to
    the continuation holding the inputs' as they were and the output's at `out0_3` of the inputs'. -/
theorem sound_kernel0 (c : Dev nD) (E : Set ℕ) (i : grid0.Coords) (arg1 : Memref sig .tc .vmem S5000x128 .f32) (harg1 : arg1.IsWhole) (arg2 : Memref sig .tc .vmem S5000x1 .f32) (harg2 : arg2.IsWhole) (arg3 : Memref sig .tc .vmem S128x128 .f32) (harg3 : arg3.IsWhole) (arg4 : Memref sig .tc .vmem S5000x128 .f32) (harg4 : arg4.IsWhole)
    (x0 : Vec F S5000x128 .f32) (x1 : Vec F S5000x1 .f32) (x2 : Vec F S128x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2)) -∗ K ⟨⟩))
      ⊢ wp frame (wpE (defs₀ (F := F)) Variants.none c none) E (cc0__layer1_kernel i arg1 harg1 arg2 harg2 arg3 harg3 arg4 harg4) K := by
  simp only [cc0__layer1_kernel_eq_skeleton]; unfold cc0__layer1_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of pipeline 0 on core `c`: the arrays as the region finds them (`V`); after the body at
    point `t` each input's buffer at its block and the output's at `out0_3` of the input blocks; the invariant
    the scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so the kernel's triple applies; the invariant and
    the core's debt pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Region1.lean ====
/- The second pallas_call (layer 2: the normalised, biased, rectified aggregate, normalised again, times the
   weight matrix) as a pipeline region: per window its block at a grid point, the buffer its body leaves in the
   output window, the body's triple, the pipeline's proof data and the body obligation, all at a parameter `V`,
   the TensorCore's buffer contents when the region is entered, and for any float model `F`. -/
import proofs.«145645_j19997367730789_1_alg».proof.Proof.Gen.Kernel.Launch
import proofs.«145645_j19997367730789_1_alg».proof.Proof.Gen.Kernel.Skeleton
import proofs.«145645_j19997367730789_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of long extents: the structural check recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: everything below holds for any such contents
variable (V : (c : Dev nD) → (b : Ref sig .tc) → Buf (Elt F) ((c : Thread nD τ).loc b))

/-! # Region 1: the second layer's relu-and-matmul kernel (custom_call 1, pipeline 1), at the entry contents `V` -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, whether or not it is fetched there
    (an unfetched point has the block index of the point before it), for any proof data whose array is `V`'s and
    whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, whether or not it is fetched there
    (an unfetched point has the block index of the point before it), for any proof data whose array is `V`'s and
    whose body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, whether or not it is fetched there
    (an unfetched point has the block index of the point before it), for any proof data whose array is `V`'s and
    whose body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, whether or not it is fetched there
    (an unfetched point has the block index of the point before it), for any proof data whose array is `V`'s and
    whose body leaves the block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, whether or not it is fetched there
    (an unfetched point has the block index of the point before it), for any proof data whose array is `V`'s and
    whose body leaves the block in place. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each buffer whole -/

abbrev r1_S5000x128 : Rect S5000x128 := Rect.unit (s := S5000x128) ![0, 0] S5000x128.size inb_S5000x128_S5000x128_0_0
abbrev r1_S5000x1 : Rect S5000x1 := Rect.unit (s := S5000x1) ![0, 0] S5000x1.size inb_S5000x1_S5000x1_0_0
abbrev r1_S1x128 : Rect S1x128 := Rect.unit (s := S1x128) ![0, 0] S1x128.size inb_S1x128_S1x128_0_0
abbrev r1_S128x128 : Rect S128x128 := Rect.unit (s := S128x128) ![0, 0] S128x128.size inb_S128x128_S128x128_0_0

/-! ## What the body leaves in the output window's buffer -/

/-- Window 5's staging buffer after the body, from the input windows' blocks: its one store, of the whole buffer. -/
def out1_5 (x0 : Vec F S5000x128 .f32) (x1 : Vec F S5000x1 .f32) (x2 : Vec F S1x128 .f32) (x3 : Vec F S5000x1 .f32) (x4 : Vec F S128x128 .f32) : Vec F S5000x128 .f32 :=
  View.canon [⟨r1_S5000x128, k1_pay1 (View.ld x0 r1_S5000x128) (View.ld x1 r1_S5000x1) (View.ld x2 r1_S1x128) (View.ld x3 r1_S5000x1) (View.ld x4 r1_S128x128)⟩]

/-- The store covers the buffer. -/
theorem cover1_5 (p0 : Vec F S5000x128 .f32) (y : S5000x128.Idx) :
    ∃ pc ∈ ([⟨r1_S5000x128, p0⟩] : List (View.Piece (Elt F) S5000x128 .f32)), y ∈ pc.1.set :=
  View.cover_of_tiled [⟨r1_S5000x128, p0⟩] S5000x128.size (by rfl) y

/-! ## The body's triple -/

set_option maxHeartbeats 1000000 in
/-- The kernel body on whole staging memrefs, the inputs' at read contents `xW` and the output's at anything, runs to
    the continuation holding the inputs' as they were and the output's at `out1_5` of the inputs'. -/
theorem sound_kernel1 (c : Dev nD) (E : Set ℕ) (i : grid1.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S5000x1 .f32) (harg4 : arg4.IsWhole) (arg5 : Memref sig .tc .vmem S128x128 .f32) (harg5 : arg5.IsWhole) (arg6 : Memref sig .tc .vmem S5000x128 .f32) (harg6 : arg6.IsWhole)
    (x0 : Vec F S5000x128 .f32) (x1 : Vec F S5000x1 .f32) (x2 : Vec F S1x128 .f32) (x3 : Vec F S5000x1 .f32) (x4 : Vec F S128x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out1_5 x0 x1 x2 x3 x4)) -∗ K ⟨⟩))
      ⊢ wp frame (wpE (defs₀ (F := F)) Variants.none c none) E (cc1__layer2_kernel i arg1 harg1 arg2 harg2 arg3 harg3 arg4 harg4 arg5 harg5 arg6 harg6) K := by
  simp only [cc1__layer2_kernel_eq_skeleton]; unfold cc1__layer2_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-! ## The pipeline's proof data -/

/-- The proof data of pipeline 1 on core `c`: the arrays as the region finds them (`V`); after the body at
    point `t` each input's buffer at its block and the output's at `out1_5` of the input blocks; the invariant
    the scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1_5 (iblk1 V c 0 t) (iblk1 V c 1 t) (iblk1 V c 2 t) (iblk1 V c 3 t) (iblk1 V c 4 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' memrefs hold their blocks, so the kernel's triple applies; the invariant and
    the core's debt pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Region2Runs.lean ====
import proofs.«145645_j19997367730789_1_alg».proof.Proof.Gen.Kernel.Regions
import proofs.«145645_j19997367730789_1_alg».proof.Proof.Gen.Kernel.Skeleton
import proofs.«145645_j19997367730789_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
/-! # Region 2 (the mean-pool and readout call): what its three control cases share

The grid has 10 points. The body zeroes the accumulator row at the first point, adds a row sum into it at
every point, and at the last point reads it back for the readout, which it stores into the output block. -/

/-! ## The windows' blocks -/

/-- Window `w`'s block at point `t`, read off its array at the contents the region is entered with. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, whether or not it was fetched there:
    an unfetched input has not moved its block index, and the body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, whether or not it was fetched there:
    an unfetched input has not moved its block index, and the body leaves the block in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, whether or not it was fetched there:
    an unfetched input has not moved its block index, and the body leaves the block in place. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, whether or not it was fetched there:
    an unfetched input has not moved its block index, and the body leaves the block in place. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block at every point, whether or not it was fetched there:
    an unfetched input has not moved its block index, and the body leaves the block in place. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-! ## The body's two conditions, in closed form over the grid -/

/-- The first condition: the point's coordinate is 0. -/
abbrev cond2_0 (i : grid2.Coords) : Prop := (Scalar.cmpi .ne (Scalar.extui (Scalar.cmpi .eq (BitVec.ofNat 32 (i 0).val) 0#32)) 0#32) = 1#1
/-- It holds at the first point only. -/
theorem hcond2_0 : ∀ t : Fin cfg2.N, cond2_0 (grid2.coords t) ↔ t.val = 0 :=
  (by decide +kernel : ∀ t : Fin grid2.N, cond2_0 (grid2.coords t) ↔ t.val = 0)

/-- The second condition: the point's coordinate is 9. -/
abbrev cond2_1 (i : grid2.Coords) : Prop := k2_cond2 i = 1#1
/-- It holds at the last point only. -/
theorem hcond2_1 : ∀ t : Fin cfg2.N, cond2_1 (grid2.coords t) ↔ t.val = 9 :=
  (by decide +kernel : ∀ t : Fin grid2.N, cond2_1 (grid2.coords t) ↔ t.val = 9)

/-! ## Where the output window is idle -/

theorem liveAt2_0 : ∀ t : Fin cfg2.N, cfg2.idle 0 (grid2.coords t) = false := fun _ => rfl
theorem liveAt2_1 : ∀ t : Fin cfg2.N, cfg2.idle 1 (grid2.coords t) = false := fun _ => rfl
theorem liveAt2_2 : ∀ t : Fin cfg2.N, cfg2.idle 2 (grid2.coords t) = false := fun _ => rfl
theorem liveAt2_3 : ∀ t : Fin cfg2.N, cfg2.idle 3 (grid2.coords t) = false := fun _ => rfl
theorem liveAt2_4 : ∀ t : Fin cfg2.N, cfg2.idle 4 (grid2.coords t) = false := fun _ => rfl
/-- Where the second condition fails the body stores nothing into the output block, -/
theorem idleAt2_5 : ∀ t : Fin cfg2.N, ¬cond2_1 (grid2.coords t) → cfg2.idle 5 (grid2.coords t) = true := by decide +kernel
/-- and the block is not written back there. -/
theorem noFlush2_5 : ∀ t : Fin cfg2.N, ¬cond2_1 (grid2.coords t) → (cfg2.win 5).flush t = false :=
  (by decide +kernel : ∀ t : Fin grid2.N, ¬cond2_1 (grid2.coords t) → win2_5.flush t = false)
/-- Where it holds the body stores the whole block. -/
theorem liveAt2_5 : ∀ t : Fin cfg2.N, cond2_1 (grid2.coords t) → cfg2.idle 5 (grid2.coords t) = false := by decide +kernel

/-! ## The staging memrefs and the accumulator -/

/-- The output window's one staging buffer, as a view: its contents are stated through it. -/
abbrev VO2_5 : View sig .tc .vmem S1x2 .f32 := (Memref.whole cc2_stg5_0 : Memref sig .tc .vmem S1x2 .f32).view
abbrev ms2_0 (t : Fin cfg2.N) : Memref sig .tc .vmem S5000x128 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S5000x1 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x128 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S128x2 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1x2 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S1x2 .f32 := win2_5.stage (cfg2.slots t 5)
abbrev hs2_5 (t : Fin cfg2.N) : (ms2_5 t).IsWhole := hstage2_5 ((cfg2.slots t 5).cast nbuf2_5)
/-- The accumulator row: a whole scoped buffer of the kernel's own, passed beside the windows. -/
abbrev scM2 : Memref sig .tc .vmem S1x128 .f32 := Memref.whole cc2_scratch0
abbrev VS2 : View sig .tc .vmem S1x128 .f32 := scM2.view

/-- The core's scoped buffers that are neither a staging buffer of this call nor the accumulator, at some contents
    each: carried through the region unopened. -/
abbrev others2 (c : Dev nD) : sProp 𝕄 :=
  Pipeline.scopedRestBut (Ix := Unit) (Name := ℕ) (U := UR sig nD τ) (Lvl := ℕ) (Val := Elt F) spec2 c [cc2_scratch0]

/-- The scoped buffers no window stages are the accumulator, owned at some contents, and the others. -/
theorem scopedRest2_split (c : Dev nD) :
    (Pipeline.scopedRest (Ix := Unit) (Name := ℕ) (U := UR sig nD τ) (Lvl := ℕ) (Val := Elt F) spec2 c : sProp 𝕄)
      = iprop((∃ d, owns (c : Thread nD τ) scM2 fullShare d) ∗ others2 c) := by
  rw [Pipeline.scopedRest_split_of_list spec2 c [cc2_scratch0] (by decide) (by decide)]
  simp only [bigSepL_singleton, scM2, owns_whole]; try rfl

end Cert.Kernel.Hand

end
-- ==== Proof.K.Region2RunA.lean ====
import proofs.«145645_j19997367730789_1_alg».proof.Proof.K.Region2Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
set_option maxHeartbeats 1000000 in
/-- The body at the first point (the accumulator zeroed, then the row sum added; no readout), on any whole staging memrefs: from the inputs' buffers at their contents `x·`,
    the output's at contents `xi5` (handed back untouched), the accumulator at anything,
    it runs to the continuation holding the inputs' as they were, the accumulator with the pieces `LS0` written.
    The pieces are the witness the symbolic run of the body's memory operations finds. -/
noncomputable def kernelRun2_A (c : Dev nD) (i : grid2.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S128x2 .f32) (harg4 : arg4.IsWhole) (arg5 : Memref sig .tc .vmem S1x2 .f32) (harg5 : arg5.IsWhole) (arg6 : Memref sig .tc .vmem S1x2 .f32) (harg6 : arg6.IsWhole) (arg7 : Memref sig .tc .vmem S1x128 .f32) (harg7 : arg7.IsWhole) (hc0 : cond2_0 i) (hc1 : ¬cond2_1 i)
    (x0 : Vec F S5000x128 .f32) (x1 : Vec F S5000x1 .f32) (x2 : Vec F S1x128 .f32) (x3 : Vec F S128x2 .f32) (x4 : Vec F S1x2 .f32) :
    Σ' (L5 : List (View.Piece (Elt F) S1x2 .f32)), { LS0 : List (View.Piece (Elt F) S1x128 .f32) //
      ∀ (xi5 : Vec F S1x2 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ (∃ f, arg7.view.loc (c : Thread nD τ) ↦[arg7.view.set]{fullShare} arg7.view.writes (Elt F) f LS0)) -∗ K ⟨⟩))
          ⊢ wp frame (wpE (defs₀ (F := F)) Variants.none c none) E (cc2__final_kernel i arg1 harg1 arg2 harg2 arg3 harg3 arg4 harg4 arg5 harg5 arg6 harg6 arg7 harg7) K } := by
  refine ⟨[], ?_, fun xi5 E K => ?run⟩
  case run =>
    simp only [cc2__final_kernel_eq_skeleton]; unfold cc2__final_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    iexists _; iexact HS0

end Cert.Kernel.Hand

end
-- ==== Proof.K.Region2RunB.lean ====
import proofs.«145645_j19997367730789_1_alg».proof.Proof.K.Region2RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
set_option maxHeartbeats 1000000 in
/-- The body at a point strictly between the first and the last (the row sum added; no zeroing, no readout), on any whole staging memrefs: from the inputs' buffers at their contents `x·`,
    the output's at contents `xi5` (handed back untouched), the accumulator at the contents `xs0` the point before left,
    it runs to the continuation holding the inputs' as they were, the accumulator with the pieces `LS0` written.
    The pieces are the witness the symbolic run of the body's memory operations finds. -/
noncomputable def kernelRun2_B (c : Dev nD) (i : grid2.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S128x2 .f32) (harg4 : arg4.IsWhole) (arg5 : Memref sig .tc .vmem S1x2 .f32) (harg5 : arg5.IsWhole) (arg6 : Memref sig .tc .vmem S1x2 .f32) (harg6 : arg6.IsWhole) (arg7 : Memref sig .tc .vmem S1x128 .f32) (harg7 : arg7.IsWhole) (hc0 : ¬cond2_0 i) (hc1 : ¬cond2_1 i)
    (x0 : Vec F S5000x128 .f32) (x1 : Vec F S5000x1 .f32) (x2 : Vec F S1x128 .f32) (x3 : Vec F S128x2 .f32) (x4 : Vec F S1x2 .f32) (xs0 : Vec F S1x128 .f32) :
    Σ' (L5 : List (View.Piece (Elt F) S1x2 .f32)), { LS0 : List (View.Piece (Elt F) S1x128 .f32) //
      ∀ (xi5 : Vec F S1x2 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ owns (c : Thread nD τ) arg7 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ (∃ f, arg7.view.loc (c : Thread nD τ) ↦[arg7.view.set]{fullShare} arg7.view.writes (Elt F) f LS0)) -∗ K ⟨⟩))
          ⊢ wp frame (wpE (defs₀ (F := F)) Variants.none c none) E (cc2__final_kernel i arg1 harg1 arg2 harg2 arg3 harg3 arg4 harg4 arg5 harg5 arg6 harg6 arg7 harg7) K } := by
  refine ⟨[], ?_, fun xi5 E K => ?run⟩
  case run =>
    simp only [cc2__final_kernel_eq_skeleton]; unfold cc2__final_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    iexists _; iexact HS0

end Cert.Kernel.Hand

end
-- ==== Proof.K.Region2RunC.lean ====
import proofs.«145645_j19997367730789_1_alg».proof.Proof.K.Region2RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
set_option maxHeartbeats 1000000 in
/-- The body at the last point (the row sum added, then the readout stored into the output block), on any whole staging memrefs: from the inputs' buffers at their contents `x·`,
    the output's at anything, the accumulator at the contents `xs0` the point before left,
    it runs to the continuation holding the inputs' as they were, the accumulator with the pieces `LS0` written and the output's buffer with the pieces `L5` written.
    The pieces are the witness the symbolic run of the body's memory operations finds. -/
noncomputable def kernelRun2_C (c : Dev nD) (i : grid2.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S128x2 .f32) (harg4 : arg4.IsWhole) (arg5 : Memref sig .tc .vmem S1x2 .f32) (harg5 : arg5.IsWhole) (arg6 : Memref sig .tc .vmem S1x2 .f32) (harg6 : arg6.IsWhole) (arg7 : Memref sig .tc .vmem S1x128 .f32) (harg7 : arg7.IsWhole) (hc0 : ¬cond2_0 i) (hc1 : cond2_1 i)
    (x0 : Vec F S5000x128 .f32) (x1 : Vec F S5000x1 .f32) (x2 : Vec F S1x128 .f32) (x3 : Vec F S128x2 .f32) (x4 : Vec F S1x2 .f32) (xs0 : Vec F S1x128 .f32) :
    Σ' (L5 : List (View.Piece (Elt F) S1x2 .f32)), { LS0 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f LS0)) -∗ K ⟨⟩))
          ⊢ wp frame (wpE (defs₀ (F := F)) Variants.none c none) E (cc2__final_kernel i arg1 harg1 arg2 harg2 arg3 harg3 arg4 harg4 arg5 harg5 arg6 harg6 arg7 harg7) K } := by
  refine ⟨?_, ?_, fun E K => ?run⟩
  case run =>
    simp only [cc2__final_kernel_eq_skeleton]; unfold cc2__final_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg7.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    iexists _; iexact HS0

end Cert.Kernel.Hand

end
-- ==== Proof.K.Region2.lean ====
import proofs.«145645_j19997367730789_1_alg».proof.Proof.K.Region2RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
/-! # Region 2: what the accumulator and the output hold point by point, the proof data, the body obligation

Case A is the first point, case B the points strictly between, case C the last point. -/

/-! ## What each case leaves -/

/-- What the output's staging buffer holds after the first point, read back over unknown contents (nothing is stored there: a placeholder nothing consults, the window being idle and not written back). -/
def out2_A_5 (c : Dev nD) (i : grid2.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S128x2 .f32) (harg4 : arg4.IsWhole) (arg5 : Memref sig .tc .vmem S1x2 .f32) (harg5 : arg5.IsWhole) (arg6 : Memref sig .tc .vmem S1x2 .f32) (harg6 : arg6.IsWhole) (arg7 : Memref sig .tc .vmem S1x128 .f32) (harg7 : arg7.IsWhole) (hc0 : cond2_0 i) (hc1 : ¬cond2_1 i)
    (x0 : Vec F S5000x128 .f32) (x1 : Vec F S5000x1 .f32) (x2 : Vec F S1x128 .f32) (x3 : Vec F S128x2 .f32) (x4 : Vec F S1x2 .f32) : Vec F S1x2 .f32 :=
  VO2_5.read (Elt F) (VO2_5.writes (Elt F) VO2_5.junk (kernelRun2_A c i arg1 harg1 arg2 harg2 arg3 harg3 arg4 harg4 arg5 harg5 arg6 harg6 arg7 harg7 hc0 hc1 x0 x1 x2 x3 x4).1)

/-- At the first point the body's stores into the accumulator cover it. -/
theorem scover2_A (c : Dev nD) (i : grid2.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S128x2 .f32) (harg4 : arg4.IsWhole) (arg5 : Memref sig .tc .vmem S1x2 .f32) (harg5 : arg5.IsWhole) (arg6 : Memref sig .tc .vmem S1x2 .f32) (harg6 : arg6.IsWhole) (arg7 : Memref sig .tc .vmem S1x128 .f32) (harg7 : arg7.IsWhole) (hc0 : cond2_0 i) (hc1 : ¬cond2_1 i)
    (x0 : Vec F S5000x128 .f32) (x1 : Vec F S5000x1 .f32) (x2 : Vec F S1x128 .f32) (x3 : Vec F S128x2 .f32) (x4 : Vec F S1x2 .f32) (y : S1x128.Idx) :
    ∃ pc ∈ (kernelRun2_A c i arg1 harg1 arg2 harg2 arg3 harg3 arg4 harg4 arg5 harg5 arg6 harg6 arg7 harg7 hc0 hc1 x0 x1 x2 x3 x4).2.1, y ∈ pc.1.set :=
  View.cover_of_tiledL (kernelRun2_A c i arg1 harg1 arg2 harg2 arg3 harg3 arg4 harg4 arg5 harg5 arg6 harg6 arg7 harg7 hc0 hc1 x0 x1 x2 x3 x4).2.1 S1x128.size (by sl_kernel_rfl) y

/-- What the accumulator holds after the first point. -/
def sout2_A (c : Dev nD) (i : grid2.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S128x2 .f32) (harg4 : arg4.IsWhole) (arg5 : Memref sig .tc .vmem S1x2 .f32) (harg5 : arg5.IsWhole) (arg6 : Memref sig .tc .vmem S1x2 .f32) (harg6 : arg6.IsWhole) (arg7 : Memref sig .tc .vmem S1x128 .f32) (harg7 : arg7.IsWhole) (hc0 : cond2_0 i) (hc1 : ¬cond2_1 i)
    (x0 : Vec F S5000x128 .f32) (x1 : Vec F S5000x1 .f32) (x2 : Vec F S1x128 .f32) (x3 : Vec F S128x2 .f32) (x4 : Vec F S1x2 .f32) : Vec F S1x128 .f32 :=
  VS2.read (Elt F) (VS2.writes (Elt F) VS2.junk (kernelRun2_A c i arg1 harg1 arg2 harg2 arg3 harg3 arg4 harg4 arg5 harg5 arg6 harg6 arg7 harg7 hc0 hc1 x0 x1 x2 x3 x4).2.1)

/-- What the output's staging buffer holds after a middle point, read back over unknown contents (nothing is stored there: a placeholder nothing consults, the window being idle and not written back). -/
def out2_B_5 (c : Dev nD) (i : grid2.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S128x2 .f32) (harg4 : arg4.IsWhole) (arg5 : Memref sig .tc .vmem S1x2 .f32) (harg5 : arg5.IsWhole) (arg6 : Memref sig .tc .vmem S1x2 .f32) (harg6 : arg6.IsWhole) (arg7 : Memref sig .tc .vmem S1x128 .f32) (harg7 : arg7.IsWhole) (hc0 : ¬cond2_0 i) (hc1 : ¬cond2_1 i)
    (x0 : Vec F S5000x128 .f32) (x1 : Vec F S5000x1 .f32) (x2 : Vec F S1x128 .f32) (x3 : Vec F S128x2 .f32) (x4 : Vec F S1x2 .f32) (xs0 : Vec F S1x128 .f32) : Vec F S1x2 .f32 :=
  VO2_5.read (Elt F) (VO2_5.writes (Elt F) VO2_5.junk (kernelRun2_B c i arg1 harg1 arg2 harg2 arg3 harg3 arg4 harg4 arg5 harg5 arg6 harg6 arg7 harg7 hc0 hc1 x0 x1 x2 x3 x4 xs0).1)

/-- At a middle point the body's stores into the accumulator cover it. -/
theorem scover2_B (c : Dev nD) (i : grid2.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S128x2 .f32) (harg4 : arg4.IsWhole) (arg5 : Memref sig .tc .vmem S1x2 .f32) (harg5 : arg5.IsWhole) (arg6 : Memref sig .tc .vmem S1x2 .f32) (harg6 : arg6.IsWhole) (arg7 : Memref sig .tc .vmem S1x128 .f32) (harg7 : arg7.IsWhole) (hc0 : ¬cond2_0 i) (hc1 : ¬cond2_1 i)
    (x0 : Vec F S5000x128 .f32) (x1 : Vec F S5000x1 .f32) (x2 : Vec F S1x128 .f32) (x3 : Vec F S128x2 .f32) (x4 : Vec F S1x2 .f32) (xs0 : Vec F S1x128 .f32) (y : S1x128.Idx) :
    ∃ pc ∈ (kernelRun2_B c i arg1 harg1 arg2 harg2 arg3 harg3 arg4 harg4 arg5 harg5 arg6 harg6 arg7 harg7 hc0 hc1 x0 x1 x2 x3 x4 xs0).2.1, y ∈ pc.1.set :=
  View.cover_of_tiledL (kernelRun2_B c i arg1 harg1 arg2 harg2 arg3 harg3 arg4 harg4 arg5 harg5 arg6 harg6 arg7 harg7 hc0 hc1 x0 x1 x2 x3 x4 xs0).2.1 S1x128.size (by sl_kernel_rfl) y

/-- What the accumulator holds after a middle point. -/
def sout2_B (c : Dev nD) (i : grid2.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S128x2 .f32) (harg4 : arg4.IsWhole) (arg5 : Memref sig .tc .vmem S1x2 .f32) (harg5 : arg5.IsWhole) (arg6 : Memref sig .tc .vmem S1x2 .f32) (harg6 : arg6.IsWhole) (arg7 : Memref sig .tc .vmem S1x128 .f32) (harg7 : arg7.IsWhole) (hc0 : ¬cond2_0 i) (hc1 : ¬cond2_1 i)
    (x0 : Vec F S5000x128 .f32) (x1 : Vec F S5000x1 .f32) (x2 : Vec F S1x128 .f32) (x3 : Vec F S128x2 .f32) (x4 : Vec F S1x2 .f32) (xs0 : Vec F S1x128 .f32) : Vec F S1x128 .f32 :=
  VS2.read (Elt F) (VS2.writes (Elt F) VS2.junk (kernelRun2_B c i arg1 harg1 arg2 harg2 arg3 harg3 arg4 harg4 arg5 harg5 arg6 harg6 arg7 harg7 hc0 hc1 x0 x1 x2 x3 x4 xs0).2.1)

/-- At the last point the body's store into the output block covers it. -/
theorem cover2_C_5 (c : Dev nD) (i : grid2.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S128x2 .f32) (harg4 : arg4.IsWhole) (arg5 : Memref sig .tc .vmem S1x2 .f32) (harg5 : arg5.IsWhole) (arg6 : Memref sig .tc .vmem S1x2 .f32) (harg6 : arg6.IsWhole) (arg7 : Memref sig .tc .vmem S1x128 .f32) (harg7 : arg7.IsWhole) (hc0 : ¬cond2_0 i) (hc1 : cond2_1 i)
    (x0 : Vec F S5000x128 .f32) (x1 : Vec F S5000x1 .f32) (x2 : Vec F S1x128 .f32) (x3 : Vec F S128x2 .f32) (x4 : Vec F S1x2 .f32) (xs0 : Vec F S1x128 .f32) (y : S1x2.Idx) :
    ∃ pc ∈ (kernelRun2_C c i arg1 harg1 arg2 harg2 arg3 harg3 arg4 harg4 arg5 harg5 arg6 harg6 arg7 harg7 hc0 hc1 x0 x1 x2 x3 x4 xs0).1, y ∈ pc.1.set :=
  View.cover_of_tiledL (kernelRun2_C c i arg1 harg1 arg2 harg2 arg3 harg3 arg4 harg4 arg5 harg5 arg6 harg6 arg7 harg7 hc0 hc1 x0 x1 x2 x3 x4 xs0).1 S1x2.size (by sl_kernel_rfl) y

/-- What the output's staging buffer holds after the last point, read back over unknown contents. -/
def out2_C_5 (c : Dev nD) (i : grid2.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S128x2 .f32) (harg4 : arg4.IsWhole) (arg5 : Memref sig .tc .vmem S1x2 .f32) (harg5 : arg5.IsWhole) (arg6 : Memref sig .tc .vmem S1x2 .f32) (harg6 : arg6.IsWhole) (arg7 : Memref sig .tc .vmem S1x128 .f32) (harg7 : arg7.IsWhole) (hc0 : ¬cond2_0 i) (hc1 : cond2_1 i)
    (x0 : Vec F S5000x128 .f32) (x1 : Vec F S5000x1 .f32) (x2 : Vec F S1x128 .f32) (x3 : Vec F S128x2 .f32) (x4 : Vec F S1x2 .f32) (xs0 : Vec F S1x128 .f32) : Vec F S1x2 .f32 :=
  VO2_5.read (Elt F) (VO2_5.writes (Elt F) VO2_5.junk (kernelRun2_C c i arg1 harg1 arg2 harg2 arg3 harg3 arg4 harg4 arg5 harg5 arg6 harg6 arg7 harg7 hc0 hc1 x0 x1 x2 x3 x4 xs0).1)

/-- At the last point the body's stores into the accumulator cover it. -/
theorem scover2_C (c : Dev nD) (i : grid2.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S128x2 .f32) (harg4 : arg4.IsWhole) (arg5 : Memref sig .tc .vmem S1x2 .f32) (harg5 : arg5.IsWhole) (arg6 : Memref sig .tc .vmem S1x2 .f32) (harg6 : arg6.IsWhole) (arg7 : Memref sig .tc .vmem S1x128 .f32) (harg7 : arg7.IsWhole) (hc0 : ¬cond2_0 i) (hc1 : cond2_1 i)
    (x0 : Vec F S5000x128 .f32) (x1 : Vec F S5000x1 .f32) (x2 : Vec F S1x128 .f32) (x3 : Vec F S128x2 .f32) (x4 : Vec F S1x2 .f32) (xs0 : Vec F S1x128 .f32) (y : S1x128.Idx) :
    ∃ pc ∈ (kernelRun2_C c i arg1 harg1 arg2 harg2 arg3 harg3 arg4 harg4 arg5 harg5 arg6 harg6 arg7 harg7 hc0 hc1 x0 x1 x2 x3 x4 xs0).2.1, y ∈ pc.1.set :=
  View.cover_of_tiledL (kernelRun2_C c i arg1 harg1 arg2 harg2 arg3 harg3 arg4 harg4 arg5 harg5 arg6 harg6 arg7 harg7 hc0 hc1 x0 x1 x2 x3 x4 xs0).2.1 S1x128.size (by sl_kernel_rfl) y

/-- What the accumulator holds after the last point. -/
def sout2_C (c : Dev nD) (i : grid2.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S128x2 .f32) (harg4 : arg4.IsWhole) (arg5 : Memref sig .tc .vmem S1x2 .f32) (harg5 : arg5.IsWhole) (arg6 : Memref sig .tc .vmem S1x2 .f32) (harg6 : arg6.IsWhole) (arg7 : Memref sig .tc .vmem S1x128 .f32) (harg7 : arg7.IsWhole) (hc0 : ¬cond2_0 i) (hc1 : cond2_1 i)
    (x0 : Vec F S5000x128 .f32) (x1 : Vec F S5000x1 .f32) (x2 : Vec F S1x128 .f32) (x3 : Vec F S128x2 .f32) (x4 : Vec F S1x2 .f32) (xs0 : Vec F S1x128 .f32) : Vec F S1x128 .f32 :=
  VS2.read (Elt F) (VS2.writes (Elt F) VS2.junk (kernelRun2_C c i arg1 harg1 arg2 harg2 arg3 harg3 arg4 harg4 arg5 harg5 arg6 harg6 arg7 harg7 hc0 hc1 x0 x1 x2 x3 x4 xs0).2.1)

/-! ## What the output's buffer and the accumulator hold after each point -/

/-- The accumulation: after the body at position `n`, the output's staging buffer and the accumulator (a pair) hold
    what the case the point is in leaves, run at the point's input blocks and — past the first point — at the
    accumulator the point before left. -/
def outsAt2 (c : Dev nD) : (n : ℕ) → n < cfg2.N → Vec F S1x2 .f32 × Vec F S1x128 .f32
  | 0, hn => (out2_A_5 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) scM2 (Memref.isWhole_whole _) ((hcond2_0 ⟨0, hn⟩).mpr rfl) (fun h => absurd ((hcond2_1 ⟨0, hn⟩).mp h) (by decide : ¬(0 : ℕ) = 9)) (iblk2 V c 0 ⟨0, hn⟩) (iblk2 V c 1 ⟨0, hn⟩) (iblk2 V c 2 ⟨0, hn⟩) (iblk2 V c 3 ⟨0, hn⟩) (iblk2 V c 4 ⟨0, hn⟩), sout2_A c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) scM2 (Memref.isWhole_whole _) ((hcond2_0 ⟨0, hn⟩).mpr rfl) (fun h => absurd ((hcond2_1 ⟨0, hn⟩).mp h) (by decide : ¬(0 : ℕ) = 9)) (iblk2 V c 0 ⟨0, hn⟩) (iblk2 V c 1 ⟨0, hn⟩) (iblk2 V c 2 ⟨0, hn⟩) (iblk2 V c 3 ⟨0, hn⟩) (iblk2 V c 4 ⟨0, hn⟩))
  | n + 1, hn =>
    if h1 : n + 1 = 9 then
      (out2_C_5 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2 (Memref.isWhole_whole _) (fun h => absurd ((hcond2_0 ⟨n + 1, hn⟩).mp h) (Nat.succ_ne_zero n)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 c n (Nat.lt_of_succ_lt hn)).2, sout2_C c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2 (Memref.isWhole_whole _) (fun h => absurd ((hcond2_0 ⟨n + 1, hn⟩).mp h) (Nat.succ_ne_zero n)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 c n (Nat.lt_of_succ_lt hn)).2)
    else
      (out2_B_5 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2 (Memref.isWhole_whole _) (fun h => absurd ((hcond2_0 ⟨n + 1, hn⟩).mp h) (Nat.succ_ne_zero n)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 c n (Nat.lt_of_succ_lt hn)).2, sout2_B c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2 (Memref.isWhole_whole _) (fun h => absurd ((hcond2_0 ⟨n + 1, hn⟩).mp h) (Nat.succ_ne_zero n)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 c n (Nat.lt_of_succ_lt hn)).2)

/-- `outsAt2` at the first point. -/
theorem outsAt2_A (c : Dev nD) (t : Fin cfg2.N) (h0 : t.val = 0) (h1 : ¬t.val = 9) :
    outsAt2 V c t.val t.isLt = (out2_A_5 c (grid2.coords t) (ms2_0 t) (hs2_0 t) (ms2_1 t) (hs2_1 t) (ms2_2 t) (hs2_2 t) (ms2_3 t) (hs2_3 t) (ms2_4 t) (hs2_4 t) (ms2_5 t) (hs2_5 t) scM2 (Memref.isWhole_whole _) ((hcond2_0 t).mpr h0) (fun h => h1 ((hcond2_1 t).mp h)) (iblk2 V c 0 t) (iblk2 V c 1 t) (iblk2 V c 2 t) (iblk2 V c 3 t) (iblk2 V c 4 t), sout2_A c (grid2.coords t) (ms2_0 t) (hs2_0 t) (ms2_1 t) (hs2_1 t) (ms2_2 t) (hs2_2 t) (ms2_3 t) (hs2_3 t) (ms2_4 t) (hs2_4 t) (ms2_5 t) (hs2_5 t) scM2 (Memref.isWhole_whole _) ((hcond2_0 t).mpr h0) (fun h => h1 ((hcond2_1 t).mp h)) (iblk2 V c 0 t) (iblk2 V c 1 t) (iblk2 V c 2 t) (iblk2 V c 3 t) (iblk2 V c 4 t)) := by
  obtain ⟨n, hn⟩ := t
  cases n with
  | zero => exact rfl
  | succ n => exact absurd h0 (Nat.succ_ne_zero n)

/-- `outsAt2` at a middle point: over what the point before left. -/
theorem outsAt2_B (c : Dev nD) (t : Fin cfg2.N) (h0 : ¬t.val = 0) (h1 : ¬t.val = 9) :
    outsAt2 V c t.val t.isLt = (out2_B_5 c (grid2.coords t) (ms2_0 t) (hs2_0 t) (ms2_1 t) (hs2_1 t) (ms2_2 t) (hs2_2 t) (ms2_3 t) (hs2_3 t) (ms2_4 t) (hs2_4 t) (ms2_5 t) (hs2_5 t) scM2 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (outsAt2 V c (t.val - 1) (Nat.lt_of_le_of_lt (Nat.sub_le _ _) t.isLt)).2, sout2_B c (grid2.coords t) (ms2_0 t) (hs2_0 t) (ms2_1 t) (hs2_1 t) (ms2_2 t) (hs2_2 t) (ms2_3 t) (hs2_3 t) (ms2_4 t) (hs2_4 t) (ms2_5 t) (hs2_5 t) scM2 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (outsAt2 V c (t.val - 1) (Nat.lt_of_le_of_lt (Nat.sub_le _ _) t.isLt)).2) := by
  obtain ⟨n, hn⟩ := t
  cases n with
  | zero => exact absurd rfl h0
  | succ n => exact (dif_neg h1).trans rfl

/-- `outsAt2` at the last point: over what the point before left. -/
theorem outsAt2_C (c : Dev nD) (t : Fin cfg2.N) (h0 : ¬t.val = 0) (h1 : t.val = 9) :
    outsAt2 V c t.val t.isLt = (out2_C_5 c (grid2.coords t) (ms2_0 t) (hs2_0 t) (ms2_1 t) (hs2_1 t) (ms2_2 t) (hs2_2 t) (ms2_3 t) (hs2_3 t) (ms2_4 t) (hs2_4 t) (ms2_5 t) (hs2_5 t) scM2 (Memref.isWhole_whole _) (fun h => h0 ((hcond2_0 t).mp h)) ((hcond2_1 t).mpr h1) (iblk2 V c 0 t) (iblk2 V c 1 t) (iblk2 V c 2 t) (iblk2 V c 3 t) (iblk2 V c 4 t) (outsAt2 V c (t.val - 1) (Nat.lt_of_le_of_lt (Nat.sub_le _ _) t.isLt)).2, sout2_C c (grid2.coords t) (ms2_0 t) (hs2_0 t) (ms2_1 t) (hs2_1 t) (ms2_2 t) (hs2_2 t) (ms2_3 t) (hs2_3 t) (ms2_4 t) (hs2_4 t) (ms2_5 t) (hs2_5 t) scM2 (Memref.isWhole_whole _) (fun h => h0 ((hcond2_0 t).mp h)) ((hcond2_1 t).mpr h1) (iblk2 V c 0 t) (iblk2 V c 1 t) (iblk2 V c 2 t) (iblk2 V c 3 t) (iblk2 V c 4 t) (outsAt2 V c (t.val - 1) (Nat.lt_of_le_of_lt (Nat.sub_le _ _) t.isLt)).2) := by
  obtain ⟨n, hn⟩ := t
  cases n with
  | zero => exact absurd rfl h0
  | succ n => exact (dif_pos h1).trans rfl

/-! ## The invariant -/

/-- The class's invariant with the accumulator split off the other scoped buffers. -/
theorem PhiA2_eq (c : Dev nD) :
    (Pipeline.ΦA spec2 c : sProp 𝕄)
      = iprop(iprop((∃ d, owns (c : Thread nD τ) scM2 fullShare d) ∗ others2 c) ∗ (∃ r, prngReg c r)) := by
  unfold Pipeline.ΦA; rw [scopedRest2_split]

/-- The invariant before position `n`: before the first point every scoped buffer no window stages at anything and
    the generator register at some state; afterwards the accumulator at what the point before left in it, the other
    scoped buffers at anything, the register at some state. -/
def PhiS2 (c : Dev nD) : (n : ℕ) → n ≤ cfg2.N → sProp 𝕄
  | 0, _ => Pipeline.ΦA spec2 c
  | n + 1, hn => iprop(iprop(owns (c : Thread nD τ) scM2 fullShare ((outsAt2 V c n hn).2) ∗ others2 c) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(owns (c : Thread nD τ) scM2 fullShare ((outsAt2 V c n hn).2) ∗ others2 c) ∗ (∃ r, prngReg c r)) := rfl

theorem PhiS2_pos (c : Dev nD) (n : ℕ) (h : n ≤ cfg2.N) (hz : n ≠ 0) :
    PhiS2 V c n h = iprop(iprop(owns (c : Thread nD τ) scM2 fullShare ((outsAt2 V c (n - 1) (by omega)).2) ∗ others2 c) ∗ (∃ r, prngReg c r)) := by
  cases n with
  | zero => exact absurd rfl hz
  | succ n => rfl

/-! ## The proof data -/

/-- The proof data of region 2 on core `c`: the arrays as the region finds them; after the body at point `t` each
    input's buffer at its block and the output's at `outsAt2`; the invariant `PhiS2`; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = (outsAt2 V c t.val t.isLt).1 := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-- Input window 0 is never idle: the body leaves its buffer at its block. -/
theorem leaves2_0 (c : Dev nD) (t : Fin cfg2.N) :
    (dat2 V c).leavesExact 0 t = owns (c : Thread nD τ) (ms2_0 t) fullShare (iblk2 V c 0 t) := by
  unfold Dat.leavesExact; rw [liveAt2_0 t, after2_0]
/-- Input window 1 is never idle: the body leaves its buffer at its block. -/
theorem leaves2_1 (c : Dev nD) (t : Fin cfg2.N) :
    (dat2 V c).leavesExact 1 t = owns (c : Thread nD τ) (ms2_1 t) fullShare (iblk2 V c 1 t) := by
  unfold Dat.leavesExact; rw [liveAt2_1 t, after2_1]
/-- Input window 2 is never idle: the body leaves its buffer at its block. -/
theorem leaves2_2 (c : Dev nD) (t : Fin cfg2.N) :
    (dat2 V c).leavesExact 2 t = owns (c : Thread nD τ) (ms2_2 t) fullShare (iblk2 V c 2 t) := by
  unfold Dat.leavesExact; rw [liveAt2_2 t, after2_2]
/-- Input window 3 is never idle: the body leaves its buffer at its block. -/
theorem leaves2_3 (c : Dev nD) (t : Fin cfg2.N) :
    (dat2 V c).leavesExact 3 t = owns (c : Thread nD τ) (ms2_3 t) fullShare (iblk2 V c 3 t) := by
  unfold Dat.leavesExact; rw [liveAt2_3 t, after2_3]
/-- Input window 4 is never idle: the body leaves its buffer at its block. -/
theorem leaves2_4 (c : Dev nD) (t : Fin cfg2.N) :
    (dat2 V c).leavesExact 4 t = owns (c : Thread nD τ) (ms2_4 t) fullShare (iblk2 V c 4 t) := by
  unfold Dat.leavesExact; rw [liveAt2_4 t, after2_4]
/-- At the last point the output window is live: the body leaves its buffer at the point's contents. -/
theorem leaves2_5_C (c : Dev nD) (t : Fin cfg2.N) (h1 : t.val = 9) :
    (dat2 V c).leavesExact 5 t = owns (c : Thread nD τ) (ms2_5 t) fullShare ((outsAt2 V c t.val t.isLt).1) := by
  unfold Dat.leavesExact; rw [liveAt2_5 t ((hcond2_1 t).mpr h1), after2_5]
/-- At every other point it is idle and not written back: the body hands its buffer back as found. -/
theorem leaves2_5_idle (c : Dev nD) (t : Fin cfg2.N) (h1 : ¬t.val = 9) :
    (dat2 V c).leavesExact 5 t = iprop(∃ d, owns (c : Thread nD τ) (ms2_5 t) fullShare ((dat2 V c).before 5 t d)) :=
  Dat.leavesExact_idle (dat2 V c) 5 t (idleAt2_5 t (fun h => h1 ((hcond2_1 t).mp h))) (noFlush2_5 t (fun h => h1 ((hcond2_1 t).mp h)))

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t)

set_option maxHeartbeats 4800000 in
/-- The body at any point. The inputs' memrefs hold their blocks; the closed forms of the two conditions say which
    case the point is in; the invariant hands the body the accumulator — at anything at the first point, at what the
    point before left afterwards — and takes it back at this point's contents, the stores covering it; the other
    scoped buffers and the generator register ride along; the core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).owesAt () t.succ = (dat2 V c).owesAt () t.castSucc from rfl]
  rw [show (dat2 V c).Φ t.succ = PhiS2 V c (t.val + 1) t.isLt from rfl, PhiS2_succ]
  have hN : t.val < 10 := lt_of_lt_of_eq t.isLt (show cfg2.N = 10 from N_2)
  by_cases h0 : t.val = 0
  · have h1 : ¬t.val = 9 := by omega
    rw [leaves2_0, leaves2_1, leaves2_2, leaves2_3, leaves2_4, leaves2_5_idle V c t h1]
    rw [outsAt2_A V c t h0 h1]
    unfold sout2_A; (try dsimp only)
    rw [PhiS2_castSucc V c t, PhiS2_zero V c _ _ h0, PhiA2_eq]
    iintro ⟨⟨⟨HS0, Hoth⟩, Hg⟩, Ho, ⟨%d0, H0⟩, ⟨%d1, H1⟩, ⟨%d2, H2⟩, ⟨%d3, H3⟩, ⟨%d4, H4⟩, ⟨%d5, H5⟩⟩
    iapply ((kernelRun2_A c (grid2.coords t) _ _ _ _ _ _ _ _ _ _ _ _ _ _ ((hcond2_0 t).mpr h0) (fun h => h1 ((hcond2_1 t).mp h)) (iblk2 V c 0 t) (iblk2 V c 1 t) (iblk2 V c 2 t) (iblk2 V c 3 t) (iblk2 V c 4 t)).2.2 _ Set.univ _)
    isplitl [H0]; · iexact H0
    isplitl [H1]; · iexact H1
    isplitl [H2]; · iexact H2
    isplitl [H3]; · iexact H3
    isplitl [H4]; · iexact H4
    isplitl [H5]; · iexact H5
    isplitl [HS0]; · iexact HS0
    iintro ⟨H0, H1, H2, H3, H4, H5, ⟨%es0, HS0⟩⟩
    isplitl [HS0 Hoth Hg]
    · isplitl [HS0 Hoth]
      · isplitl [HS0]
        · unfold owns; iexists _; isplitr
          swap; · iexact HS0
          ipureintro; exact View.read_writes_of_cover _ _ _ _ _ (scover2_A c _ _ _ _ _ _ _ _ _ _ _ _ _ _ _ _ _ _ _ _ _ _)
        iexact Hoth
      iexact Hg
    isplitl [Ho]; · iexact Ho
    isplitl [H0]; · iexact H0
    isplitl [H1]; · iexact H1
    isplitl [H2]; · iexact H2
    isplitl [H3]; · iexact H3
    isplitl [H4]; · iexact H4
    iexists _; iexact H5
  · by_cases h1 : t.val = 9
    ·
      rw [leaves2_0, leaves2_1, leaves2_2, leaves2_3, leaves2_4, leaves2_5_C V c t h1]
      rw [outsAt2_C V c t h0 h1]
      unfold out2_C_5 sout2_C; (try dsimp only)
      rw [PhiS2_castSucc V c t, PhiS2_pos V c _ _ h0]
      iintro ⟨⟨⟨HS0, Hoth⟩, Hg⟩, Ho, ⟨%d0, H0⟩, ⟨%d1, H1⟩, ⟨%d2, H2⟩, ⟨%d3, H3⟩, ⟨%d4, H4⟩, ⟨%d5, H5⟩⟩
      iapply ((kernelRun2_C c (grid2.coords t) _ _ _ _ _ _ _ _ _ _ _ _ _ _ (fun h => h0 ((hcond2_0 t).mp h)) ((hcond2_1 t).mpr h1) (iblk2 V c 0 t) (iblk2 V c 1 t) (iblk2 V c 2 t) (iblk2 V c 3 t) (iblk2 V c 4 t) _).2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      iintro ⟨H0, H1, H2, H3, H4, ⟨%e5, H5⟩, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover2_C c _ _ _ _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (cover2_C_5 c _ _ _ _ _ _ _ _ _ _ _ _ _ _ _ _ _ _ _ _ _ _ _)
    ·
      rw [leaves2_0, leaves2_1, leaves2_2, leaves2_3, leaves2_4, leaves2_5_idle V c t h1]
      rw [outsAt2_B V c t h0 h1]
      unfold sout2_B; (try dsimp only)
      rw [PhiS2_castSucc V c t, PhiS2_pos V c _ _ h0]
      iintro ⟨⟨⟨HS0, Hoth⟩, Hg⟩, Ho, ⟨%d0, H0⟩, ⟨%d1, H1⟩, ⟨%d2, H2⟩, ⟨%d3, H3⟩, ⟨%d4, H4⟩, ⟨%d5, H5⟩⟩
      iapply ((kernelRun2_B c (grid2.coords t) _ _ _ _ _ _ _ _ _ _ _ _ _ _ (fun h => h0 ((hcond2_0 t).mp h)) (fun h => h1 ((hcond2_1 t).mp h)) (iblk2 V c 0 t) (iblk2 V c 1 t) (iblk2 V c 2 t) (iblk2 V c 3 t) (iblk2 V c 4 t) _).2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      iintro ⟨H0, H1, H2, H3, H4, H5, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover2_B c _ _ _ _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The body obligation, at every point. -/
theorem body_obligation2 (c : Dev nD) : BodyObligation (dat2 (F := F) V c) (defs₀ (F := F)) Variants.none () Set.univ := fun t => by
  rw [bigSep_W2, bigSep_W2]
  exact sound_body2 V c t

/-! ## Entering and leaving the invariant -/

/-- The generator register at some state and the scoped buffers no window stages make the invariant before the first
    point (there is no prefetched table). -/
theorem hin2 (c : Dev nD) : iprop((∃ r, prngReg c r) ∗ Pipeline.prefHeld (pcfgs (F := F) 2).pre c (fun _ => fullShare) (adm (F := F) 2).1 ∗ Pipeline.scopedRest spec2 c) ⊢ ((dat2 V c).Φ 0 : sProp 𝕄) := by
  rw [show (dat2 V c).Φ 0 = PhiS2 V c 0 (Nat.zero_le _) from rfl, PhiS2_zero V c 0 _ rfl]; unfold Pipeline.ΦA
  iintro ⟨Hp, -, Hr⟩
  isplitl [Hr]; · iexact Hr
  iexact Hp

/-- After the last point the invariant gives them back: the accumulator's named contents are forgotten. -/
theorem hout2 (c : Dev nD) : ((dat2 V c).Φ (Fin.last cfg2.N) : sProp 𝕄) ⊢ iprop((∃ r, prngReg c r) ∗ Pipeline.ownSems0 (fun k : PEmpty => k.elim) c ∗ Pipeline.scopedRest spec2 c) := by
  rw [Pipeline.ownSems0_none, show (dat2 V c).Φ (Fin.last cfg2.N) = PhiS2 V c (Fin.last cfg2.N).val (Nat.le_of_lt_succ (Fin.last cfg2.N).isLt) from rfl,
    PhiS2_pos V c _ _ (by rw [Fin.val_last]; have : cfg2.N = 10 := N_2; omega), scopedRest2_split]
  iintro ⟨⟨HS0, Hoth⟩, Hg⟩
  isplitl [Hg]; · iexact Hg
  isplitr; · iempintro
  isplitl [HS0]; · iexists _; iexact HS0
  iexact Hoth

end Cert.Kernel.Hand

end
-- ==== Proof.K.Run.lean ====
import proofs.«145645_j19997367730789_1_alg».proof.Proof.Gen.Kernel.Regions
import proofs.«145645_j19997367730789_1_alg».proof.Proof.K.Region0
import proofs.«145645_j19997367730789_1_alg».proof.Proof.K.Region1
import proofs.«145645_j19997367730789_1_alg».proof.Proof.K.Region2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-! ## The buffers' contents at the region boundaries

Each region changes one array: region 0 writes the layer-1 product into `main_v25`, region 1 the layer-2 product into
`main_v36`, region 2 the read-out into `main_v47`. What a region leaves there is what its write-backs fold to
(`Dat.arrAt … N`); between regions the host stretches apply (`StableHlo.after`). The contents after each region are
defined one region at a time, each from the boundary contents before it. -/

/-- A family of "what the regions leave" from three valuations, read at positions 6, 8 and 10. -/
def mkOuts (a6 a8 a10 : Dev nD → Valuation τ sig (Elt F)) : Outs (F := F) :=
  fun n r c => if n = 6 then a6 c r else if n = 8 then a8 c r else a10 c r

/-- The buffers as region 0 finds them, read at the TensorCore's references. -/
abbrev E5 : (c : Dev nD) → (b : Ref sig .tc) → Buf (Elt F) ((c : Thread nD τ).loc b) := fun c b => V5 m c b
/-- After region 0: its arrays at what its write-backs leave. -/
def W6 (c : Dev nD) : Valuation τ sig (Elt F) :=
  Pipeline.withArrays spec0 c (V5 m c) fun w => (dat0 (E5 m) c).arrAt w cfg0.N
def outs6 : Outs (F := F) := mkOuts (W6 m) (W6 m) (W6 m)

/-- The buffers as region 1 finds them. -/
abbrev E7 : (c : Dev nD) → (b : Ref sig .tc) → Buf (Elt F) ((c : Thread nD τ).loc b) := fun c b => V7 m (outs6 m) c b
def W8 (c : Dev nD) : Valuation τ sig (Elt F) :=
  Pipeline.withArrays spec1 c (V7 m (outs6 m) c) fun w => (dat1 (E7 m) c).arrAt w cfg1.N
def outs8 : Outs (F := F) := mkOuts (W6 m) (W8 m) (W8 m)

/-- The buffers as region 2 finds them. -/
abbrev E9 : (c : Dev nD) → (b : Ref sig .tc) → Buf (Elt F) ((c : Thread nD τ).loc b) := fun c b => V9 m (outs8 m) c b
def W10 (c : Dev nD) : Valuation τ sig (Elt F) :=
  Pipeline.withArrays spec2 c (V9 m (outs8 m) c) fun w => (dat2 (E9 m) c).arrAt w cfg2.N
/-- What the three regions leave. -/
def outs : Outs (F := F) := mkOuts (W6 m) (W8 m) (W10 m)

theorem outs_6 (r : Ref sig .tc) (c : Dev nD) : outs m 6 r c = W6 m c r := rfl
theorem outs_8 (r : Ref sig .tc) (c : Dev nD) : outs m 8 r c = W8 m c r := rfl
theorem outs_10 (r : Ref sig .tc) (c : Dev nD) : outs m 10 r c = W10 m c r := rfl
theorem V7_outs (c : Dev nD) : V7 m (outs m) c = V7 m (outs6 m) c := rfl
theorem V9_outs (c : Dev nD) : V9 m (outs m) c = V9 m (outs8 m) c := rfl

/-! ## The proof data of the three pipelines, each at its region's entry contents -/

def pdats : (p : Fin 3) → (c : Dev nD) → Dat τ (Elt F) Unit ℕ (UR sig nD τ) ℕ (cfgs p) c
  | ⟨0, _⟩ => fun c => dat0 (E5 m) c
  | ⟨1, _⟩ => fun c => dat1 (E7 m) c
  | ⟨2, _⟩ => fun c => dat2 (E9 m) c

/-- No core owes another anything: no level is assigned. -/
abbrev Lz : GSem nD τ sig → Finset Unit := fun _ => ∅
abbrev lvz : GSem nD τ sig → Unit → ℕ := fun _ _ => 0
/-- What rides beside the buffers through every segment: the generator register at some state and the core owing nothing. -/
abbrev Rr (c : Dev nD) : sProp 𝕄 := iprop((∃ r, prngReg c r) ∗ ∃ W, owes (c : Thread nD τ) (0 : CellTallies nD τ sig Unit) W)

/-- What region 0 leaves in its output array. -/
theorem V6_out (c : Dev nD) : V6 m (outs m) c main_v25 = (dat0 (E5 m) c).arrAt 3 cfg0.N := by
  show Function.update (V5 m c) (Proc.devRef .tc main_v25 : DevRef τ sig) (outs m 6 main_v25 c) (Proc.devRef .tc main_v25) = _
  rw [Function.update_self]
  show W6 m c main_v25 = _
  unfold W6; exact Pipeline.withArrays_arr spec0 launch0.win.arr_inj c _ _ 3

/-- What region 1 leaves in its output array. -/
theorem V8_out (c : Dev nD) : V8 m (outs m) c main_v36 = (dat1 (E7 m) c).arrAt 5 cfg1.N := by
  show Function.update (V7 m (outs m) c) (Proc.devRef .tc main_v36 : DevRef τ sig) (outs m 8 main_v36 c) (Proc.devRef .tc main_v36) = _
  rw [Function.update_self]
  show W8 m c main_v36 = _
  unfold W8; exact Pipeline.withArrays_arr spec1 launch1.win.arr_inj c _ _ 5

/-- What region 2 leaves in its output array. -/
theorem V10_out (c : Dev nD) : V10 m (outs m) c main_v47 = (dat2 (E9 m) c).arrAt 5 cfg2.N := by
  show Function.update (V9 m (outs m) c) (Proc.devRef .tc main_v47 : DevRef τ sig) (outs m 10 main_v47 c) (Proc.devRef .tc main_v47) = _
  rw [Function.update_self]
  show W10 m c main_v47 = _
  unfold W10; exact Pipeline.withArrays_arr spec2 launch2.win.arr_inj c _ _ 5

theorem hF0 (c : Dev nD) (w : Fin cfg0.W) : (dat0 (E5 m) c).arrAt w cfg0.N = V6 m (outs m) c (Pipeline.arrRef spec0 w) :=
  match w with
  | ⟨0, _⟩ => ((dat0 (E5 m) c).arrAt_in 0 rfl _).trans ((A_eq0 (E5 m) c 0).trans (V6_of m (outs m) c (Pipeline.arrRef spec0 0) (by decide)).symm)
  | ⟨1, _⟩ => ((dat0 (E5 m) c).arrAt_in 1 rfl _).trans ((A_eq0 (E5 m) c 1).trans (V6_of m (outs m) c (Pipeline.arrRef spec0 1) (by decide)).symm)
  | ⟨2, _⟩ => ((dat0 (E5 m) c).arrAt_in 2 rfl _).trans ((A_eq0 (E5 m) c 2).trans (V6_of m (outs m) c (Pipeline.arrRef spec0 2) (by decide)).symm)
  | ⟨3, _⟩ => (V6_out m c).symm
theorem hrest0 (c : Dev nD) : ∀ b : Ref sig .tc, b ∉ Finset.univ.image (Pipeline.arrRef spec0) → V6 m (outs m) c b = V5 m c b :=
  fun b hb => V6_of m (outs m) c b (fun h => hb (by
    rw [List.mem_singleton] at h; subst h
    exact Finset.mem_image.mpr ⟨3, Finset.mem_univ _, rfl⟩))

set_option maxHeartbeats 2000000 in
set_option backward.isDefEq.respectTransparency.types false in
/-- Region 0 over the thread state "every unscoped buffer at the boundary's contents, the generator register at some
    state, nothing owed": its arrays split out of the unscoped buffers on entry and put back at the exit contents. -/
def reg0 : Pipeline.RegionSeg (pcfgs (F := F)) (adm (F := F)) (pdats m) () defs₀ Variants.none Lz lvz 0 where
  win := launch0.win.to₀
  block_pos := launch0.block_pos
  stage_whole := launch0.stage_whole
  K := PEmpty
  osem k := k.elim
  ho := Pipeline.OwnSemFacts.none _
  hbody c := (body_obligation0 (E5 m) c).loose
  hwaits := Pipeline.hwaits_of_owed_zero _ _ _ _ Lz lvz 0 fun _ _ => rfl
  pre c := iprop(StableHlo.held (c : Thread nD τ) (Pipeline.ucRefs τ sig) (V5 m c) ∗ Rr c)
  post c := iprop(StableHlo.held (c : Thread nD τ) (Pipeline.ucRefs τ sig) (V6 m (outs m) c) ∗ Rr c)
  X c := iprop(∃ r, prngReg c r)
  Y c := iprop(∃ r, prngReg c r)
  Z c := Pipeline.unscopedRest (Ix := Unit) (Name := ℕ) (U := UR sig nD τ) (Lvl := ℕ) spec0 c (E5 m c)
  hentry c := by
    rw [Pipeline.ownSems0_none]
    have hsplit := Pipeline.arrays_of_unscopedBufs (p := 0) (pcfgs (F := F)) (adm (F := F)) (pdats m) launch0.win launch0.arr_whole c
      ((pdats m 0 c).share_full fun _ => rfl) (E5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) (adm (F := F)) (Ix := Unit) (Name := ℕ) (U := UR sig nD τ) (Lvl := ℕ)
      launch0.win launch0.arr_whole c (pdats m) ((pdats m 0 c).share_full fun _ => rfl)
      (E5 m c) (fun b => V6 m (outs m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option maxHeartbeats 4000000 in
theorem hF1 (c : Dev nD) : ∀ w : Fin 6, (dat1 (E7 m) c).arrAt w cfg1.N = V8 m (outs m) c (Pipeline.arrRef spec1 w) := fun
  | 0 => ((dat1 (E7 m) c).arrAt_in 0 rfl _).trans ((A_eq1 (E7 m) c 0).trans (V8_of m (outs m) c (Pipeline.arrRef spec1 0) (by decide)).symm)
  | 1 => ((dat1 (E7 m) c).arrAt_in 1 rfl _).trans ((A_eq1 (E7 m) c 1).trans (V8_of m (outs m) c (Pipeline.arrRef spec1 1) (by decide)).symm)
  | 2 => ((dat1 (E7 m) c).arrAt_in 2 rfl _).trans ((A_eq1 (E7 m) c 2).trans (V8_of m (outs m) c (Pipeline.arrRef spec1 2) (by decide)).symm)
  | 3 => ((dat1 (E7 m) c).arrAt_in 3 rfl _).trans ((A_eq1 (E7 m) c 3).trans (V8_of m (outs m) c (Pipeline.arrRef spec1 3) (by decide)).symm)
  | 4 => ((dat1 (E7 m) c).arrAt_in 4 rfl _).trans ((A_eq1 (E7 m) c 4).trans (V8_of m (outs m) c (Pipeline.arrRef spec1 4) (by decide)).symm)
  | 5 => (V8_out m c).symm
  | ⟨_ + 6, h⟩ => absurd h (Nat.not_lt.2 (Nat.le_add_left _ _))
theorem hrest1 (c : Dev nD) : ∀ b : Ref sig .tc, b ∉ Finset.univ.image (Pipeline.arrRef spec1) → V8 m (outs m) c b = V7 m (outs m) c b :=
  fun b hb => V8_of m (outs m) c b (fun h => hb (by
    rw [List.mem_singleton] at h; subst h
    exact Finset.mem_image.mpr ⟨5, Finset.mem_univ _, rfl⟩))

set_option maxHeartbeats 2000000 in
set_option backward.isDefEq.respectTransparency.types false in
/-- Region 1 over the thread state "every unscoped buffer at the boundary's contents, the generator register at some
    state, nothing owed": its arrays split out of the unscoped buffers on entry and put back at the exit contents. -/
def reg1 : Pipeline.RegionSeg (pcfgs (F := F)) (adm (F := F)) (pdats m) () defs₀ Variants.none Lz lvz 1 where
  win := launch1.win.to₀
  block_pos := launch1.block_pos
  stage_whole := launch1.stage_whole
  K := PEmpty
  osem k := k.elim
  ho := Pipeline.OwnSemFacts.none _
  hbody c := (body_obligation1 (E7 m) c).loose
  hwaits := Pipeline.hwaits_of_owed_zero _ _ _ _ Lz lvz 1 fun _ _ => rfl
  pre c := iprop(StableHlo.held (c : Thread nD τ) (Pipeline.ucRefs τ sig) (V7 m (outs m) c) ∗ Rr c)
  post c := iprop(StableHlo.held (c : Thread nD τ) (Pipeline.ucRefs τ sig) (V8 m (outs m) c) ∗ Rr c)
  X c := iprop(∃ r, prngReg c r)
  Y c := iprop(∃ r, prngReg c r)
  Z c := Pipeline.unscopedRest (Ix := Unit) (Name := ℕ) (U := UR sig nD τ) (Lvl := ℕ) spec1 c (E7 m c)
  hentry c := by
    rw [Pipeline.ownSems0_none]
    rw [show V7 m (outs m) c = V7 m (outs6 m) c from rfl]
    have hsplit := Pipeline.arrays_of_unscopedBufs (p := 1) (pcfgs (F := F)) (adm (F := F)) (pdats m) launch1.win launch1.arr_whole c
      ((pdats m 1 c).share_full fun _ => rfl) (E7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) (adm (F := F)) (Ix := Unit) (Name := ℕ) (U := UR sig nD τ) (Lvl := ℕ)
      launch1.win launch1.arr_whole c (pdats m) ((pdats m 1 c).share_full fun _ => rfl)
      (E7 m c) (fun b => V8 m (outs m) c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option maxHeartbeats 4000000 in
theorem hF2 (c : Dev nD) : ∀ w : Fin 6, (dat2 (E9 m) c).arrAt w cfg2.N = V10 m (outs m) c (Pipeline.arrRef spec2 w) := fun
  | 0 => ((dat2 (E9 m) c).arrAt_in 0 rfl _).trans ((A_eq2 (E9 m) c 0).trans (V10_of m (outs m) c (Pipeline.arrRef spec2 0) (by decide)).symm)
  | 1 => ((dat2 (E9 m) c).arrAt_in 1 rfl _).trans ((A_eq2 (E9 m) c 1).trans (V10_of m (outs m) c (Pipeline.arrRef spec2 1) (by decide)).symm)
  | 2 => ((dat2 (E9 m) c).arrAt_in 2 rfl _).trans ((A_eq2 (E9 m) c 2).trans (V10_of m (outs m) c (Pipeline.arrRef spec2 2) (by decide)).symm)
  | 3 => ((dat2 (E9 m) c).arrAt_in 3 rfl _).trans ((A_eq2 (E9 m) c 3).trans (V10_of m (outs m) c (Pipeline.arrRef spec2 3) (by decide)).symm)
  | 4 => ((dat2 (E9 m) c).arrAt_in 4 rfl _).trans ((A_eq2 (E9 m) c 4).trans (V10_of m (outs m) c (Pipeline.arrRef spec2 4) (by decide)).symm)
  | 5 => (V10_out m c).symm
  | ⟨_ + 6, h⟩ => absurd h (Nat.not_lt.2 (Nat.le_add_left _ _))
theorem hrest2 (c : Dev nD) : ∀ b : Ref sig .tc, b ∉ Finset.univ.image (Pipeline.arrRef spec2) → V10 m (outs m) c b = V9 m (outs m) c b :=
  fun b hb => V10_of m (outs m) c b (fun h => hb (by
    rw [List.mem_singleton] at h; subst h
    exact Finset.mem_image.mpr ⟨5, Finset.mem_univ _, rfl⟩))

set_option maxHeartbeats 2000000 in
set_option backward.isDefEq.respectTransparency.types false in
/-- Region 2 over the thread state "every unscoped buffer at the boundary's contents, the generator register at some
    state, nothing owed": its arrays split out of the unscoped buffers on entry and put back at the exit contents. -/
def reg2 : Pipeline.RegionSeg (pcfgs (F := F)) (adm (F := F)) (pdats m) () defs₀ Variants.none Lz lvz 2 where
  win := launch2.win.to₀
  block_pos := launch2.block_pos
  stage_whole := launch2.stage_whole
  K := PEmpty
  osem k := k.elim
  ho := Pipeline.OwnSemFacts.none _
  hbody c := (body_obligation2 (E9 m) c).loose
  hwaits := Pipeline.hwaits_of_owed_zero _ _ _ _ Lz lvz 2 fun _ _ => rfl
  pre c := iprop(StableHlo.held (c : Thread nD τ) (Pipeline.ucRefs τ sig) (V9 m (outs m) c) ∗ Rr c)
  post c := iprop(StableHlo.held (c : Thread nD τ) (Pipeline.ucRefs τ sig) (V10 m (outs m) c) ∗ Rr c)
  X c := iprop(∃ r, prngReg c r)
  Y c := iprop(∃ r, prngReg c r)
  Z c := Pipeline.unscopedRest (Ix := Unit) (Name := ℕ) (U := UR sig nD τ) (Lvl := ℕ) spec2 c (E9 m c)
  hentry c := by
    rw [Pipeline.ownSems0_none]
    rw [show V9 m (outs m) c = V9 m (outs8 m) c from rfl]
    have hsplit := Pipeline.arrays_of_unscopedBufs (p := 2) (pcfgs (F := F)) (adm (F := F)) (pdats m) launch2.win launch2.arr_whole c
      ((pdats m 2 c).share_full fun _ => rfl) (E9 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := hin2 (E9 m) c
  hout c := hout2 (E9 m) c
  hexit c := by
    have hjoin := Pipeline.unscopedBufs_of_arrays (p := 2) (pcfgs (F := F)) (adm (F := F)) (Ix := Unit) (Name := ℕ) (U := UR sig nD τ) (Lvl := ℕ)
      launch2.win launch2.arr_whole c (pdats m) ((pdats m 2 c).share_full fun _ => rfl)
      (E9 m c) (fun b => V10 m (outs m) c b) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run

@main is ten segments: five host stretches, region 0, a host stretch, region 1, a host stretch, region 2. The kit's launch
over them, the last thread state read against the final state, gives every unscoped buffer at the last boundary's
contents: the arguments as launched (no segment writes one), the result at what region 2 leaves. -/

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state regrouped: the buffers and the generator register on one side, the core owing nothing on the other. -/
theorem lastStep (c : Dev nD) :
    iprop(StableHlo.held (c : Thread nD τ) (Pipeline.ucRefs τ sig) (V10 m (outs m) c) ∗ Rr c)
      ⊢ (iprop((StableHlo.held (c : Thread nD τ) (Pipeline.ucRefs τ sig) (V10 m (outs m) c) ∗ ∃ r, prngReg c r)
          ∗ ∃ W, owes (c : Thread nD τ) (0 : CellTallies nD τ sig Unit) W) : sProp 𝕄) := by
  iintro ⟨Hh, Hp, HO⟩
  isplitl [Hh Hp]
  · isplitl [Hh]; · iexact Hh
    iexact Hp
  iexact HO

abbrev EE : Fin 4 → Dev nD → sProp 𝕄 := fun _ c => Rr c

abbrev theSegs (c : Dev nD) := segs m (outs m) Variants.none Lz lvz (EE (F := F)) () (pdats m) (reg0 m) (reg1 m) (reg2 m) c

set_option backward.isDefEq.respectTransparency.types false in
/-- Every weakly fair execution of @main terminates, nothing faulting, and the final memory holds every unscoped buffer at
    the last boundary's contents. -/
theorem run_all (ρ : Dev nD → PrngReg) :
    θ_run defs (onTc (τ := τ) (main (F := F))) ⟨m, fun _ => 0, ρ⟩ (fun r => ∀ c : Dev nD,
      ∀ b ∈ Pipeline.ucRefs τ sig, r.2.mem (((c : Thread nD τ)).1, b) = V10 m (outs m) c b) := by
  refine Pipeline.θ_run_regions_kit_dev (pcfgs (F := F)) (adm (F := F)) (pdats m) () cellOf_inj emb₁ defs₀ Variants.none Lz lvz m ρ main
    (theSegs m)
    (fun c Q => by
      rewrite [main_chain c, Pipeline.Seg.run_eq_chain,
        show (theSegs m c).map Pipeline.Seg.prog = [
          StableHlo.seq hostOps0,
          StableHlo.seq hostOps0_1,
          StableHlo.seq hostOps0_2,
          StableHlo.seq hostOps0_3,
          StableHlo.seq hostOps0_4,
          Prog.lift (.customCall (Pipeline.entry 0) ()),
          StableHlo.seq hostOps1,
          Prog.lift (.customCall (Pipeline.entry 1) ()),
          StableHlo.seq hostOps2,
          Prog.lift (.customCall (Pipeline.entry 2) ()) ] from rfl]
      exact .rfl)
    (fun c => by simp only [theSegs, segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ Rr c))
    (Tₙ := fun c => iprop(StableHlo.held (c : Thread nD τ) (Pipeline.ucRefs τ sig) (V10 m (outs m) c) ∗ ∃ r, prngReg c r))
    (hch := fun c => ⟨.rfl, .rfl, .rfl, .rfl, .rfl, .rfl, .rfl, .rfl, .rfl, .rfl, lastStep m c⟩)
    (hinit := by
      refine Pipeline.initEach Lz lvz fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = V10 m (outs m) c b)
    (hfin := fun c s' => by
      iintro ⟨⟨Hh, -⟩, HSI⟩
      unfold StableHlo.held
      imodintro
      iapply (pointsTo_read_all (Pipeline.ucRefs τ sig) (fun b => (((c : Thread nD τ)).1, b)) (V10 m (outs m) c) s')
      isplitl [Hh] <;> iassumption)
    (hQ := fun s h c => h c)

/-- The frame: every argument array ends as launched. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨(h c _ (mem_uc main_arg0 (by decide))).trans (V10_main_arg0 m (outs m) c),
     (h c _ (mem_uc main_arg1 (by decide))).trans (V10_main_arg1 m (outs m) c),
     (h c _ (mem_uc main_arg2 (by decide))).trans (V10_main_arg2 m (outs m) c),
     (h c _ (mem_uc main_arg3 (by decide))).trans (V10_main_arg3 m (outs m) c),
     (h c _ (mem_uc main_arg4 (by decide))).trans (V10_main_arg4 m (outs m) c),
     (h c _ (mem_uc main_arg5 (by decide))).trans (V10_main_arg5 m (outs m) c),
     (h c _ (mem_uc main_arg6 (by decide))).trans (V10_main_arg6 m (outs m) c),
     (h c _ (mem_uc main_arg7 (by decide))).trans (V10_main_arg7 m (outs m) c),
     (h c _ (mem_uc main_arg8 (by decide))).trans (V10_main_arg8 m (outs m) c)⟩)
    (run_all m ρ)

/-- The run with the result named: the result array ends at what region 2 leaves, the arguments as launched. -/
theorem run_result (ρ : Dev nD → PrngReg) :
    θ_run defs (onTc (τ := τ) (main (F := F))) ⟨m, fun _ => 0, ρ⟩ (fun r => ∀ c : Dev nD,
      r.2.mem ((c.tc : Thread nD τ).loc main_v47) = (dat2 (E9 m) c).arrAt 5 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨(h c _ (mem_uc main_v47 (by decide))).trans (V10_out m c),
     (h c _ (mem_uc main_arg0 (by decide))).trans (V10_main_arg0 m (outs m) c),
     (h c _ (mem_uc main_arg1 (by decide))).trans (V10_main_arg1 m (outs m) c),
     (h c _ (mem_uc main_arg2 (by decide))).trans (V10_main_arg2 m (outs m) c),
     (h c _ (mem_uc main_arg3 (by decide))).trans (V10_main_arg3 m (outs m) c),
     (h c _ (mem_uc main_arg4 (by decide))).trans (V10_main_arg4 m (outs m) c),
     (h c _ (mem_uc main_arg5 (by decide))).trans (V10_main_arg5 m (outs m) c),
     (h c _ (mem_uc main_arg6 (by decide))).trans (V10_main_arg6 m (outs m) c),
     (h c _ (mem_uc main_arg7 (by decide))).trans (V10_main_arg7 m (outs m) c),
     (h c _ (mem_uc main_arg8 (by decide))).trans (V10_main_arg8 m (outs m) c)⟩)
    (run_all m ρ)

end Cert.Kernel.Hand

end
-- ==== Proof.KI.Region0.lean ====
/- The first pallas_call (layer 1: the normalised features times the weight matrix) as a pipeline region:
   per window its block at a grid point, the buffer its body leaves in the output window, the body's
   triple, the pipeline's proof data and the body obligation, all at a parameter `V`, the TensorCore's buffer
   contents when the region is entered, and for any float model `F`. -/
import proofs.«145645_j19997367730789_1_alg».proof.Proof.Gen.KernelIdeal.Launch
import proofs.«145645_j19997367730789_1_alg».proof.Proof.Gen.KernelIdeal.Skeleton
import proofs.«145645_j19997367730789_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of long extents: the structural check recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the TensorCore's buffer contents when the region is entered: everything below holds for any such contents
variable (V : (c : Dev nD) → (b : Ref sig .tc) → Buf (Elt F) ((c : Thread nD τ).loc b))

/-! # Region 0: the first layer's matmul kernel (custom_call 0, pipeline 0), at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, whether or not it is fetched there
    (an unfetched point has the block index of the point before it), for any proof data whose array is `V`'s and
    whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, whether or not it is fetched there
    (an unfetched point has the block index of the point before it), for any proof data whose array is `V`'s and
    whose body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, whether or not it is fetched there
    (an unfetched point has the block index of the point before it), for any proof data whose array is `V`'s and
    whose body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer whole -/

abbrev r0_S5000x128 : Rect S5000x128 := Rect.unit (s := S5000x128) ![0, 0] S5000x128.size inb_S5000x128_S5000x128_0_0
abbrev r0_S5000x1 : Rect S5000x1 := Rect.unit (s := S5000x1) ![0, 0] S5000x1.size inb_S5000x1_S5000x1_0_0
abbrev r0_S128x128 : Rect S128x128 := Rect.unit (s := S128x128) ![0, 0] S128x128.size inb_S128x128_S128x128_0_0

/-! ## What the body leaves in the output window's buffer -/

/-- Window 3's staging buffer after the body, from the input windows' blocks: its one store, of the whole buffer. -/
def out0_3 (x0 : Vec F S5000x128 .f32) (x1 : Vec F S5000x1 .f32) (x2 : Vec F S128x128 .f32) : Vec F S5000x128 .f32 :=
  View.canon [⟨r0_S5000x128, k0_pay1 (View.ld x0 r0_S5000x128) (View.ld x1 r0_S5000x1) (View.ld x2 r0_S128x128)⟩]

/-- The store covers the buffer. -/
theorem cover0_3 (p0 : Vec F S5000x128 .f32) (y : S5000x128.Idx) :
    ∃ pc ∈ ([⟨r0_S5000x128, p0⟩] : List (View.Piece (Elt F) S5000x128 .f32)), y ∈ pc.1.set :=
  View.cover_of_tiled [⟨r0_S5000x128, p0⟩] S5000x128.size (by rfl) y

/-! ## The body's triple -/

set_option maxHeartbeats 1000000 in
/-- The kernel body on whole staging memrefs, the inputs' at read contents `xW` and the output's at anything, runs to
    the continuation holding the inputs' as they were and the output's at `out0_3` of the inputs'. -/
theorem sound_kernel0 (c : Dev nD) (E : Set ℕ) (i : grid0.Coords) (arg1 : Memref sig .tc .vmem S5000x128 .f32) (harg1 : arg1.IsWhole) (arg2 : Memref sig .tc .vmem S5000x1 .f32) (harg2 : arg2.IsWhole) (arg3 : Memref sig .tc .vmem S128x128 .f32) (harg3 : arg3.IsWhole) (arg4 : Memref sig .tc .vmem S5000x128 .f32) (harg4 : arg4.IsWhole)
    (x0 : Vec F S5000x128 .f32) (x1 : Vec F S5000x1 .f32) (x2 : Vec F S128x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2)) -∗ K ⟨⟩))
      ⊢ wp frame (wpE (defs₀ (F := F)) Variants.none c none) E (cc0__layer1_kernel i arg1 harg1 arg2 harg2 arg3 harg3 arg4 harg4) K := by
  simp only [cc0__layer1_kernel_eq_skeleton]; unfold cc0__layer1_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of pipeline 0 on core `c`: the arrays as the region finds them (`V`); after the body at
    point `t` each input's buffer at its block and the output's at `out0_3` of the input blocks; the invariant
    the scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so the kernel's triple applies; the invariant and
    the core's debt pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Region1.lean ====
/- The second pallas_call (layer 2: the normalised, biased, rectified aggregate, normalised again, times the
   weight matrix) as a pipeline region: per window its block at a grid point, the buffer its body leaves in the
   output window, the body's triple, the pipeline's proof data and the body obligation, all at a parameter `V`,
   the TensorCore's buffer contents when the region is entered, and for any float model `F`. -/
import proofs.«145645_j19997367730789_1_alg».proof.Proof.Gen.KernelIdeal.Launch
import proofs.«145645_j19997367730789_1_alg».proof.Proof.Gen.KernelIdeal.Skeleton
import proofs.«145645_j19997367730789_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of long extents: the structural check recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the TensorCore's buffer contents when the region is entered: everything below holds for any such contents
variable (V : (c : Dev nD) → (b : Ref sig .tc) → Buf (Elt F) ((c : Thread nD τ).loc b))

/-! # Region 1: the second layer's relu-and-matmul kernel (custom_call 1, pipeline 1), at the entry contents `V` -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, whether or not it is fetched there
    (an unfetched point has the block index of the point before it), for any proof data whose array is `V`'s and
    whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, whether or not it is fetched there
    (an unfetched point has the block index of the point before it), for any proof data whose array is `V`'s and
    whose body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, whether or not it is fetched there
    (an unfetched point has the block index of the point before it), for any proof data whose array is `V`'s and
    whose body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, whether or not it is fetched there
    (an unfetched point has the block index of the point before it), for any proof data whose array is `V`'s and
    whose body leaves the block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, whether or not it is fetched there
    (an unfetched point has the block index of the point before it), for any proof data whose array is `V`'s and
    whose body leaves the block in place. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each buffer whole -/

abbrev r1_S5000x128 : Rect S5000x128 := Rect.unit (s := S5000x128) ![0, 0] S5000x128.size inb_S5000x128_S5000x128_0_0
abbrev r1_S5000x1 : Rect S5000x1 := Rect.unit (s := S5000x1) ![0, 0] S5000x1.size inb_S5000x1_S5000x1_0_0
abbrev r1_S1x128 : Rect S1x128 := Rect.unit (s := S1x128) ![0, 0] S1x128.size inb_S1x128_S1x128_0_0
abbrev r1_S128x128 : Rect S128x128 := Rect.unit (s := S128x128) ![0, 0] S128x128.size inb_S128x128_S128x128_0_0

/-! ## What the body leaves in the output window's buffer -/

/-- Window 5's staging buffer after the body, from the input windows' blocks: its one store, of the whole buffer. -/
def out1_5 (x0 : Vec F S5000x128 .f32) (x1 : Vec F S5000x1 .f32) (x2 : Vec F S1x128 .f32) (x3 : Vec F S5000x1 .f32) (x4 : Vec F S128x128 .f32) : Vec F S5000x128 .f32 :=
  View.canon [⟨r1_S5000x128, k1_pay1 (View.ld x0 r1_S5000x128) (View.ld x1 r1_S5000x1) (View.ld x2 r1_S1x128) (View.ld x3 r1_S5000x1) (View.ld x4 r1_S128x128)⟩]

/-- The store covers the buffer. -/
theorem cover1_5 (p0 : Vec F S5000x128 .f32) (y : S5000x128.Idx) :
    ∃ pc ∈ ([⟨r1_S5000x128, p0⟩] : List (View.Piece (Elt F) S5000x128 .f32)), y ∈ pc.1.set :=
  View.cover_of_tiled [⟨r1_S5000x128, p0⟩] S5000x128.size (by rfl) y

/-! ## The body's triple -/

set_option maxHeartbeats 1000000 in
/-- The kernel body on whole staging memrefs, the inputs' at read contents `xW` and the output's at anything, runs to
    the continuation holding the inputs' as they were and the output's at `out1_5` of the inputs'. -/
theorem sound_kernel1 (c : Dev nD) (E : Set ℕ) (i : grid1.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S5000x1 .f32) (harg4 : arg4.IsWhole) (arg5 : Memref sig .tc .vmem S128x128 .f32) (harg5 : arg5.IsWhole) (arg6 : Memref sig .tc .vmem S5000x128 .f32) (harg6 : arg6.IsWhole)
    (x0 : Vec F S5000x128 .f32) (x1 : Vec F S5000x1 .f32) (x2 : Vec F S1x128 .f32) (x3 : Vec F S5000x1 .f32) (x4 : Vec F S128x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out1_5 x0 x1 x2 x3 x4)) -∗ K ⟨⟩))
      ⊢ wp frame (wpE (defs₀ (F := F)) Variants.none c none) E (cc1__layer2_kernel i arg1 harg1 arg2 harg2 arg3 harg3 arg4 harg4 arg5 harg5 arg6 harg6) K := by
  simp only [cc1__layer2_kernel_eq_skeleton]; unfold cc1__layer2_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-! ## The pipeline's proof data -/

/-- The proof data of pipeline 1 on core `c`: the arrays as the region finds them (`V`); after the body at
    point `t` each input's buffer at its block and the output's at `out1_5` of the input blocks; the invariant
    the scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1_5 (iblk1 V c 0 t) (iblk1 V c 1 t) (iblk1 V c 2 t) (iblk1 V c 3 t) (iblk1 V c 4 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' memrefs hold their blocks, so the kernel's triple applies; the invariant and
    the core's debt pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Region2Runs.lean ====
import proofs.«145645_j19997367730789_1_alg».proof.Proof.Gen.KernelIdeal.Regions
import proofs.«145645_j19997367730789_1_alg».proof.Proof.Gen.KernelIdeal.Skeleton
import proofs.«145645_j19997367730789_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))
/-! # Region 2 (the mean-pool and readout call): what its three control cases share

The grid has 10 points. The body zeroes the accumulator row at the first point, adds a row sum into it at
every point, and at the last point reads it back for the readout, which it stores into the output block. -/

/-! ## The windows' blocks -/

/-- Window `w`'s block at point `t`, read off its array at the contents the region is entered with. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, whether or not it was fetched there:
    an unfetched input has not moved its block index, and the body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, whether or not it was fetched there:
    an unfetched input has not moved its block index, and the body leaves the block in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, whether or not it was fetched there:
    an unfetched input has not moved its block index, and the body leaves the block in place. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, whether or not it was fetched there:
    an unfetched input has not moved its block index, and the body leaves the block in place. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block at every point, whether or not it was fetched there:
    an unfetched input has not moved its block index, and the body leaves the block in place. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-! ## The body's two conditions, in closed form over the grid -/

/-- The first condition: the point's coordinate is 0. -/
abbrev cond2_0 (i : grid2.Coords) : Prop := (Scalar.cmpi .ne (Scalar.extui (Scalar.cmpi .eq (BitVec.ofNat 32 (i 0).val) 0#32)) 0#32) = 1#1
/-- It holds at the first point only. -/
theorem hcond2_0 : ∀ t : Fin cfg2.N, cond2_0 (grid2.coords t) ↔ t.val = 0 :=
  (by decide +kernel : ∀ t : Fin grid2.N, cond2_0 (grid2.coords t) ↔ t.val = 0)

/-- The second condition: the point's coordinate is 9. -/
abbrev cond2_1 (i : grid2.Coords) : Prop := k2_cond2 i = 1#1
/-- It holds at the last point only. -/
theorem hcond2_1 : ∀ t : Fin cfg2.N, cond2_1 (grid2.coords t) ↔ t.val = 9 :=
  (by decide +kernel : ∀ t : Fin grid2.N, cond2_1 (grid2.coords t) ↔ t.val = 9)

/-! ## Where the output window is idle -/

theorem liveAt2_0 : ∀ t : Fin cfg2.N, cfg2.idle 0 (grid2.coords t) = false := fun _ => rfl
theorem liveAt2_1 : ∀ t : Fin cfg2.N, cfg2.idle 1 (grid2.coords t) = false := fun _ => rfl
theorem liveAt2_2 : ∀ t : Fin cfg2.N, cfg2.idle 2 (grid2.coords t) = false := fun _ => rfl
theorem liveAt2_3 : ∀ t : Fin cfg2.N, cfg2.idle 3 (grid2.coords t) = false := fun _ => rfl
theorem liveAt2_4 : ∀ t : Fin cfg2.N, cfg2.idle 4 (grid2.coords t) = false := fun _ => rfl
/-- Where the second condition fails the body stores nothing into the output block, -/
theorem idleAt2_5 : ∀ t : Fin cfg2.N, ¬cond2_1 (grid2.coords t) → cfg2.idle 5 (grid2.coords t) = true := by decide +kernel
/-- and the block is not written back there. -/
theorem noFlush2_5 : ∀ t : Fin cfg2.N, ¬cond2_1 (grid2.coords t) → (cfg2.win 5).flush t = false :=
  (by decide +kernel : ∀ t : Fin grid2.N, ¬cond2_1 (grid2.coords t) → win2_5.flush t = false)
/-- Where it holds the body stores the whole block. -/
theorem liveAt2_5 : ∀ t : Fin cfg2.N, cond2_1 (grid2.coords t) → cfg2.idle 5 (grid2.coords t) = false := by decide +kernel

/-! ## The staging memrefs and the accumulator -/

/-- The output window's one staging buffer, as a view: its contents are stated through it. -/
abbrev VO2_5 : View sig .tc .vmem S1x2 .f32 := (Memref.whole cc2_stg5_0 : Memref sig .tc .vmem S1x2 .f32).view
abbrev ms2_0 (t : Fin cfg2.N) : Memref sig .tc .vmem S5000x128 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S5000x1 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x128 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S128x2 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1x2 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S1x2 .f32 := win2_5.stage (cfg2.slots t 5)
abbrev hs2_5 (t : Fin cfg2.N) : (ms2_5 t).IsWhole := hstage2_5 ((cfg2.slots t 5).cast nbuf2_5)
/-- The accumulator row: a whole scoped buffer of the kernel's own, passed beside the windows. -/
abbrev scM2 : Memref sig .tc .vmem S1x128 .f32 := Memref.whole cc2_scratch0
abbrev VS2 : View sig .tc .vmem S1x128 .f32 := scM2.view

/-- The core's scoped buffers that are neither a staging buffer of this call nor the accumulator, at some contents
    each: carried through the region unopened. -/
abbrev others2 (c : Dev nD) : sProp 𝕄 :=
  Pipeline.scopedRestBut (Ix := Unit) (Name := ℕ) (U := UR sig nD τ) (Lvl := ℕ) (Val := Elt F) spec2 c [cc2_scratch0]

/-- The scoped buffers no window stages are the accumulator, owned at some contents, and the others. -/
theorem scopedRest2_split (c : Dev nD) :
    (Pipeline.scopedRest (Ix := Unit) (Name := ℕ) (U := UR sig nD τ) (Lvl := ℕ) (Val := Elt F) spec2 c : sProp 𝕄)
      = iprop((∃ d, owns (c : Thread nD τ) scM2 fullShare d) ∗ others2 c) := by
  rw [Pipeline.scopedRest_split_of_list spec2 c [cc2_scratch0] (by decide) (by decide)]
  simp only [bigSepL_singleton, scM2, owns_whole]; try rfl

end Cert.KernelIdeal.Hand

end
-- ==== Proof.KI.Region2RunA.lean ====
import proofs.«145645_j19997367730789_1_alg».proof.Proof.KI.Region2Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))
set_option maxHeartbeats 1000000 in
/-- The body at the first point (the accumulator zeroed, then the row sum added; no readout), on any whole staging memrefs: from the inputs' buffers at their contents `x·`,
    the output's at contents `xi5` (handed back untouched), the accumulator at anything,
    it runs to the continuation holding the inputs' as they were, the accumulator with the pieces `LS0` written.
    The pieces are the witness the symbolic run of the body's memory operations finds. -/
noncomputable def kernelRun2_A (c : Dev nD) (i : grid2.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S128x2 .f32) (harg4 : arg4.IsWhole) (arg5 : Memref sig .tc .vmem S1x2 .f32) (harg5 : arg5.IsWhole) (arg6 : Memref sig .tc .vmem S1x2 .f32) (harg6 : arg6.IsWhole) (arg7 : Memref sig .tc .vmem S1x128 .f32) (harg7 : arg7.IsWhole) (hc0 : cond2_0 i) (hc1 : ¬cond2_1 i)
    (x0 : Vec F S5000x128 .f32) (x1 : Vec F S5000x1 .f32) (x2 : Vec F S1x128 .f32) (x3 : Vec F S128x2 .f32) (x4 : Vec F S1x2 .f32) :
    Σ' (L5 : List (View.Piece (Elt F) S1x2 .f32)), { LS0 : List (View.Piece (Elt F) S1x128 .f32) //
      ∀ (xi5 : Vec F S1x2 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ (∃ f, arg7.view.loc (c : Thread nD τ) ↦[arg7.view.set]{fullShare} arg7.view.writes (Elt F) f LS0)) -∗ K ⟨⟩))
          ⊢ wp frame (wpE (defs₀ (F := F)) Variants.none c none) E (cc2__final_kernel i arg1 harg1 arg2 harg2 arg3 harg3 arg4 harg4 arg5 harg5 arg6 harg6 arg7 harg7) K } := by
  refine ⟨[], ?_, fun xi5 E K => ?run⟩
  case run =>
    simp only [cc2__final_kernel_eq_skeleton]; unfold cc2__final_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    iexists _; iexact HS0

end Cert.KernelIdeal.Hand

end
-- ==== Proof.KI.Region2RunB.lean ====
import proofs.«145645_j19997367730789_1_alg».proof.Proof.KI.Region2RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))
set_option maxHeartbeats 1000000 in
/-- The body at a point strictly between the first and the last (the row sum added; no zeroing, no readout), on any whole staging memrefs: from the inputs' buffers at their contents `x·`,
    the output's at contents `xi5` (handed back untouched), the accumulator at the contents `xs0` the point before left,
    it runs to the continuation holding the inputs' as they were, the accumulator with the pieces `LS0` written.
    The pieces are the witness the symbolic run of the body's memory operations finds. -/
noncomputable def kernelRun2_B (c : Dev nD) (i : grid2.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S128x2 .f32) (harg4 : arg4.IsWhole) (arg5 : Memref sig .tc .vmem S1x2 .f32) (harg5 : arg5.IsWhole) (arg6 : Memref sig .tc .vmem S1x2 .f32) (harg6 : arg6.IsWhole) (arg7 : Memref sig .tc .vmem S1x128 .f32) (harg7 : arg7.IsWhole) (hc0 : ¬cond2_0 i) (hc1 : ¬cond2_1 i)
    (x0 : Vec F S5000x128 .f32) (x1 : Vec F S5000x1 .f32) (x2 : Vec F S1x128 .f32) (x3 : Vec F S128x2 .f32) (x4 : Vec F S1x2 .f32) (xs0 : Vec F S1x128 .f32) :
    Σ' (L5 : List (View.Piece (Elt F) S1x2 .f32)), { LS0 : List (View.Piece (Elt F) S1x128 .f32) //
      ∀ (xi5 : Vec F S1x2 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ owns (c : Thread nD τ) arg7 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ (∃ f, arg7.view.loc (c : Thread nD τ) ↦[arg7.view.set]{fullShare} arg7.view.writes (Elt F) f LS0)) -∗ K ⟨⟩))
          ⊢ wp frame (wpE (defs₀ (F := F)) Variants.none c none) E (cc2__final_kernel i arg1 harg1 arg2 harg2 arg3 harg3 arg4 harg4 arg5 harg5 arg6 harg6 arg7 harg7) K } := by
  refine ⟨[], ?_, fun xi5 E K => ?run⟩
  case run =>
    simp only [cc2__final_kernel_eq_skeleton]; unfold cc2__final_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    iexists _; iexact HS0

end Cert.KernelIdeal.Hand

end
-- ==== Proof.KI.Region2RunC.lean ====
import proofs.«145645_j19997367730789_1_alg».proof.Proof.KI.Region2RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))
set_option maxHeartbeats 1000000 in
/-- The body at the last point (the row sum added, then the readout stored into the output block), on any whole staging memrefs: from the inputs' buffers at their contents `x·`,
    the output's at anything, the accumulator at the contents `xs0` the point before left,
    it runs to the continuation holding the inputs' as they were, the accumulator with the pieces `LS0` written and the output's buffer with the pieces `L5` written.
    The pieces are the witness the symbolic run of the body's memory operations finds. -/
noncomputable def kernelRun2_C (c : Dev nD) (i : grid2.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S128x2 .f32) (harg4 : arg4.IsWhole) (arg5 : Memref sig .tc .vmem S1x2 .f32) (harg5 : arg5.IsWhole) (arg6 : Memref sig .tc .vmem S1x2 .f32) (harg6 : arg6.IsWhole) (arg7 : Memref sig .tc .vmem S1x128 .f32) (harg7 : arg7.IsWhole) (hc0 : ¬cond2_0 i) (hc1 : cond2_1 i)
    (x0 : Vec F S5000x128 .f32) (x1 : Vec F S5000x1 .f32) (x2 : Vec F S1x128 .f32) (x3 : Vec F S128x2 .f32) (x4 : Vec F S1x2 .f32) (xs0 : Vec F S1x128 .f32) :
    Σ' (L5 : List (View.Piece (Elt F) S1x2 .f32)), { LS0 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f LS0)) -∗ K ⟨⟩))
          ⊢ wp frame (wpE (defs₀ (F := F)) Variants.none c none) E (cc2__final_kernel i arg1 harg1 arg2 harg2 arg3 harg3 arg4 harg4 arg5 harg5 arg6 harg6 arg7 harg7) K } := by
  refine ⟨?_, ?_, fun E K => ?run⟩
  case run =>
    simp only [cc2__final_kernel_eq_skeleton]; unfold cc2__final_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg7.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    iexists _; iexact HS0

end Cert.KernelIdeal.Hand

end
-- ==== Proof.KI.Region2.lean ====
import proofs.«145645_j19997367730789_1_alg».proof.Proof.KI.Region2RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))
/-! # Region 2: what the accumulator and the output hold point by point, the proof data, the body obligation

Case A is the first point, case B the points strictly between, case C the last point. -/

/-! ## What each case leaves -/

/-- What the output's staging buffer holds after the first point, read back over unknown contents (nothing is stored there: a placeholder nothing consults, the window being idle and not written back). -/
def out2_A_5 (c : Dev nD) (i : grid2.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S128x2 .f32) (harg4 : arg4.IsWhole) (arg5 : Memref sig .tc .vmem S1x2 .f32) (harg5 : arg5.IsWhole) (arg6 : Memref sig .tc .vmem S1x2 .f32) (harg6 : arg6.IsWhole) (arg7 : Memref sig .tc .vmem S1x128 .f32) (harg7 : arg7.IsWhole) (hc0 : cond2_0 i) (hc1 : ¬cond2_1 i)
    (x0 : Vec F S5000x128 .f32) (x1 : Vec F S5000x1 .f32) (x2 : Vec F S1x128 .f32) (x3 : Vec F S128x2 .f32) (x4 : Vec F S1x2 .f32) : Vec F S1x2 .f32 :=
  VO2_5.read (Elt F) (VO2_5.writes (Elt F) VO2_5.junk (kernelRun2_A c i arg1 harg1 arg2 harg2 arg3 harg3 arg4 harg4 arg5 harg5 arg6 harg6 arg7 harg7 hc0 hc1 x0 x1 x2 x3 x4).1)

/-- At the first point the body's stores into the accumulator cover it. -/
theorem scover2_A (c : Dev nD) (i : grid2.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S128x2 .f32) (harg4 : arg4.IsWhole) (arg5 : Memref sig .tc .vmem S1x2 .f32) (harg5 : arg5.IsWhole) (arg6 : Memref sig .tc .vmem S1x2 .f32) (harg6 : arg6.IsWhole) (arg7 : Memref sig .tc .vmem S1x128 .f32) (harg7 : arg7.IsWhole) (hc0 : cond2_0 i) (hc1 : ¬cond2_1 i)
    (x0 : Vec F S5000x128 .f32) (x1 : Vec F S5000x1 .f32) (x2 : Vec F S1x128 .f32) (x3 : Vec F S128x2 .f32) (x4 : Vec F S1x2 .f32) (y : S1x128.Idx) :
    ∃ pc ∈ (kernelRun2_A c i arg1 harg1 arg2 harg2 arg3 harg3 arg4 harg4 arg5 harg5 arg6 harg6 arg7 harg7 hc0 hc1 x0 x1 x2 x3 x4).2.1, y ∈ pc.1.set :=
  View.cover_of_tiledL (kernelRun2_A c i arg1 harg1 arg2 harg2 arg3 harg3 arg4 harg4 arg5 harg5 arg6 harg6 arg7 harg7 hc0 hc1 x0 x1 x2 x3 x4).2.1 S1x128.size (by sl_kernel_rfl) y

/-- What the accumulator holds after the first point. -/
def sout2_A (c : Dev nD) (i : grid2.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S128x2 .f32) (harg4 : arg4.IsWhole) (arg5 : Memref sig .tc .vmem S1x2 .f32) (harg5 : arg5.IsWhole) (arg6 : Memref sig .tc .vmem S1x2 .f32) (harg6 : arg6.IsWhole) (arg7 : Memref sig .tc .vmem S1x128 .f32) (harg7 : arg7.IsWhole) (hc0 : cond2_0 i) (hc1 : ¬cond2_1 i)
    (x0 : Vec F S5000x128 .f32) (x1 : Vec F S5000x1 .f32) (x2 : Vec F S1x128 .f32) (x3 : Vec F S128x2 .f32) (x4 : Vec F S1x2 .f32) : Vec F S1x128 .f32 :=
  VS2.read (Elt F) (VS2.writes (Elt F) VS2.junk (kernelRun2_A c i arg1 harg1 arg2 harg2 arg3 harg3 arg4 harg4 arg5 harg5 arg6 harg6 arg7 harg7 hc0 hc1 x0 x1 x2 x3 x4).2.1)

/-- What the output's staging buffer holds after a middle point, read back over unknown contents (nothing is stored there: a placeholder nothing consults, the window being idle and not written back). -/
def out2_B_5 (c : Dev nD) (i : grid2.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S128x2 .f32) (harg4 : arg4.IsWhole) (arg5 : Memref sig .tc .vmem S1x2 .f32) (harg5 : arg5.IsWhole) (arg6 : Memref sig .tc .vmem S1x2 .f32) (harg6 : arg6.IsWhole) (arg7 : Memref sig .tc .vmem S1x128 .f32) (harg7 : arg7.IsWhole) (hc0 : ¬cond2_0 i) (hc1 : ¬cond2_1 i)
    (x0 : Vec F S5000x128 .f32) (x1 : Vec F S5000x1 .f32) (x2 : Vec F S1x128 .f32) (x3 : Vec F S128x2 .f32) (x4 : Vec F S1x2 .f32) (xs0 : Vec F S1x128 .f32) : Vec F S1x2 .f32 :=
  VO2_5.read (Elt F) (VO2_5.writes (Elt F) VO2_5.junk (kernelRun2_B c i arg1 harg1 arg2 harg2 arg3 harg3 arg4 harg4 arg5 harg5 arg6 harg6 arg7 harg7 hc0 hc1 x0 x1 x2 x3 x4 xs0).1)

/-- At a middle point the body's stores into the accumulator cover it. -/
theorem scover2_B (c : Dev nD) (i : grid2.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S128x2 .f32) (harg4 : arg4.IsWhole) (arg5 : Memref sig .tc .vmem S1x2 .f32) (harg5 : arg5.IsWhole) (arg6 : Memref sig .tc .vmem S1x2 .f32) (harg6 : arg6.IsWhole) (arg7 : Memref sig .tc .vmem S1x128 .f32) (harg7 : arg7.IsWhole) (hc0 : ¬cond2_0 i) (hc1 : ¬cond2_1 i)
    (x0 : Vec F S5000x128 .f32) (x1 : Vec F S5000x1 .f32) (x2 : Vec F S1x128 .f32) (x3 : Vec F S128x2 .f32) (x4 : Vec F S1x2 .f32) (xs0 : Vec F S1x128 .f32) (y : S1x128.Idx) :
    ∃ pc ∈ (kernelRun2_B c i arg1 harg1 arg2 harg2 arg3 harg3 arg4 harg4 arg5 harg5 arg6 harg6 arg7 harg7 hc0 hc1 x0 x1 x2 x3 x4 xs0).2.1, y ∈ pc.1.set :=
  View.cover_of_tiledL (kernelRun2_B c i arg1 harg1 arg2 harg2 arg3 harg3 arg4 harg4 arg5 harg5 arg6 harg6 arg7 harg7 hc0 hc1 x0 x1 x2 x3 x4 xs0).2.1 S1x128.size (by sl_kernel_rfl) y

/-- What the accumulator holds after a middle point. -/
def sout2_B (c : Dev nD) (i : grid2.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S128x2 .f32) (harg4 : arg4.IsWhole) (arg5 : Memref sig .tc .vmem S1x2 .f32) (harg5 : arg5.IsWhole) (arg6 : Memref sig .tc .vmem S1x2 .f32) (harg6 : arg6.IsWhole) (arg7 : Memref sig .tc .vmem S1x128 .f32) (harg7 : arg7.IsWhole) (hc0 : ¬cond2_0 i) (hc1 : ¬cond2_1 i)
    (x0 : Vec F S5000x128 .f32) (x1 : Vec F S5000x1 .f32) (x2 : Vec F S1x128 .f32) (x3 : Vec F S128x2 .f32) (x4 : Vec F S1x2 .f32) (xs0 : Vec F S1x128 .f32) : Vec F S1x128 .f32 :=
  VS2.read (Elt F) (VS2.writes (Elt F) VS2.junk (kernelRun2_B c i arg1 harg1 arg2 harg2 arg3 harg3 arg4 harg4 arg5 harg5 arg6 harg6 arg7 harg7 hc0 hc1 x0 x1 x2 x3 x4 xs0).2.1)

/-- At the last point the body's store into the output block covers it. -/
theorem cover2_C_5 (c : Dev nD) (i : grid2.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S128x2 .f32) (harg4 : arg4.IsWhole) (arg5 : Memref sig .tc .vmem S1x2 .f32) (harg5 : arg5.IsWhole) (arg6 : Memref sig .tc .vmem S1x2 .f32) (harg6 : arg6.IsWhole) (arg7 : Memref sig .tc .vmem S1x128 .f32) (harg7 : arg7.IsWhole) (hc0 : ¬cond2_0 i) (hc1 : cond2_1 i)
    (x0 : Vec F S5000x128 .f32) (x1 : Vec F S5000x1 .f32) (x2 : Vec F S1x128 .f32) (x3 : Vec F S128x2 .f32) (x4 : Vec F S1x2 .f32) (xs0 : Vec F S1x128 .f32) (y : S1x2.Idx) :
    ∃ pc ∈ (kernelRun2_C c i arg1 harg1 arg2 harg2 arg3 harg3 arg4 harg4 arg5 harg5 arg6 harg6 arg7 harg7 hc0 hc1 x0 x1 x2 x3 x4 xs0).1, y ∈ pc.1.set :=
  View.cover_of_tiledL (kernelRun2_C c i arg1 harg1 arg2 harg2 arg3 harg3 arg4 harg4 arg5 harg5 arg6 harg6 arg7 harg7 hc0 hc1 x0 x1 x2 x3 x4 xs0).1 S1x2.size (by sl_kernel_rfl) y

/-- What the output's staging buffer holds after the last point, read back over unknown contents. -/
def out2_C_5 (c : Dev nD) (i : grid2.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S128x2 .f32) (harg4 : arg4.IsWhole) (arg5 : Memref sig .tc .vmem S1x2 .f32) (harg5 : arg5.IsWhole) (arg6 : Memref sig .tc .vmem S1x2 .f32) (harg6 : arg6.IsWhole) (arg7 : Memref sig .tc .vmem S1x128 .f32) (harg7 : arg7.IsWhole) (hc0 : ¬cond2_0 i) (hc1 : cond2_1 i)
    (x0 : Vec F S5000x128 .f32) (x1 : Vec F S5000x1 .f32) (x2 : Vec F S1x128 .f32) (x3 : Vec F S128x2 .f32) (x4 : Vec F S1x2 .f32) (xs0 : Vec F S1x128 .f32) : Vec F S1x2 .f32 :=
  VO2_5.read (Elt F) (VO2_5.writes (Elt F) VO2_5.junk (kernelRun2_C c i arg1 harg1 arg2 harg2 arg3 harg3 arg4 harg4 arg5 harg5 arg6 harg6 arg7 harg7 hc0 hc1 x0 x1 x2 x3 x4 xs0).1)

/-- At the last point the body's stores into the accumulator cover it. -/
theorem scover2_C (c : Dev nD) (i : grid2.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S128x2 .f32) (harg4 : arg4.IsWhole) (arg5 : Memref sig .tc .vmem S1x2 .f32) (harg5 : arg5.IsWhole) (arg6 : Memref sig .tc .vmem S1x2 .f32) (harg6 : arg6.IsWhole) (arg7 : Memref sig .tc .vmem S1x128 .f32) (harg7 : arg7.IsWhole) (hc0 : ¬cond2_0 i) (hc1 : cond2_1 i)
    (x0 : Vec F S5000x128 .f32) (x1 : Vec F S5000x1 .f32) (x2 : Vec F S1x128 .f32) (x3 : Vec F S128x2 .f32) (x4 : Vec F S1x2 .f32) (xs0 : Vec F S1x128 .f32) (y : S1x128.Idx) :
    ∃ pc ∈ (kernelRun2_C c i arg1 harg1 arg2 harg2 arg3 harg3 arg4 harg4 arg5 harg5 arg6 harg6 arg7 harg7 hc0 hc1 x0 x1 x2 x3 x4 xs0).2.1, y ∈ pc.1.set :=
  View.cover_of_tiledL (kernelRun2_C c i arg1 harg1 arg2 harg2 arg3 harg3 arg4 harg4 arg5 harg5 arg6 harg6 arg7 harg7 hc0 hc1 x0 x1 x2 x3 x4 xs0).2.1 S1x128.size (by sl_kernel_rfl) y

/-- What the accumulator holds after the last point. -/
def sout2_C (c : Dev nD) (i : grid2.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S128x2 .f32) (harg4 : arg4.IsWhole) (arg5 : Memref sig .tc .vmem S1x2 .f32) (harg5 : arg5.IsWhole) (arg6 : Memref sig .tc .vmem S1x2 .f32) (harg6 : arg6.IsWhole) (arg7 : Memref sig .tc .vmem S1x128 .f32) (harg7 : arg7.IsWhole) (hc0 : ¬cond2_0 i) (hc1 : cond2_1 i)
    (x0 : Vec F S5000x128 .f32) (x1 : Vec F S5000x1 .f32) (x2 : Vec F S1x128 .f32) (x3 : Vec F S128x2 .f32) (x4 : Vec F S1x2 .f32) (xs0 : Vec F S1x128 .f32) : Vec F S1x128 .f32 :=
  VS2.read (Elt F) (VS2.writes (Elt F) VS2.junk (kernelRun2_C c i arg1 harg1 arg2 harg2 arg3 harg3 arg4 harg4 arg5 harg5 arg6 harg6 arg7 harg7 hc0 hc1 x0 x1 x2 x3 x4 xs0).2.1)

/-! ## What the output's buffer and the accumulator hold after each point -/

/-- The accumulation: after the body at position `n`, the output's staging buffer and the accumulator (a pair) hold
    what the case the point is in leaves, run at the point's input blocks and — past the first point — at the
    accumulator the point before left. -/
def outsAt2 (c : Dev nD) : (n : ℕ) → n < cfg2.N → Vec F S1x2 .f32 × Vec F S1x128 .f32
  | 0, hn => (out2_A_5 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) scM2 (Memref.isWhole_whole _) ((hcond2_0 ⟨0, hn⟩).mpr rfl) (fun h => absurd ((hcond2_1 ⟨0, hn⟩).mp h) (by decide : ¬(0 : ℕ) = 9)) (iblk2 V c 0 ⟨0, hn⟩) (iblk2 V c 1 ⟨0, hn⟩) (iblk2 V c 2 ⟨0, hn⟩) (iblk2 V c 3 ⟨0, hn⟩) (iblk2 V c 4 ⟨0, hn⟩), sout2_A c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) scM2 (Memref.isWhole_whole _) ((hcond2_0 ⟨0, hn⟩).mpr rfl) (fun h => absurd ((hcond2_1 ⟨0, hn⟩).mp h) (by decide : ¬(0 : ℕ) = 9)) (iblk2 V c 0 ⟨0, hn⟩) (iblk2 V c 1 ⟨0, hn⟩) (iblk2 V c 2 ⟨0, hn⟩) (iblk2 V c 3 ⟨0, hn⟩) (iblk2 V c 4 ⟨0, hn⟩))
  | n + 1, hn =>
    if h1 : n + 1 = 9 then
      (out2_C_5 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2 (Memref.isWhole_whole _) (fun h => absurd ((hcond2_0 ⟨n + 1, hn⟩).mp h) (Nat.succ_ne_zero n)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 c n (Nat.lt_of_succ_lt hn)).2, sout2_C c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2 (Memref.isWhole_whole _) (fun h => absurd ((hcond2_0 ⟨n + 1, hn⟩).mp h) (Nat.succ_ne_zero n)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 c n (Nat.lt_of_succ_lt hn)).2)
    else
      (out2_B_5 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2 (Memref.isWhole_whole _) (fun h => absurd ((hcond2_0 ⟨n + 1, hn⟩).mp h) (Nat.succ_ne_zero n)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 c n (Nat.lt_of_succ_lt hn)).2, sout2_B c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2 (Memref.isWhole_whole _) (fun h => absurd ((hcond2_0 ⟨n + 1, hn⟩).mp h) (Nat.succ_ne_zero n)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 c n (Nat.lt_of_succ_lt hn)).2)

/-- `outsAt2` at the first point. -/
theorem outsAt2_A (c : Dev nD) (t : Fin cfg2.N) (h0 : t.val = 0) (h1 : ¬t.val = 9) :
    outsAt2 V c t.val t.isLt = (out2_A_5 c (grid2.coords t) (ms2_0 t) (hs2_0 t) (ms2_1 t) (hs2_1 t) (ms2_2 t) (hs2_2 t) (ms2_3 t) (hs2_3 t) (ms2_4 t) (hs2_4 t) (ms2_5 t) (hs2_5 t) scM2 (Memref.isWhole_whole _) ((hcond2_0 t).mpr h0) (fun h => h1 ((hcond2_1 t).mp h)) (iblk2 V c 0 t) (iblk2 V c 1 t) (iblk2 V c 2 t) (iblk2 V c 3 t) (iblk2 V c 4 t), sout2_A c (grid2.coords t) (ms2_0 t) (hs2_0 t) (ms2_1 t) (hs2_1 t) (ms2_2 t) (hs2_2 t) (ms2_3 t) (hs2_3 t) (ms2_4 t) (hs2_4 t) (ms2_5 t) (hs2_5 t) scM2 (Memref.isWhole_whole _) ((hcond2_0 t).mpr h0) (fun h => h1 ((hcond2_1 t).mp h)) (iblk2 V c 0 t) (iblk2 V c 1 t) (iblk2 V c 2 t) (iblk2 V c 3 t) (iblk2 V c 4 t)) := by
  obtain ⟨n, hn⟩ := t
  cases n with
  | zero => exact rfl
  | succ n => exact absurd h0 (Nat.succ_ne_zero n)

/-- `outsAt2` at a middle point: over what the point before left. -/
theorem outsAt2_B (c : Dev nD) (t : Fin cfg2.N) (h0 : ¬t.val = 0) (h1 : ¬t.val = 9) :
    outsAt2 V c t.val t.isLt = (out2_B_5 c (grid2.coords t) (ms2_0 t) (hs2_0 t) (ms2_1 t) (hs2_1 t) (ms2_2 t) (hs2_2 t) (ms2_3 t) (hs2_3 t) (ms2_4 t) (hs2_4 t) (ms2_5 t) (hs2_5 t) scM2 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (outsAt2 V c (t.val - 1) (Nat.lt_of_le_of_lt (Nat.sub_le _ _) t.isLt)).2, sout2_B c (grid2.coords t) (ms2_0 t) (hs2_0 t) (ms2_1 t) (hs2_1 t) (ms2_2 t) (hs2_2 t) (ms2_3 t) (hs2_3 t) (ms2_4 t) (hs2_4 t) (ms2_5 t) (hs2_5 t) scM2 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (outsAt2 V c (t.val - 1) (Nat.lt_of_le_of_lt (Nat.sub_le _ _) t.isLt)).2) := by
  obtain ⟨n, hn⟩ := t
  cases n with
  | zero => exact absurd rfl h0
  | succ n => exact (dif_neg h1).trans rfl

/-- `outsAt2` at the last point: over what the point before left. -/
theorem outsAt2_C (c : Dev nD) (t : Fin cfg2.N) (h0 : ¬t.val = 0) (h1 : t.val = 9) :
    outsAt2 V c t.val t.isLt = (out2_C_5 c (grid2.coords t) (ms2_0 t) (hs2_0 t) (ms2_1 t) (hs2_1 t) (ms2_2 t) (hs2_2 t) (ms2_3 t) (hs2_3 t) (ms2_4 t) (hs2_4 t) (ms2_5 t) (hs2_5 t) scM2 (Memref.isWhole_whole _) (fun h => h0 ((hcond2_0 t).mp h)) ((hcond2_1 t).mpr h1) (iblk2 V c 0 t) (iblk2 V c 1 t) (iblk2 V c 2 t) (iblk2 V c 3 t) (iblk2 V c 4 t) (outsAt2 V c (t.val - 1) (Nat.lt_of_le_of_lt (Nat.sub_le _ _) t.isLt)).2, sout2_C c (grid2.coords t) (ms2_0 t) (hs2_0 t) (ms2_1 t) (hs2_1 t) (ms2_2 t) (hs2_2 t) (ms2_3 t) (hs2_3 t) (ms2_4 t) (hs2_4 t) (ms2_5 t) (hs2_5 t) scM2 (Memref.isWhole_whole _) (fun h => h0 ((hcond2_0 t).mp h)) ((hcond2_1 t).mpr h1) (iblk2 V c 0 t) (iblk2 V c 1 t) (iblk2 V c 2 t) (iblk2 V c 3 t) (iblk2 V c 4 t) (outsAt2 V c (t.val - 1) (Nat.lt_of_le_of_lt (Nat.sub_le _ _) t.isLt)).2) := by
  obtain ⟨n, hn⟩ := t
  cases n with
  | zero => exact absurd rfl h0
  | succ n => exact (dif_pos h1).trans rfl

/-! ## The invariant -/

/-- The class's invariant with the accumulator split off the other scoped buffers. -/
theorem PhiA2_eq (c : Dev nD) :
    (Pipeline.ΦA spec2 c : sProp 𝕄)
      = iprop(iprop((∃ d, owns (c : Thread nD τ) scM2 fullShare d) ∗ others2 c) ∗ (∃ r, prngReg c r)) := by
  unfold Pipeline.ΦA; rw [scopedRest2_split]

/-- The invariant before position `n`: before the first point every scoped buffer no window stages at anything and
    the generator register at some state; afterwards the accumulator at what the point before left in it, the other
    scoped buffers at anything, the register at some state. -/
def PhiS2 (c : Dev nD) : (n : ℕ) → n ≤ cfg2.N → sProp 𝕄
  | 0, _ => Pipeline.ΦA spec2 c
  | n + 1, hn => iprop(iprop(owns (c : Thread nD τ) scM2 fullShare ((outsAt2 V c n hn).2) ∗ others2 c) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(owns (c : Thread nD τ) scM2 fullShare ((outsAt2 V c n hn).2) ∗ others2 c) ∗ (∃ r, prngReg c r)) := rfl

theorem PhiS2_pos (c : Dev nD) (n : ℕ) (h : n ≤ cfg2.N) (hz : n ≠ 0) :
    PhiS2 V c n h = iprop(iprop(owns (c : Thread nD τ) scM2 fullShare ((outsAt2 V c (n - 1) (by omega)).2) ∗ others2 c) ∗ (∃ r, prngReg c r)) := by
  cases n with
  | zero => exact absurd rfl hz
  | succ n => rfl

/-! ## The proof data -/

/-- The proof data of region 2 on core `c`: the arrays as the region finds them; after the body at point `t` each
    input's buffer at its block and the output's at `outsAt2`; the invariant `PhiS2`; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = (outsAt2 V c t.val t.isLt).1 := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-- Input window 0 is never idle: the body leaves its buffer at its block. -/
theorem leaves2_0 (c : Dev nD) (t : Fin cfg2.N) :
    (dat2 V c).leavesExact 0 t = owns (c : Thread nD τ) (ms2_0 t) fullShare (iblk2 V c 0 t) := by
  unfold Dat.leavesExact; rw [liveAt2_0 t, after2_0]
/-- Input window 1 is never idle: the body leaves its buffer at its block. -/
theorem leaves2_1 (c : Dev nD) (t : Fin cfg2.N) :
    (dat2 V c).leavesExact 1 t = owns (c : Thread nD τ) (ms2_1 t) fullShare (iblk2 V c 1 t) := by
  unfold Dat.leavesExact; rw [liveAt2_1 t, after2_1]
/-- Input window 2 is never idle: the body leaves its buffer at its block. -/
theorem leaves2_2 (c : Dev nD) (t : Fin cfg2.N) :
    (dat2 V c).leavesExact 2 t = owns (c : Thread nD τ) (ms2_2 t) fullShare (iblk2 V c 2 t) := by
  unfold Dat.leavesExact; rw [liveAt2_2 t, after2_2]
/-- Input window 3 is never idle: the body leaves its buffer at its block. -/
theorem leaves2_3 (c : Dev nD) (t : Fin cfg2.N) :
    (dat2 V c).leavesExact 3 t = owns (c : Thread nD τ) (ms2_3 t) fullShare (iblk2 V c 3 t) := by
  unfold Dat.leavesExact; rw [liveAt2_3 t, after2_3]
/-- Input window 4 is never idle: the body leaves its buffer at its block. -/
theorem leaves2_4 (c : Dev nD) (t : Fin cfg2.N) :
    (dat2 V c).leavesExact 4 t = owns (c : Thread nD τ) (ms2_4 t) fullShare (iblk2 V c 4 t) := by
  unfold Dat.leavesExact; rw [liveAt2_4 t, after2_4]
/-- At the last point the output window is live: the body leaves its buffer at the point's contents. -/
theorem leaves2_5_C (c : Dev nD) (t : Fin cfg2.N) (h1 : t.val = 9) :
    (dat2 V c).leavesExact 5 t = owns (c : Thread nD τ) (ms2_5 t) fullShare ((outsAt2 V c t.val t.isLt).1) := by
  unfold Dat.leavesExact; rw [liveAt2_5 t ((hcond2_1 t).mpr h1), after2_5]
/-- At every other point it is idle and not written back: the body hands its buffer back as found. -/
theorem leaves2_5_idle (c : Dev nD) (t : Fin cfg2.N) (h1 : ¬t.val = 9) :
    (dat2 V c).leavesExact 5 t = iprop(∃ d, owns (c : Thread nD τ) (ms2_5 t) fullShare ((dat2 V c).before 5 t d)) :=
  Dat.leavesExact_idle (dat2 V c) 5 t (idleAt2_5 t (fun h => h1 ((hcond2_1 t).mp h))) (noFlush2_5 t (fun h => h1 ((hcond2_1 t).mp h)))

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t)

set_option maxHeartbeats 4800000 in
/-- The body at any point. The inputs' memrefs hold their blocks; the closed forms of the two conditions say which
    case the point is in; the invariant hands the body the accumulator — at anything at the first point, at what the
    point before left afterwards — and takes it back at this point's contents, the stores covering it; the other
    scoped buffers and the generator register ride along; the core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).owesAt () t.succ = (dat2 V c).owesAt () t.castSucc from rfl]
  rw [show (dat2 V c).Φ t.succ = PhiS2 V c (t.val + 1) t.isLt from rfl, PhiS2_succ]
  have hN : t.val < 10 := lt_of_lt_of_eq t.isLt (show cfg2.N = 10 from N_2)
  by_cases h0 : t.val = 0
  · have h1 : ¬t.val = 9 := by omega
    rw [leaves2_0, leaves2_1, leaves2_2, leaves2_3, leaves2_4, leaves2_5_idle V c t h1]
    rw [outsAt2_A V c t h0 h1]
    unfold sout2_A; (try dsimp only)
    rw [PhiS2_castSucc V c t, PhiS2_zero V c _ _ h0, PhiA2_eq]
    iintro ⟨⟨⟨HS0, Hoth⟩, Hg⟩, Ho, ⟨%d0, H0⟩, ⟨%d1, H1⟩, ⟨%d2, H2⟩, ⟨%d3, H3⟩, ⟨%d4, H4⟩, ⟨%d5, H5⟩⟩
    iapply ((kernelRun2_A c (grid2.coords t) _ _ _ _ _ _ _ _ _ _ _ _ _ _ ((hcond2_0 t).mpr h0) (fun h => h1 ((hcond2_1 t).mp h)) (iblk2 V c 0 t) (iblk2 V c 1 t) (iblk2 V c 2 t) (iblk2 V c 3 t) (iblk2 V c 4 t)).2.2 _ Set.univ _)
    isplitl [H0]; · iexact H0
    isplitl [H1]; · iexact H1
    isplitl [H2]; · iexact H2
    isplitl [H3]; · iexact H3
    isplitl [H4]; · iexact H4
    isplitl [H5]; · iexact H5
    isplitl [HS0]; · iexact HS0
    iintro ⟨H0, H1, H2, H3, H4, H5, ⟨%es0, HS0⟩⟩
    isplitl [HS0 Hoth Hg]
    · isplitl [HS0 Hoth]
      · isplitl [HS0]
        · unfold owns; iexists _; isplitr
          swap; · iexact HS0
          ipureintro; exact View.read_writes_of_cover _ _ _ _ _ (scover2_A c _ _ _ _ _ _ _ _ _ _ _ _ _ _ _ _ _ _ _ _ _ _)
        iexact Hoth
      iexact Hg
    isplitl [Ho]; · iexact Ho
    isplitl [H0]; · iexact H0
    isplitl [H1]; · iexact H1
    isplitl [H2]; · iexact H2
    isplitl [H3]; · iexact H3
    isplitl [H4]; · iexact H4
    iexists _; iexact H5
  · by_cases h1 : t.val = 9
    ·
      rw [leaves2_0, leaves2_1, leaves2_2, leaves2_3, leaves2_4, leaves2_5_C V c t h1]
      rw [outsAt2_C V c t h0 h1]
      unfold out2_C_5 sout2_C; (try dsimp only)
      rw [PhiS2_castSucc V c t, PhiS2_pos V c _ _ h0]
      iintro ⟨⟨⟨HS0, Hoth⟩, Hg⟩, Ho, ⟨%d0, H0⟩, ⟨%d1, H1⟩, ⟨%d2, H2⟩, ⟨%d3, H3⟩, ⟨%d4, H4⟩, ⟨%d5, H5⟩⟩
      iapply ((kernelRun2_C c (grid2.coords t) _ _ _ _ _ _ _ _ _ _ _ _ _ _ (fun h => h0 ((hcond2_0 t).mp h)) ((hcond2_1 t).mpr h1) (iblk2 V c 0 t) (iblk2 V c 1 t) (iblk2 V c 2 t) (iblk2 V c 3 t) (iblk2 V c 4 t) _).2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      iintro ⟨H0, H1, H2, H3, H4, ⟨%e5, H5⟩, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover2_C c _ _ _ _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (cover2_C_5 c _ _ _ _ _ _ _ _ _ _ _ _ _ _ _ _ _ _ _ _ _ _ _)
    ·
      rw [leaves2_0, leaves2_1, leaves2_2, leaves2_3, leaves2_4, leaves2_5_idle V c t h1]
      rw [outsAt2_B V c t h0 h1]
      unfold sout2_B; (try dsimp only)
      rw [PhiS2_castSucc V c t, PhiS2_pos V c _ _ h0]
      iintro ⟨⟨⟨HS0, Hoth⟩, Hg⟩, Ho, ⟨%d0, H0⟩, ⟨%d1, H1⟩, ⟨%d2, H2⟩, ⟨%d3, H3⟩, ⟨%d4, H4⟩, ⟨%d5, H5⟩⟩
      iapply ((kernelRun2_B c (grid2.coords t) _ _ _ _ _ _ _ _ _ _ _ _ _ _ (fun h => h0 ((hcond2_0 t).mp h)) (fun h => h1 ((hcond2_1 t).mp h)) (iblk2 V c 0 t) (iblk2 V c 1 t) (iblk2 V c 2 t) (iblk2 V c 3 t) (iblk2 V c 4 t) _).2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      iintro ⟨H0, H1, H2, H3, H4, H5, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover2_B c _ _ _ _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The body obligation, at every point. -/
theorem body_obligation2 (c : Dev nD) : BodyObligation (dat2 (F := F) V c) (defs₀ (F := F)) Variants.none () Set.univ := fun t => by
  rw [bigSep_W2, bigSep_W2]
  exact sound_body2 V c t

/-! ## Entering and leaving the invariant -/

/-- The generator register at some state and the scoped buffers no window stages make the invariant before the first
    point (there is no prefetched table). -/
theorem hin2 (c : Dev nD) : iprop((∃ r, prngReg c r) ∗ Pipeline.prefHeld (pcfgs (F := F) 2).pre c (fun _ => fullShare) (adm (F := F) 2).1 ∗ Pipeline.scopedRest spec2 c) ⊢ ((dat2 V c).Φ 0 : sProp 𝕄) := by
  rw [show (dat2 V c).Φ 0 = PhiS2 V c 0 (Nat.zero_le _) from rfl, PhiS2_zero V c 0 _ rfl]; unfold Pipeline.ΦA
  iintro ⟨Hp, -, Hr⟩
  isplitl [Hr]; · iexact Hr
  iexact Hp

/-- After the last point the invariant gives them back: the accumulator's named contents are forgotten. -/
theorem hout2 (c : Dev nD) : ((dat2 V c).Φ (Fin.last cfg2.N) : sProp 𝕄) ⊢ iprop((∃ r, prngReg c r) ∗ Pipeline.ownSems0 (fun k : PEmpty => k.elim) c ∗ Pipeline.scopedRest spec2 c) := by
  rw [Pipeline.ownSems0_none, show (dat2 V c).Φ (Fin.last cfg2.N) = PhiS2 V c (Fin.last cfg2.N).val (Nat.le_of_lt_succ (Fin.last cfg2.N).isLt) from rfl,
    PhiS2_pos V c _ _ (by rw [Fin.val_last]; have : cfg2.N = 10 := N_2; omega), scopedRest2_split]
  iintro ⟨⟨HS0, Hoth⟩, Hg⟩
  isplitl [Hg]; · iexact Hg
  isplitr; · iempintro
  isplitl [HS0]; · iexists _; iexact HS0
  iexact Hoth

end Cert.KernelIdeal.Hand

end
-- ==== Proof.KI.Run.lean ====
import proofs.«145645_j19997367730789_1_alg».proof.Proof.Gen.KernelIdeal.Regions
import proofs.«145645_j19997367730789_1_alg».proof.Proof.KI.Region0
import proofs.«145645_j19997367730789_1_alg».proof.Proof.KI.Region1
import proofs.«145645_j19997367730789_1_alg».proof.Proof.KI.Region2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ)

/-! ## The buffers' contents at the region boundaries

Each region changes one array: region 0 writes the layer-1 product into `main_v25`, region 1 the layer-2 product into
`main_v36`, region 2 the read-out into `main_v47`. What a region leaves there is what its write-backs fold to
(`Dat.arrAt … N`); between regions the host stretches apply (`StableHlo.after`). The contents after each region are
defined one region at a time, each from the boundary contents before it. -/

/-- A family of "what the regions leave" from three valuations, read at positions 6, 8 and 10. -/
def mkOuts (a6 a8 a10 : Dev nD → Valuation τ sig (Elt F)) : Outs (F := F) :=
  fun n r c => if n = 6 then a6 c r else if n = 8 then a8 c r else a10 c r

/-- The buffers as region 0 finds them, read at the TensorCore's references. -/
abbrev E5 : (c : Dev nD) → (b : Ref sig .tc) → Buf (Elt F) ((c : Thread nD τ).loc b) := fun c b => V5 m c b
/-- After region 0: its arrays at what its write-backs leave. -/
def W6 (c : Dev nD) : Valuation τ sig (Elt F) :=
  Pipeline.withArrays spec0 c (V5 m c) fun w => (dat0 (E5 m) c).arrAt w cfg0.N
def outs6 : Outs (F := F) := mkOuts (W6 m) (W6 m) (W6 m)

/-- The buffers as region 1 finds them. -/
abbrev E7 : (c : Dev nD) → (b : Ref sig .tc) → Buf (Elt F) ((c : Thread nD τ).loc b) := fun c b => V7 m (outs6 m) c b
def W8 (c : Dev nD) : Valuation τ sig (Elt F) :=
  Pipeline.withArrays spec1 c (V7 m (outs6 m) c) fun w => (dat1 (E7 m) c).arrAt w cfg1.N
def outs8 : Outs (F := F) := mkOuts (W6 m) (W8 m) (W8 m)

/-- The buffers as region 2 finds them. -/
abbrev E9 : (c : Dev nD) → (b : Ref sig .tc) → Buf (Elt F) ((c : Thread nD τ).loc b) := fun c b => V9 m (outs8 m) c b
def W10 (c : Dev nD) : Valuation τ sig (Elt F) :=
  Pipeline.withArrays spec2 c (V9 m (outs8 m) c) fun w => (dat2 (E9 m) c).arrAt w cfg2.N
/-- What the three regions leave. -/
def outs : Outs (F := F) := mkOuts (W6 m) (W8 m) (W10 m)

theorem outs_6 (r : Ref sig .tc) (c : Dev nD) : outs m 6 r c = W6 m c r := rfl
theorem outs_8 (r : Ref sig .tc) (c : Dev nD) : outs m 8 r c = W8 m c r := rfl
theorem outs_10 (r : Ref sig .tc) (c : Dev nD) : outs m 10 r c = W10 m c r := rfl
theorem V7_outs (c : Dev nD) : V7 m (outs m) c = V7 m (outs6 m) c := rfl
theorem V9_outs (c : Dev nD) : V9 m (outs m) c = V9 m (outs8 m) c := rfl

/-! ## The proof data of the three pipelines, each at its region's entry contents -/

def pdats : (p : Fin 3) → (c : Dev nD) → Dat τ (Elt F) Unit ℕ (UR sig nD τ) ℕ (cfgs p) c
  | ⟨0, _⟩ => fun c => dat0 (E5 m) c
  | ⟨1, _⟩ => fun c => dat1 (E7 m) c
  | ⟨2, _⟩ => fun c => dat2 (E9 m) c

/-- No core owes another anything: no level is assigned. -/
abbrev Lz : GSem nD τ sig → Finset Unit := fun _ => ∅
abbrev lvz : GSem nD τ sig → Unit → ℕ := fun _ _ => 0
/-- What rides beside the buffers through every segment: the generator register at some state and the core owing nothing. -/
abbrev Rr (c : Dev nD) : sProp 𝕄 := iprop((∃ r, prngReg c r) ∗ ∃ W, owes (c : Thread nD τ) (0 : CellTallies nD τ sig Unit) W)

/-- What region 0 leaves in its output array. -/
theorem V6_out (c : Dev nD) : V6 m (outs m) c main_v25 = (dat0 (E5 m) c).arrAt 3 cfg0.N := by
  show Function.update (V5 m c) (Proc.devRef .tc main_v25 : DevRef τ sig) (outs m 6 main_v25 c) (Proc.devRef .tc main_v25) = _
  rw [Function.update_self]
  show W6 m c main_v25 = _
  unfold W6; exact Pipeline.withArrays_arr spec0 launch0.win.arr_inj c _ _ 3

/-- What region 1 leaves in its output array. -/
theorem V8_out (c : Dev nD) : V8 m (outs m) c main_v36 = (dat1 (E7 m) c).arrAt 5 cfg1.N := by
  show Function.update (V7 m (outs m) c) (Proc.devRef .tc main_v36 : DevRef τ sig) (outs m 8 main_v36 c) (Proc.devRef .tc main_v36) = _
  rw [Function.update_self]
  show W8 m c main_v36 = _
  unfold W8; exact Pipeline.withArrays_arr spec1 launch1.win.arr_inj c _ _ 5

/-- What region 2 leaves in its output array. -/
theorem V10_out (c : Dev nD) : V10 m (outs m) c main_v47 = (dat2 (E9 m) c).arrAt 5 cfg2.N := by
  show Function.update (V9 m (outs m) c) (Proc.devRef .tc main_v47 : DevRef τ sig) (outs m 10 main_v47 c) (Proc.devRef .tc main_v47) = _
  rw [Function.update_self]
  show W10 m c main_v47 = _
  unfold W10; exact Pipeline.withArrays_arr spec2 launch2.win.arr_inj c _ _ 5

theorem hF0 (c : Dev nD) (w : Fin cfg0.W) : (dat0 (E5 m) c).arrAt w cfg0.N = V6 m (outs m) c (Pipeline.arrRef spec0 w) :=
  match w with
  | ⟨0, _⟩ => ((dat0 (E5 m) c).arrAt_in 0 rfl _).trans ((A_eq0 (E5 m) c 0).trans (V6_of m (outs m) c (Pipeline.arrRef spec0 0) (by decide)).symm)
  | ⟨1, _⟩ => ((dat0 (E5 m) c).arrAt_in 1 rfl _).trans ((A_eq0 (E5 m) c 1).trans (V6_of m (outs m) c (Pipeline.arrRef spec0 1) (by decide)).symm)
  | ⟨2, _⟩ => ((dat0 (E5 m) c).arrAt_in 2 rfl _).trans ((A_eq0 (E5 m) c 2).trans (V6_of m (outs m) c (Pipeline.arrRef spec0 2) (by decide)).symm)
  | ⟨3, _⟩ => (V6_out m c).symm
theorem hrest0 (c : Dev nD) : ∀ b : Ref sig .tc, b ∉ Finset.univ.image (Pipeline.arrRef spec0) → V6 m (outs m) c b = V5 m c b :=
  fun b hb => V6_of m (outs m) c b (fun h => hb (by
    rw [List.mem_singleton] at h; subst h
    exact Finset.mem_image.mpr ⟨3, Finset.mem_univ _, rfl⟩))

set_option maxHeartbeats 2000000 in
set_option backward.isDefEq.respectTransparency.types false in
/-- Region 0 over the thread state "every unscoped buffer at the boundary's contents, the generator register at some
    state, nothing owed": its arrays split out of the unscoped buffers on entry and put back at the exit contents. -/
def reg0 : Pipeline.RegionSeg (pcfgs (F := F)) (adm (F := F)) (pdats m) () defs₀ Variants.none Lz lvz 0 where
  win := launch0.win.to₀
  block_pos := launch0.block_pos
  stage_whole := launch0.stage_whole
  K := PEmpty
  osem k := k.elim
  ho := Pipeline.OwnSemFacts.none _
  hbody c := (body_obligation0 (E5 m) c).loose
  hwaits := Pipeline.hwaits_of_owed_zero _ _ _ _ Lz lvz 0 fun _ _ => rfl
  pre c := iprop(StableHlo.held (c : Thread nD τ) (Pipeline.ucRefs τ sig) (V5 m c) ∗ Rr c)
  post c := iprop(StableHlo.held (c : Thread nD τ) (Pipeline.ucRefs τ sig) (V6 m (outs m) c) ∗ Rr c)
  X c := iprop(∃ r, prngReg c r)
  Y c := iprop(∃ r, prngReg c r)
  Z c := Pipeline.unscopedRest (Ix := Unit) (Name := ℕ) (U := UR sig nD τ) (Lvl := ℕ) spec0 c (E5 m c)
  hentry c := by
    rw [Pipeline.ownSems0_none]
    have hsplit := Pipeline.arrays_of_unscopedBufs (p := 0) (pcfgs (F := F)) (adm (F := F)) (pdats m) launch0.win launch0.arr_whole c
      ((pdats m 0 c).share_full fun _ => rfl) (E5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) (adm (F := F)) (Ix := Unit) (Name := ℕ) (U := UR sig nD τ) (Lvl := ℕ)
      launch0.win launch0.arr_whole c (pdats m) ((pdats m 0 c).share_full fun _ => rfl)
      (E5 m c) (fun b => V6 m (outs m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option maxHeartbeats 4000000 in
theorem hF1 (c : Dev nD) : ∀ w : Fin 6, (dat1 (E7 m) c).arrAt w cfg1.N = V8 m (outs m) c (Pipeline.arrRef spec1 w) := fun
  | 0 => ((dat1 (E7 m) c).arrAt_in 0 rfl _).trans ((A_eq1 (E7 m) c 0).trans (V8_of m (outs m) c (Pipeline.arrRef spec1 0) (by decide)).symm)
  | 1 => ((dat1 (E7 m) c).arrAt_in 1 rfl _).trans ((A_eq1 (E7 m) c 1).trans (V8_of m (outs m) c (Pipeline.arrRef spec1 1) (by decide)).symm)
  | 2 => ((dat1 (E7 m) c).arrAt_in 2 rfl _).trans ((A_eq1 (E7 m) c 2).trans (V8_of m (outs m) c (Pipeline.arrRef spec1 2) (by decide)).symm)
  | 3 => ((dat1 (E7 m) c).arrAt_in 3 rfl _).trans ((A_eq1 (E7 m) c 3).trans (V8_of m (outs m) c (Pipeline.arrRef spec1 3) (by decide)).symm)
  | 4 => ((dat1 (E7 m) c).arrAt_in 4 rfl _).trans ((A_eq1 (E7 m) c 4).trans (V8_of m (outs m) c (Pipeline.arrRef spec1 4) (by decide)).symm)
  | 5 => (V8_out m c).symm
  | ⟨_ + 6, h⟩ => absurd h (Nat.not_lt.2 (Nat.le_add_left _ _))
theorem hrest1 (c : Dev nD) : ∀ b : Ref sig .tc, b ∉ Finset.univ.image (Pipeline.arrRef spec1) → V8 m (outs m) c b = V7 m (outs m) c b :=
  fun b hb => V8_of m (outs m) c b (fun h => hb (by
    rw [List.mem_singleton] at h; subst h
    exact Finset.mem_image.mpr ⟨5, Finset.mem_univ _, rfl⟩))

set_option maxHeartbeats 2000000 in
set_option backward.isDefEq.respectTransparency.types false in
/-- Region 1 over the thread state "every unscoped buffer at the boundary's contents, the generator register at some
    state, nothing owed": its arrays split out of the unscoped buffers on entry and put back at the exit contents. -/
def reg1 : Pipeline.RegionSeg (pcfgs (F := F)) (adm (F := F)) (pdats m) () defs₀ Variants.none Lz lvz 1 where
  win := launch1.win.to₀
  block_pos := launch1.block_pos
  stage_whole := launch1.stage_whole
  K := PEmpty
  osem k := k.elim
  ho := Pipeline.OwnSemFacts.none _
  hbody c := (body_obligation1 (E7 m) c).loose
  hwaits := Pipeline.hwaits_of_owed_zero _ _ _ _ Lz lvz 1 fun _ _ => rfl
  pre c := iprop(StableHlo.held (c : Thread nD τ) (Pipeline.ucRefs τ sig) (V7 m (outs m) c) ∗ Rr c)
  post c := iprop(StableHlo.held (c : Thread nD τ) (Pipeline.ucRefs τ sig) (V8 m (outs m) c) ∗ Rr c)
  X c := iprop(∃ r, prngReg c r)
  Y c := iprop(∃ r, prngReg c r)
  Z c := Pipeline.unscopedRest (Ix := Unit) (Name := ℕ) (U := UR sig nD τ) (Lvl := ℕ) spec1 c (E7 m c)
  hentry c := by
    rw [Pipeline.ownSems0_none]
    rw [show V7 m (outs m) c = V7 m (outs6 m) c from rfl]
    have hsplit := Pipeline.arrays_of_unscopedBufs (p := 1) (pcfgs (F := F)) (adm (F := F)) (pdats m) launch1.win launch1.arr_whole c
      ((pdats m 1 c).share_full fun _ => rfl) (E7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) (adm (F := F)) (Ix := Unit) (Name := ℕ) (U := UR sig nD τ) (Lvl := ℕ)
      launch1.win launch1.arr_whole c (pdats m) ((pdats m 1 c).share_full fun _ => rfl)
      (E7 m c) (fun b => V8 m (outs m) c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option maxHeartbeats 4000000 in
theorem hF2 (c : Dev nD) : ∀ w : Fin 6, (dat2 (E9 m) c).arrAt w cfg2.N = V10 m (outs m) c (Pipeline.arrRef spec2 w) := fun
  | 0 => ((dat2 (E9 m) c).arrAt_in 0 rfl _).trans ((A_eq2 (E9 m) c 0).trans (V10_of m (outs m) c (Pipeline.arrRef spec2 0) (by decide)).symm)
  | 1 => ((dat2 (E9 m) c).arrAt_in 1 rfl _).trans ((A_eq2 (E9 m) c 1).trans (V10_of m (outs m) c (Pipeline.arrRef spec2 1) (by decide)).symm)
  | 2 => ((dat2 (E9 m) c).arrAt_in 2 rfl _).trans ((A_eq2 (E9 m) c 2).trans (V10_of m (outs m) c (Pipeline.arrRef spec2 2) (by decide)).symm)
  | 3 => ((dat2 (E9 m) c).arrAt_in 3 rfl _).trans ((A_eq2 (E9 m) c 3).trans (V10_of m (outs m) c (Pipeline.arrRef spec2 3) (by decide)).symm)
  | 4 => ((dat2 (E9 m) c).arrAt_in 4 rfl _).trans ((A_eq2 (E9 m) c 4).trans (V10_of m (outs m) c (Pipeline.arrRef spec2 4) (by decide)).symm)
  | 5 => (V10_out m c).symm
  | ⟨_ + 6, h⟩ => absurd h (Nat.not_lt.2 (Nat.le_add_left _ _))
theorem hrest2 (c : Dev nD) : ∀ b : Ref sig .tc, b ∉ Finset.univ.image (Pipeline.arrRef spec2) → V10 m (outs m) c b = V9 m (outs m) c b :=
  fun b hb => V10_of m (outs m) c b (fun h => hb (by
    rw [List.mem_singleton] at h; subst h
    exact Finset.mem_image.mpr ⟨5, Finset.mem_univ _, rfl⟩))

set_option maxHeartbeats 2000000 in
set_option backward.isDefEq.respectTransparency.types false in
/-- Region 2 over the thread state "every unscoped buffer at the boundary's contents, the generator register at some
    state, nothing owed": its arrays split out of the unscoped buffers on entry and put back at the exit contents. -/
def reg2 : Pipeline.RegionSeg (pcfgs (F := F)) (adm (F := F)) (pdats m) () defs₀ Variants.none Lz lvz 2 where
  win := launch2.win.to₀
  block_pos := launch2.block_pos
  stage_whole := launch2.stage_whole
  K := PEmpty
  osem k := k.elim
  ho := Pipeline.OwnSemFacts.none _
  hbody c := (body_obligation2 (E9 m) c).loose
  hwaits := Pipeline.hwaits_of_owed_zero _ _ _ _ Lz lvz 2 fun _ _ => rfl
  pre c := iprop(StableHlo.held (c : Thread nD τ) (Pipeline.ucRefs τ sig) (V9 m (outs m) c) ∗ Rr c)
  post c := iprop(StableHlo.held (c : Thread nD τ) (Pipeline.ucRefs τ sig) (V10 m (outs m) c) ∗ Rr c)
  X c := iprop(∃ r, prngReg c r)
  Y c := iprop(∃ r, prngReg c r)
  Z c := Pipeline.unscopedRest (Ix := Unit) (Name := ℕ) (U := UR sig nD τ) (Lvl := ℕ) spec2 c (E9 m c)
  hentry c := by
    rw [Pipeline.ownSems0_none]
    rw [show V9 m (outs m) c = V9 m (outs8 m) c from rfl]
    have hsplit := Pipeline.arrays_of_unscopedBufs (p := 2) (pcfgs (F := F)) (adm (F := F)) (pdats m) launch2.win launch2.arr_whole c
      ((pdats m 2 c).share_full fun _ => rfl) (E9 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := hin2 (E9 m) c
  hout c := hout2 (E9 m) c
  hexit c := by
    have hjoin := Pipeline.unscopedBufs_of_arrays (p := 2) (pcfgs (F := F)) (adm (F := F)) (Ix := Unit) (Name := ℕ) (U := UR sig nD τ) (Lvl := ℕ)
      launch2.win launch2.arr_whole c (pdats m) ((pdats m 2 c).share_full fun _ => rfl)
      (E9 m c) (fun b => V10 m (outs m) c b) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run

@main is ten segments: five host stretches, region 0, a host stretch, region 1, a host stretch, region 2. The kit's launch
over them, the last thread state read against the final state, gives every unscoped buffer at the last boundary's
contents: the arguments as launched (no segment writes one), the result at what region 2 leaves. -/

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state regrouped: the buffers and the generator register on one side, the core owing nothing on the other. -/
theorem lastStep (c : Dev nD) :
    iprop(StableHlo.held (c : Thread nD τ) (Pipeline.ucRefs τ sig) (V10 m (outs m) c) ∗ Rr c)
      ⊢ (iprop((StableHlo.held (c : Thread nD τ) (Pipeline.ucRefs τ sig) (V10 m (outs m) c) ∗ ∃ r, prngReg c r)
          ∗ ∃ W, owes (c : Thread nD τ) (0 : CellTallies nD τ sig Unit) W) : sProp 𝕄) := by
  iintro ⟨Hh, Hp, HO⟩
  isplitl [Hh Hp]
  · isplitl [Hh]; · iexact Hh
    iexact Hp
  iexact HO

abbrev EE : Fin 4 → Dev nD → sProp 𝕄 := fun _ c => Rr c

abbrev theSegs (c : Dev nD) := segs m (outs m) Variants.none Lz lvz (EE (F := F)) () (pdats m) (reg0 m) (reg1 m) (reg2 m) c

set_option backward.isDefEq.respectTransparency.types false in
/-- Every weakly fair execution of @main terminates, nothing faulting, and the final memory holds every unscoped buffer at
    the last boundary's contents. -/
theorem run_all (ρ : Dev nD → PrngReg) :
    θ_run defs (onTc (τ := τ) (main (F := F))) ⟨m, fun _ => 0, ρ⟩ (fun r => ∀ c : Dev nD,
      ∀ b ∈ Pipeline.ucRefs τ sig, r.2.mem (((c : Thread nD τ)).1, b) = V10 m (outs m) c b) := by
  refine Pipeline.θ_run_regions_kit_dev (pcfgs (F := F)) (adm (F := F)) (pdats m) () cellOf_inj emb₁ defs₀ Variants.none Lz lvz m ρ main
    (theSegs m)
    (fun c Q => by
      rewrite [main_chain c, Pipeline.Seg.run_eq_chain,
        show (theSegs m c).map Pipeline.Seg.prog = [
          StableHlo.seq hostOps0,
          StableHlo.seq hostOps0_1,
          StableHlo.seq hostOps0_2,
          StableHlo.seq hostOps0_3,
          StableHlo.seq hostOps0_4,
          Prog.lift (.customCall (Pipeline.entry 0) ()),
          StableHlo.seq hostOps1,
          Prog.lift (.customCall (Pipeline.entry 1) ()),
          StableHlo.seq hostOps2,
          Prog.lift (.customCall (Pipeline.entry 2) ()) ] from rfl]
      exact .rfl)
    (fun c => by simp only [theSegs, segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ Rr c))
    (Tₙ := fun c => iprop(StableHlo.held (c : Thread nD τ) (Pipeline.ucRefs τ sig) (V10 m (outs m) c) ∗ ∃ r, prngReg c r))
    (hch := fun c => ⟨.rfl, .rfl, .rfl, .rfl, .rfl, .rfl, .rfl, .rfl, .rfl, .rfl, lastStep m c⟩)
    (hinit := by
      refine Pipeline.initEach Lz lvz fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = V10 m (outs m) c b)
    (hfin := fun c s' => by
      iintro ⟨⟨Hh, -⟩, HSI⟩
      unfold StableHlo.held
      imodintro
      iapply (pointsTo_read_all (Pipeline.ucRefs τ sig) (fun b => (((c : Thread nD τ)).1, b)) (V10 m (outs m) c) s')
      isplitl [Hh] <;> iassumption)
    (hQ := fun s h c => h c)

/-- The frame: every argument array ends as launched. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨(h c _ (mem_uc main_arg0 (by decide))).trans (V10_main_arg0 m (outs m) c),
     (h c _ (mem_uc main_arg1 (by decide))).trans (V10_main_arg1 m (outs m) c),
     (h c _ (mem_uc main_arg2 (by decide))).trans (V10_main_arg2 m (outs m) c),
     (h c _ (mem_uc main_arg3 (by decide))).trans (V10_main_arg3 m (outs m) c),
     (h c _ (mem_uc main_arg4 (by decide))).trans (V10_main_arg4 m (outs m) c),
     (h c _ (mem_uc main_arg5 (by decide))).trans (V10_main_arg5 m (outs m) c),
     (h c _ (mem_uc main_arg6 (by decide))).trans (V10_main_arg6 m (outs m) c),
     (h c _ (mem_uc main_arg7 (by decide))).trans (V10_main_arg7 m (outs m) c),
     (h c _ (mem_uc main_arg8 (by decide))).trans (V10_main_arg8 m (outs m) c)⟩)
    (run_all m ρ)

/-- The run with the result named: the result array ends at what region 2 leaves, the arguments as launched. -/
theorem run_result (ρ : Dev nD → PrngReg) :
    θ_run defs (onTc (τ := τ) (main (F := F))) ⟨m, fun _ => 0, ρ⟩ (fun r => ∀ c : Dev nD,
      r.2.mem ((c.tc : Thread nD τ).loc main_v47) = (dat2 (E9 m) c).arrAt 5 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨(h c _ (mem_uc main_v47 (by decide))).trans (V10_out m c),
     (h c _ (mem_uc main_arg0 (by decide))).trans (V10_main_arg0 m (outs m) c),
     (h c _ (mem_uc main_arg1 (by decide))).trans (V10_main_arg1 m (outs m) c),
     (h c _ (mem_uc main_arg2 (by decide))).trans (V10_main_arg2 m (outs m) c),
     (h c _ (mem_uc main_arg3 (by decide))).trans (V10_main_arg3 m (outs m) c),
     (h c _ (mem_uc main_arg4 (by decide))).trans (V10_main_arg4 m (outs m) c),
     (h c _ (mem_uc main_arg5 (by decide))).trans (V10_main_arg5 m (outs m) c),
     (h c _ (mem_uc main_arg6 (by decide))).trans (V10_main_arg6 m (outs m) c),
     (h c _ (mem_uc main_arg7 (by decide))).trans (V10_main_arg7 m (outs m) c),
     (h c _ (mem_uc main_arg8 (by decide))).trans (V10_main_arg8 m (outs m) c)⟩)
    (run_all m ρ)

end Cert.KernelIdeal.Hand

end
-- ==== Proof.KI.Value0.lean ====
/- The first pallas_call's output array in closed form, on the extended reals: whatever the TensorCore's buffers hold
   when the region is entered, after its ten grid points the output array is, entry by entry,
   out[r, q] = ∑ k, (x[r, k] · n[r, 0]) · w[k, q] of the feature array x, the normaliser column n and the weight
   matrix w the region reads. Point t computes rows 5000 t … 5000 t + 4999 from the same rows of x and n and from
   all of w, and the ten row blocks tile the array. -/
import proofs.«145645_j19997367730789_1_alg».proof.Proof.KI.Region0
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen Idealize.ShloMosaic Idealize.ShloMosaic.TcCoe Idealize.SL.Sem
open Idealize.ShloMosaic.Pipeline (Dat)
open Idealize.ShloMosaic.ValueIdx
open scoped BigOperators

/-- The first layer as one function of the three arrays: row `r` of the features scaled by the row's
    normaliser, times the weight matrix. -/
def G0 (x : S50000x128.Idx → Elt Ideal .f32) (n : S50000x1.Idx → Elt Ideal .f32) (w : S128x128.Idx → Elt Ideal .f32) :
    S50000x128.Idx → Elt Ideal .f32 :=
  fun j => ∑ k : Fin 128, (x (ix2 (j 0) k) * n (ix2 (j 0) 0)) * w (ix2 k (j 1))

theorem hz0 : (![0, 0] : Fin 2 → Nat) = fun _ => 0 := funext fun a => by fin_cases a <;> rfl

/-- The body's payload at an entry `(p, q)` of the block: the product into a zero accumulator is the sum over the
    contracted coordinate `k` of (feature `(p, k)` times the row's normaliser) times weight `(k, q)`; the
    change of float format is the identity on the extended reals, and the normaliser's column is broadcast along the row. -/
theorem pay0_apply (x0 : Vec Ideal S5000x128 .f32) (x1 : Vec Ideal S5000x1 .f32) (x2 : Vec Ideal S128x128 .f32)
    (p : Fin 5000) (q : Fin 128) :
    k0_pay1 (F := Ideal) x0 x1 x2 (ix2 p q) = ∑ k : Fin 128, (x0 (ix2 p k) * x1 (ix2 p 0)) * x2 (ix2 k q) := by
  unfold k0_pay1
  refine (Ideal.matmul_constant_zero_apply dot_S5000x128_S128x128_S5000x128_1_0_0_1_n_n none _ _ (ix2 p q)).trans ?_
  rw [← Equiv.sum_comp (contrEquiv1 dot_S5000x128_S128x128_S5000x128_1_0_0_1_n_n 128 rfl rfl).symm]
  refine Finset.sum_congr rfl fun k _ => ?_
  have c2 := contrEquiv1_symm_val dot_S5000x128_S128x128_S5000x128_1_0_0_1_n_n 128 rfl rfl k
  have l2 : dot_S5000x128_S128x128_S5000x128_1_0_0_1_n_n.lhsIdx (ix2 p q) ((contrEquiv1 _ 128 rfl rfl).symm k) = ix2 p k := by
    funext ax; apply Fin.ext
    match ax with
    | ⟨0, _⟩ => simp [DotDims.lhsIdx, dot_S5000x128_S128x128_S5000x128_1_0_0_1_n_n]; rfl
    | ⟨1, _⟩ => simp [DotDims.lhsIdx, dot_S5000x128_S128x128_S5000x128_1_0_0_1_n_n]; exact c2
  have r2 : dot_S5000x128_S128x128_S5000x128_1_0_0_1_n_n.rhsIdx (ix2 p q) ((contrEquiv1 _ 128 rfl rfl).symm k) = ix2 k q := by
    funext ax; apply Fin.ext
    match ax with
    | ⟨0, _⟩ => simp [DotDims.rhsIdx, dot_S5000x128_S128x128_S5000x128_1_0_0_1_n_n]; exact c2
    | ⟨1, _⟩ => simp [DotDims.rhsIdx, dot_S5000x128_S128x128_S5000x128_1_0_0_1_n_n]; rfl
  rw [l2, r2]
  show (x0 (ix2 p k) * broadcastTo S5000x128 (shapeCast S5000x1 x1 shapeCasts_S5000x1_S5000x1) broadcasts_S5000x1_S5000x128 (ix2 p k))
      * x2 (ix2 k q) = _
  rw [shapeCast_self, broadcastTo_apply x1 broadcasts_S5000x1_S5000x128 (ix2 p k) (ix2 p 0) (fun a => by
    match a with
    | ⟨0, _⟩ => rfl
    | ⟨1, _⟩ => rfl)]

variable (V : (c : Dev nD) → (b : Ref sig .tc) → Buf (Elt Ideal) ((c : Thread nD τ).loc b))

/-- The printed index maps, decided over the ten grid points: at point `t` the feature, normaliser and output windows
    are on row block `t`, the weight window on its one block. -/
theorem blockIdx0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The feature window's block at point `t` is rows `5000 t … 5000 t + 4999` of the feature array. -/
theorem iblk0_0_apply (c : Dev nD) (t : Fin cfg0.N) (p : Fin 5000) (k : Fin 128) (i : S50000x128.Idx)
    (h0 : (i 0).val = 5000 * t.val + p.val) (h1 : (i 1).val = k.val) :
    (iblk0 V c 0 t : Vec Ideal S5000x128 .f32) (ix2 p k) = (V c main_arg0 : S50000x128.Idx → Elt Ideal .f32) i := by
  obtain ⟨e0, e1, -⟩ := blockIdx0 t
  unfold iblk0
  rw [View.read_apply]
  show V c main_arg0 _ = V c main_arg0 _
  congr 1
  funext a
  apply Fin.ext
  match a with
  | ⟨0, _⟩ => show win0_0.index t 0 * 5000 + 1 * p.val = (i 0).val; rw [e0, h0]; omega
  | ⟨1, _⟩ => show win0_0.index t 1 * 128 + 1 * k.val = (i 1).val; rw [e1, h1]; omega

/-- The normaliser window's block at point `t` is rows `5000 t … 5000 t + 4999` of the normaliser column. -/
theorem iblk0_1_apply (c : Dev nD) (t : Fin cfg0.N) (p : Fin 5000) (i : S50000x1.Idx)
    (h0 : (i 0).val = 5000 * t.val + p.val) :
    (iblk0 V c 1 t : Vec Ideal S5000x1 .f32) (ix2 p 0) = (V c main_v20 : S50000x1.Idx → Elt Ideal .f32) i := by
  obtain ⟨-, -, e0, e1, -⟩ := blockIdx0 t
  unfold iblk0
  rw [View.read_apply]
  show V c main_v20 _ = V c main_v20 _
  congr 1
  funext a
  apply Fin.ext
  match a with
  | ⟨0, _⟩ => show win0_1.index t 0 * 5000 + 1 * p.val = (i 0).val; rw [e0, h0]; omega
  | ⟨1, _⟩ => show win0_1.index t 1 * 1 + 1 * 0 = (i 1).val; rw [e1]; have hlt : (i 1).val < 1 := (i 1).isLt; omega

/-- The weight window's one block is the weight matrix. -/
theorem iblk0_2_apply (c : Dev nD) (t : Fin cfg0.N) (k : Fin 128) (q : Fin 128) :
    (iblk0 V c 2 t : Vec Ideal S128x128 .f32) (ix2 k q) = (V c main_arg3 : S128x128.Idx → Elt Ideal .f32) (ix2 k q) := by
  obtain ⟨-, -, -, -, e0, e1, -⟩ := blockIdx0 t
  unfold iblk0
  rw [View.read_apply]
  show V c main_arg3 _ = V c main_arg3 _
  congr 1
  funext a
  apply Fin.ext
  match a with
  | ⟨0, _⟩ => show win0_2.index t 0 * 128 + 1 * k.val = k.val; rw [e0]; omega
  | ⟨1, _⟩ => show win0_2.index t 1 * 128 + 1 * q.val = q.val; rw [e1]; omega

/-- Entry `(p, q)` of the output window's block at point `t` sits at row `5000 t + p`, column `q` of the output array. -/
theorem emb0_3_val (t : Fin cfg0.N) (p : Fin 5000) (q : Fin 128) :
    ((((cfg0.win 3).blk t).view.emb (ix2 p q) : S50000x128.Idx) 0).val = 5000 * t.val + p.val
    ∧ ((((cfg0.win 3).blk t).view.emb (ix2 p q) : S50000x128.Idx) 1).val = q.val := by
  obtain ⟨-, -, -, -, -, -, e0, e1⟩ := blockIdx0 t
  constructor
  · show win0_3.index t 0 * 5000 + 1 * p.val = _; rw [e0]; omega
  · show win0_3.index t 1 * 128 + 1 * q.val = _; rw [e1]; omega

/-- What point `t` writes back is block `t` of `G0` of the three arrays as the region finds them. -/
theorem flushed0_3_eq (c : Dev nD) (t : Fin cfg0.N) :
    (dat0 V c).flushed 3 t = ((cfg0.win 3).blk t).view.read (Elt Ideal) (G0 (V c main_arg0) (V c main_v20) (V c main_arg3)) := by
  show (cfg0.win 3).cut (grid0.coords t) ((dat0 V c).after 3 t) = _
  rw [after0_3]
  unfold out0_3
  rw [View.canon_unit_zero hz0]
  simp only [View.ld_unit_zero (S := S5000x128) hz0, View.ld_unit_zero (S := S5000x1) hz0, View.ld_unit_zero (S := S128x128) hz0]
  funext j
  obtain ⟨p, q, rfl⟩ : ∃ (p : Fin 5000) (q : Fin 128), j = ix2 p q := ⟨j 0, j 1, eq_ix2 j⟩
  refine (pay0_apply _ _ _ p q).trans ?_
  obtain ⟨hr, hc⟩ := emb0_3_val t p q
  show _ = G0 (V c main_arg0) (V c main_v20) (V c main_arg3) (((cfg0.win 3).blk t).view.emb (ix2 p q))
  unfold G0
  refine Finset.sum_congr rfl fun k _ => ?_
  have e0 := iblk0_0_apply V c t p k (ix2 ((((cfg0.win 3).blk t).view.emb (ix2 p q) : S50000x128.Idx) 0) k) hr rfl
  have e1 := iblk0_1_apply V c t p (ix2 ((((cfg0.win 3).blk t).view.emb (ix2 p q) : S50000x128.Idx) 0) 0) hr
  have e2 := iblk0_2_apply V c t k q
  have hq : (((cfg0.win 3).blk t).view.emb (ix2 p q) : S50000x128.Idx) 1 = q := Fin.ext hc
  rw [e0, e1, e2, hq]

/-- An index of the output array is in point `t`'s block iff each coordinate is in the block's range on its axis. -/
theorem mem_blk0_3 (t : Fin cfg0.N) (i : S50000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v25).slice (win0_3.rect t)).set ↔ _
  rw [View.set_slice_whole, Rect.mem_set_unit]
  exact Iff.rfl

/-- Every index of the output array is in the block of the point its row falls in: row `r` in block `r / 5000`. -/
theorem cover0_3_arr (i : S50000x128.Idx) :
    ∃ t : Fin cfg0.N, (cfg0.win 3).flush t = true ∧ i ∈ ((cfg0.win 3).blk t).view.set := by
  have hi0 : (i 0).val < 50000 := (i 0).isLt
  have hi1 : (i 1).val < 128 := (i 1).isLt
  have hN : cfg0.N = 10 := N_0
  refine ⟨⟨(i 0).val / 5000, by rw [hN]; omega⟩, flush0_3 _, ?_⟩
  rw [mem_blk0_3]
  obtain ⟨-, -, -, -, -, -, e0, e1⟩ := blockIdx0 ⟨(i 0).val / 5000, by rw [hN]; omega⟩
  intro a
  match a with
  | ⟨0, _⟩ =>
    show win0_3.index _ (0 : Fin 2) * 5000 ≤ (i 0).val ∧ (i 0).val < win0_3.index _ (0 : Fin 2) * 5000 + 5000
    rw [e0]; show (i 0).val / 5000 * 5000 ≤ (i 0).val ∧ (i 0).val < (i 0).val / 5000 * 5000 + 5000; omega
  | ⟨1, _⟩ =>
    show win0_3.index _ (1 : Fin 2) * 128 ≤ (i 1).val ∧ (i 1).val < win0_3.index _ (1 : Fin 2) * 128 + 128
    rw [e1]; omega

/-- The output array after the region, for any entry contents: the first layer of the three arrays it reads. -/
theorem arrAt0_3_eq (c : Dev nD) :
    (dat0 V c).arrAt 3 cfg0.N = G0 (V c main_arg0) (V c main_v20) (V c main_arg3) :=
  (dat0 V c).arrAt_eq_of_cover 3 (G0 (V c main_arg0) (V c main_v20) (V c main_arg3)) (fun t _ => flushed0_3_eq V c t) cover0_3_arr

end Cert.KernelIdeal.Hand

end
-- ==== Proof.KI.Value1.lean ====
/- The second pallas_call's output array in closed form, on the extended reals: whatever the TensorCore's buffers hold
   when the region is entered, after its ten grid points the output array is, entry by entry,
   out[r, q] = ∑ k, (max (a[r, k] · ni[r, 0] + b[0, k]) 0 · no[r, 0]) · w[k, q] of the aggregate a, the two normaliser
   columns ni and no, the bias row b and the weight matrix w the region reads. Point t computes rows
   5000 t … 5000 t + 4999 from the same rows of a, ni and no and from all of b and w, and the ten row blocks tile the array. -/
import proofs.«145645_j19997367730789_1_alg».proof.Proof.KI.Region1
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen Idealize.ShloMosaic Idealize.ShloMosaic.TcCoe Idealize.SL.Sem
open Idealize.ShloMosaic.Pipeline (Dat)
open Idealize.ShloMosaic.ValueIdx
open scoped BigOperators

/-- The second layer as one function of the five arrays: row `r` of the aggregate scaled by the row's first
    normaliser, plus the bias row, rectified, scaled by the row's second normaliser, times the weight matrix. -/
def G1 (a : S50000x128.Idx → Elt Ideal .f32) (ni : S50000x1.Idx → Elt Ideal .f32) (b : S1x128.Idx → Elt Ideal .f32)
    (no : S50000x1.Idx → Elt Ideal .f32) (w : S128x128.Idx → Elt Ideal .f32) : S50000x128.Idx → Elt Ideal .f32 :=
  fun j => ∑ k : Fin 128, (max (a (ix2 (j 0) k) * ni (ix2 (j 0) 0) + b (ix2 0 k)) (0 : EReal) * no (ix2 (j 0) 0)) * w (ix2 k (j 1))

theorem hz1 : (![0, 0] : Fin 2 → Nat) = fun _ => 0 := funext fun a => by fin_cases a <;> rfl

/-- The body's payload at an entry `(p, q)` of the block: the product into a zero accumulator is the sum over the
    contracted coordinate `k` of the rectified, twice normalised entry `(p, k)` times weight `(k, q)`; the change
    of float format is the identity on the extended reals, the normalisers' columns are broadcast along the row, the
    bias row down the column, and the zero word is the real zero. -/
theorem pay1_apply (x0 : Vec Ideal S5000x128 .f32) (x1 : Vec Ideal S5000x1 .f32) (x2 : Vec Ideal S1x128 .f32)
    (x3 : Vec Ideal S5000x1 .f32) (x4 : Vec Ideal S128x128 .f32) (p : Fin 5000) (q : Fin 128) :
    k1_pay1 (F := Ideal) x0 x1 x2 x3 x4 (ix2 p q)
      = ∑ k : Fin 128, (max (x0 (ix2 p k) * x1 (ix2 p 0) + x2 (ix2 0 k)) (0 : EReal) * x3 (ix2 p 0)) * x4 (ix2 k q) := by
  unfold k1_pay1
  refine (Ideal.matmul_constant_zero_apply dot_S5000x128_S128x128_S5000x128_1_0_0_1_n_n none _ _ (ix2 p q)).trans ?_
  rw [← Equiv.sum_comp (contrEquiv1 dot_S5000x128_S128x128_S5000x128_1_0_0_1_n_n 128 rfl rfl).symm]
  refine Finset.sum_congr rfl fun k _ => ?_
  have c2 := contrEquiv1_symm_val dot_S5000x128_S128x128_S5000x128_1_0_0_1_n_n 128 rfl rfl k
  have l2 : dot_S5000x128_S128x128_S5000x128_1_0_0_1_n_n.lhsIdx (ix2 p q) ((contrEquiv1 _ 128 rfl rfl).symm k) = ix2 p k := by
    funext ax; apply Fin.ext
    match ax with
    | ⟨0, _⟩ => simp [DotDims.lhsIdx, dot_S5000x128_S128x128_S5000x128_1_0_0_1_n_n]; rfl
    | ⟨1, _⟩ => simp [DotDims.lhsIdx, dot_S5000x128_S128x128_S5000x128_1_0_0_1_n_n]; exact c2
  have r2 : dot_S5000x128_S128x128_S5000x128_1_0_0_1_n_n.rhsIdx (ix2 p q) ((contrEquiv1 _ 128 rfl rfl).symm k) = ix2 k q := by
    funext ax; apply Fin.ext
    match ax with
    | ⟨0, _⟩ => simp [DotDims.rhsIdx, dot_S5000x128_S128x128_S5000x128_1_0_0_1_n_n]; exact c2
    | ⟨1, _⟩ => simp [DotDims.rhsIdx, dot_S5000x128_S128x128_S5000x128_1_0_0_1_n_n]; rfl
  rw [l2, r2]
  show (max (shapeCast S5000x128 x0 shapeCasts_S5000x128_S5000x128 (ix2 p k)
          * broadcastTo S5000x128 (shapeCast S5000x1 x1 shapeCasts_S5000x1_S5000x1) broadcasts_S5000x1_S5000x128 (ix2 p k)
          + broadcastTo S5000x128 (shapeCast S1x128 x2 shapeCasts_S1x128_S1x128) broadcasts_S1x128_S5000x128 (ix2 p k))
        (Ideal.ofBits .f32 0x00000000#32)
      * broadcastTo S5000x128 (shapeCast S5000x1 x3 shapeCasts_S5000x1_S5000x1) broadcasts_S5000x1_S5000x128 (ix2 p k))
      * x4 (ix2 k q) = _
  simp only [shapeCast_self]
  rw [Ideal.ofBits_zero_f32,
    broadcastTo_apply x1 broadcasts_S5000x1_S5000x128 (ix2 p k) (ix2 p 0) (fun a => by
      match a with
      | ⟨0, _⟩ => rfl
      | ⟨1, _⟩ => rfl),
    broadcastTo_apply x2 broadcasts_S1x128_S5000x128 (ix2 p k) (ix2 0 k) (fun a => by
      match a with
      | ⟨0, _⟩ => rfl
      | ⟨1, _⟩ => rfl),
    broadcastTo_apply x3 broadcasts_S5000x1_S5000x128 (ix2 p k) (ix2 p 0) (fun a => by
      match a with
      | ⟨0, _⟩ => rfl
      | ⟨1, _⟩ => rfl)]

variable (V : (c : Dev nD) → (b : Ref sig .tc) → Buf (Elt Ideal) ((c : Thread nD τ).loc b))

/-- The printed index maps, decided over the ten grid points: at point `t` the aggregate, the two normaliser and the
    output windows are on row block `t`, the bias and weight windows on their one block. -/
theorem blockIdx1 : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = 0 ∧ win1_2.index t (1 : Fin 2) = 0)
    ∧ (win1_3.index t (0 : Fin 2) = t.val ∧ win1_3.index t (1 : Fin 2) = 0)
    ∧ (win1_4.index t (0 : Fin 2) = 0 ∧ win1_4.index t (1 : Fin 2) = 0)
    ∧ (win1_5.index t (0 : Fin 2) = t.val ∧ win1_5.index t (1 : Fin 2) = 0) :=
  (by decide +kernel : ∀ t : Fin grid1.N, _)

/-- The aggregate window's block at point `t` is rows `5000 t … 5000 t + 4999` of the aggregate array. -/
theorem iblk1_0_apply (c : Dev nD) (t : Fin cfg1.N) (p : Fin 5000) (k : Fin 128) (i : S50000x128.Idx)
    (h0 : (i 0).val = 5000 * t.val + p.val) (h1 : (i 1).val = k.val) :
    (iblk1 V c 0 t : Vec Ideal S5000x128 .f32) (ix2 p k) = (V c main_v35 : S50000x128.Idx → Elt Ideal .f32) i := by
  have e0 := (blockIdx1 t).1.1
  have e1 := (blockIdx1 t).1.2
  unfold iblk1
  rw [View.read_apply]
  show V c main_v35 _ = V c main_v35 _
  congr 1
  funext a
  apply Fin.ext
  match a with
  | ⟨0, _⟩ => show win1_0.index t 0 * 5000 + 1 * p.val = (i 0).val; rw [e0, h0]; omega
  | ⟨1, _⟩ => show win1_0.index t 1 * 128 + 1 * k.val = (i 1).val; rw [e1, h1]; omega

/-- The first normaliser window's block at point `t` is rows `5000 t … 5000 t + 4999` of its column. -/
theorem iblk1_1_apply (c : Dev nD) (t : Fin cfg1.N) (p : Fin 5000) (i : S50000x1.Idx)
    (h0 : (i 0).val = 5000 * t.val + p.val) :
    (iblk1 V c 1 t : Vec Ideal S5000x1 .f32) (ix2 p 0) = (V c main_v21 : S50000x1.Idx → Elt Ideal .f32) i := by
  have e0 := (blockIdx1 t).2.1.1
  have e1 := (blockIdx1 t).2.1.2
  unfold iblk1
  rw [View.read_apply]
  show V c main_v21 _ = V c main_v21 _
  congr 1
  funext a
  apply Fin.ext
  match a with
  | ⟨0, _⟩ => show win1_1.index t 0 * 5000 + 1 * p.val = (i 0).val; rw [e0, h0]; omega
  | ⟨1, _⟩ => show win1_1.index t 1 * 1 + 1 * 0 = (i 1).val; rw [e1]; have hlt : (i 1).val < 1 := (i 1).isLt; omega

/-- The bias window's one block is the bias row. -/
theorem iblk1_2_apply (c : Dev nD) (t : Fin cfg1.N) (k : Fin 128) :
    (iblk1 V c 2 t : Vec Ideal S1x128 .f32) (ix2 0 k) = (V c main_v22 : S1x128.Idx → Elt Ideal .f32) (ix2 0 k) := by
  have e0 := (blockIdx1 t).2.2.1.1
  have e1 := (blockIdx1 t).2.2.1.2
  unfold iblk1
  rw [View.read_apply]
  show V c main_v22 _ = V c main_v22 _
  congr 1
  funext a
  apply Fin.ext
  match a with
  | ⟨0, _⟩ => show win1_2.index t 0 * 1 + 1 * 0 = 0; rw [e0]
  | ⟨1, _⟩ => show win1_2.index t 1 * 128 + 1 * k.val = k.val; rw [e1]; omega

/-- The second normaliser window's block at point `t` is rows `5000 t … 5000 t + 4999` of its column. -/
theorem iblk1_3_apply (c : Dev nD) (t : Fin cfg1.N) (p : Fin 5000) (i : S50000x1.Idx)
    (h0 : (i 0).val = 5000 * t.val + p.val) :
    (iblk1 V c 3 t : Vec Ideal S5000x1 .f32) (ix2 p 0) = (V c main_v20 : S50000x1.Idx → Elt Ideal .f32) i := by
  have e0 := (blockIdx1 t).2.2.2.1.1
  have e1 := (blockIdx1 t).2.2.2.1.2
  unfold iblk1
  rw [View.read_apply]
  show V c main_v20 _ = V c main_v20 _
  congr 1
  funext a
  apply Fin.ext
  match a with
  | ⟨0, _⟩ => show win1_3.index t 0 * 5000 + 1 * p.val = (i 0).val; rw [e0, h0]; omega
  | ⟨1, _⟩ => show win1_3.index t 1 * 1 + 1 * 0 = (i 1).val; rw [e1]; have hlt : (i 1).val < 1 := (i 1).isLt; omega

/-- The weight window's one block is the weight matrix. -/
theorem iblk1_4_apply (c : Dev nD) (t : Fin cfg1.N) (k : Fin 128) (q : Fin 128) :
    (iblk1 V c 4 t : Vec Ideal S128x128 .f32) (ix2 k q) = (V c main_arg5 : S128x128.Idx → Elt Ideal .f32) (ix2 k q) := by
  have e0 := (blockIdx1 t).2.2.2.2.1.1
  have e1 := (blockIdx1 t).2.2.2.2.1.2
  unfold iblk1
  rw [View.read_apply]
  show V c main_arg5 _ = V c main_arg5 _
  congr 1
  funext a
  apply Fin.ext
  match a with
  | ⟨0, _⟩ => show win1_4.index t 0 * 128 + 1 * k.val = k.val; rw [e0]; omega
  | ⟨1, _⟩ => show win1_4.index t 1 * 128 + 1 * q.val = q.val; rw [e1]; omega

/-- Entry `(p, q)` of the output window's block at point `t` sits at row `5000 t + p`, column `q` of the output array. -/
theorem emb1_5_val (t : Fin cfg1.N) (p : Fin 5000) (q : Fin 128) :
    ((((cfg1.win 5).blk t).view.emb (ix2 p q) : S50000x128.Idx) 0).val = 5000 * t.val + p.val
    ∧ ((((cfg1.win 5).blk t).view.emb (ix2 p q) : S50000x128.Idx) 1).val = q.val := by
  have e0 := (blockIdx1 t).2.2.2.2.2.1
  have e1 := (blockIdx1 t).2.2.2.2.2.2
  constructor
  · show win1_5.index t 0 * 5000 + 1 * p.val = _; rw [e0]; omega
  · show win1_5.index t 1 * 128 + 1 * q.val = _; rw [e1]; omega

/-- What point `t` writes back is block `t` of `G1` of the five arrays as the region finds them. -/
theorem flushed1_5_eq (c : Dev nD) (t : Fin cfg1.N) :
    (dat1 V c).flushed 5 t = ((cfg1.win 5).blk t).view.read (Elt Ideal)
      (G1 (V c main_v35) (V c main_v21) (V c main_v22) (V c main_v20) (V c main_arg5)) := by
  show (cfg1.win 5).cut (grid1.coords t) ((dat1 V c).after 5 t) = _
  rw [after1_5]
  unfold out1_5
  rw [View.canon_unit_zero hz1]
  simp only [View.ld_unit_zero (S := S5000x128) hz1, View.ld_unit_zero (S := S5000x1) hz1, View.ld_unit_zero (S := S1x128) hz1,
    View.ld_unit_zero (S := S128x128) hz1]
  funext j
  obtain ⟨p, q, rfl⟩ : ∃ (p : Fin 5000) (q : Fin 128), j = ix2 p q := ⟨j 0, j 1, eq_ix2 j⟩
  refine (pay1_apply _ _ _ _ _ p q).trans ?_
  obtain ⟨hr, hc⟩ := emb1_5_val t p q
  show _ = G1 (V c main_v35) (V c main_v21) (V c main_v22) (V c main_v20) (V c main_arg5) (((cfg1.win 5).blk t).view.emb (ix2 p q))
  unfold G1
  refine Finset.sum_congr rfl fun k _ => ?_
  have e0 := iblk1_0_apply V c t p k (ix2 ((((cfg1.win 5).blk t).view.emb (ix2 p q) : S50000x128.Idx) 0) k) hr rfl
  have e1 := iblk1_1_apply V c t p (ix2 ((((cfg1.win 5).blk t).view.emb (ix2 p q) : S50000x128.Idx) 0) 0) hr
  have e2 := iblk1_2_apply V c t k
  have e3 := iblk1_3_apply V c t p (ix2 ((((cfg1.win 5).blk t).view.emb (ix2 p q) : S50000x128.Idx) 0) 0) hr
  have e4 := iblk1_4_apply V c t k q
  have hq : (((cfg1.win 5).blk t).view.emb (ix2 p q) : S50000x128.Idx) 1 = q := Fin.ext hc
  rw [e0, e1, e2, e3, e4, hq]

/-- An index of the output array is in point `t`'s block iff each coordinate is in the block's range on its axis. -/
theorem mem_blk1_5 (t : Fin cfg1.N) (i : S50000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v36).slice (win1_5.rect t)).set ↔ _
  rw [View.set_slice_whole, Rect.mem_set_unit]
  exact Iff.rfl

/-- Every index of the output array is in the block of the point its row falls in: row `r` in block `r / 5000`. -/
theorem cover1_5_arr (i : S50000x128.Idx) :
    ∃ t : Fin cfg1.N, (cfg1.win 5).flush t = true ∧ i ∈ ((cfg1.win 5).blk t).view.set := by
  have hi0 : (i 0).val < 50000 := (i 0).isLt
  have hi1 : (i 1).val < 128 := (i 1).isLt
  have hN : cfg1.N = 10 := N_1
  refine ⟨⟨(i 0).val / 5000, by rw [hN]; omega⟩, flush1_5 _, ?_⟩
  rw [mem_blk1_5]
  have e0 := (blockIdx1 ⟨(i 0).val / 5000, by rw [hN]; omega⟩).2.2.2.2.2.1
  have e1 := (blockIdx1 ⟨(i 0).val / 5000, by rw [hN]; omega⟩).2.2.2.2.2.2
  intro a
  match a with
  | ⟨0, _⟩ =>
    show win1_5.index _ (0 : Fin 2) * 5000 ≤ (i 0).val ∧ (i 0).val < win1_5.index _ (0 : Fin 2) * 5000 + 5000
    rw [e0]; show (i 0).val / 5000 * 5000 ≤ (i 0).val ∧ (i 0).val < (i 0).val / 5000 * 5000 + 5000; omega
  | ⟨1, _⟩ =>
    show win1_5.index _ (1 : Fin 2) * 128 ≤ (i 1).val ∧ (i 1).val < win1_5.index _ (1 : Fin 2) * 128 + 128
    rw [e1]; omega

/-- The output array after the region, for any entry contents: the second layer of the five arrays it reads. -/
theorem arrAt1_5_eq (c : Dev nD) :
    (dat1 V c).arrAt 5 cfg1.N = G1 (V c main_v35) (V c main_v21) (V c main_v22) (V c main_v20) (V c main_arg5) :=
  (dat1 V c).arrAt_eq_of_cover 5 (G1 (V c main_v35) (V c main_v21) (V c main_v22) (V c main_v20) (V c main_arg5))
    (fun t _ => flushed1_5_eq V c t) cover1_5_arr

end Cert.KernelIdeal.Hand

end
-- ==== Proof.KI.Cols.lean ====
/-
  The three re-layouts the host performs before the kernels run, read at an index.

  A per-node factor `s` of length 50000 is passed to the kernels as the column `[50000, 1]` whose entry
  (i, 0) is `s i`; a bias of length 128 (or 2) as the row `[1, 128]` (or `[1, 2]`) whose entry (0, k) is `b k`.
  Each is a reshape: the same elements in row-major order, so position i of the vector is position
  i · 1 + 0 of the column and position 0 · a + k of the row.
-/
import proofs.«145645_j19997367730789_1_alg».proof.KernelIdeal
import Idealize.ShloMosaic.PureOps.Ideal
import Idealize.ShloMosaic.Lib.ValueIdx
import Idealize.ShloMosaic.Lib.ValueLayout
import Idealize.ShloMosaic.Lib.Pipeline.Value

noncomputable section

namespace Cert.KernelIdeal.Hand

open Cert.KernelIdeal Idealize.ShloMosaic Idealize.ShloMosaic.ValueIdx

/-- A vector over the nodes as a one-column matrix. -/
def colK (s : FVec Ideal S50000 .f32) : FVec Ideal S50000x1 .f32 :=
  shapeCast S50000x1 s (by decide)

/-- A vector over the features as a one-row matrix. -/
def rowK (b : FVec Ideal S128 .f32) : FVec Ideal S1x128 .f32 :=
  shapeCast S1x128 b (by decide)

/-- The read-out bias as a one-row matrix. -/
def row2K (b : FVec Ideal S2 .f32) : FVec Ideal S1x2 .f32 :=
  shapeCast S1x2 b (by decide)

/-- Entry (i, 0) of the column is entry i of the vector. -/
theorem colK_apply (s : FVec Ideal S50000 .f32) (i : Fin 50000) : colK s (ix2 i 0) = s (ix1 i) :=
  shapeCast_apply s _ _ _ (by
    rw [Shape.rowMajor_val_two, Shape.rowMajor_val_one]
    show i.val = i.val * 1 + 0
    omega)

/-- Entry (0, k) of the row is entry k of the vector. -/
theorem rowK_apply (b : FVec Ideal S128 .f32) (k : Fin 128) : rowK b (ix2 0 k) = b (ix1 k) :=
  shapeCast_a_1a_apply b _ 0 k

/-- Entry (0, q) of the row is entry q of the vector. -/
theorem row2K_apply (b : FVec Ideal S2 .f32) (q : Fin 2) : row2K b (ix2 0 q) = b (ix1 q) :=
  shapeCast_a_1a_apply b _ 0 q

end Cert.KernelIdeal.Hand

end
-- ==== Proof.Ref.Spec.lean ====
/-
  The specification of the graph encoder, index by index on the extended reals, and the one
  re-association of a sum both sides of the comparison share.

  With n = 50000 nodes and d = 128 features:
  * `lin h s w`   — scale every row of `h` by the node's factor `s`, then multiply by the weight matrix:
                    entry (i, j) is  ∑ₖ (h i k · s i) · w k j.
  * `act a s b`   — scale row i of `a` by `s i`, add the bias of column j, and clamp below at zero:
                    entry (i, j) is  max (a i j · s i + b j) 0.
  * `pool h wr br` — the column means of `h` (the column sum started from 0, times the real 1/50000),
                    multiplied by the read-out matrix, plus its bias:
                    entry (0, q) is  (∑ₖ ((0 + ∑ᵢ h i k) · 1/50000) · wr k q) + br q.
  A two-layer encoder is  pool (act (A (lin (act (A (lin x sₒ W₁)) sᵢ b₁) sₒ W₂)) sᵢ b₂) Wr br  for the
  neighbourhood aggregation `A` and the two degree factors `sₒ`, `sᵢ`, none of which is opened here.

  `sum_tiles`: a sum over the 50000 rows is the sum, over the 10 consecutive tiles of 5000 rows, of the
  tiles' sums, accumulated from 0 — commutativity and associativity of addition on the extended reals
  only, so no finiteness is needed.
-/
import Idealize.ShloMosaic.PureOps.Ideal
import Idealize.ShloMosaic.PureOps.Ideal.Laws
import Idealize.ShloMosaic.Lib.ValueIdx
import Idealize.ShloMosaic.Lib.ValueLayout

noncomputable section

open scoped BigOperators

namespace Cert.RefSide

open Idealize.ShloMosaic Idealize.ShloMosaic.ValueIdx

/-! ## The three stages -/

/-- Row scaling followed by a matrix product: entry (i, j) is `∑ₖ (h i k · s i) · w k j`. -/
def lin (h : FVec Ideal ⟨2, ![50000, 128]⟩ .f32) (s : FVec Ideal ⟨1, ![50000]⟩ .f32)
    (w : FVec Ideal ⟨2, ![128, 128]⟩ .f32) : FVec Ideal ⟨2, ![50000, 128]⟩ .f32 :=
  fun j => ∑ k : Fin 128, (h (ix2 (j 0) k) * s (ix1 (j 0))) * w (ix2 k (j 1))

/-- Row scaling, bias and clamp at zero: entry (i, j) is `max (a i j · s i + b j) 0`. -/
def act (a : FVec Ideal ⟨2, ![50000, 128]⟩ .f32) (s : FVec Ideal ⟨1, ![50000]⟩ .f32)
    (b : FVec Ideal ⟨1, ![128]⟩ .f32) : FVec Ideal ⟨2, ![50000, 128]⟩ .f32 :=
  fun j => max (a j * s (ix1 (j 0)) + b (ix1 (j 1))) (0 : EReal)

/-- Column means, read-out product and bias: entry (0, q) is
    `(∑ₖ ((0 + ∑ᵢ h i k) · 1/50000) · wr k q) + br q`. -/
def pool (h : FVec Ideal ⟨2, ![50000, 128]⟩ .f32) (wr : FVec Ideal ⟨2, ![128, 2]⟩ .f32)
    (br : FVec Ideal ⟨1, ![2]⟩ .f32) : FVec Ideal ⟨2, ![1, 2]⟩ .f32 :=
  fun j => (∑ k : Fin 128, ((0 + ∑ i : Fin 50000, h (ix2 i k)) * ((1 / 50000 : ℝ) : EReal)) * wr (ix2 k (j 1)))
    + br (ix1 (j 1))

theorem lin_apply (h : FVec Ideal ⟨2, ![50000, 128]⟩ .f32) (s : FVec Ideal ⟨1, ![50000]⟩ .f32)
    (w : FVec Ideal ⟨2, ![128, 128]⟩ .f32) (i : Fin 50000) (j : Fin 128) :
    lin h s w (ix2 i j) = ∑ k : Fin 128, (h (ix2 i k) * s (ix1 i)) * w (ix2 k j) := rfl

theorem act_apply (a : FVec Ideal ⟨2, ![50000, 128]⟩ .f32) (s : FVec Ideal ⟨1, ![50000]⟩ .f32)
    (b : FVec Ideal ⟨1, ![128]⟩ .f32) (i : Fin 50000) (j : Fin 128) :
    act a s b (ix2 i j) = max (a (ix2 i j) * s (ix1 i) + b (ix1 j)) (0 : EReal) := rfl

theorem pool_apply (h : FVec Ideal ⟨2, ![50000, 128]⟩ .f32) (wr : FVec Ideal ⟨2, ![128, 2]⟩ .f32)
    (br : FVec Ideal ⟨1, ![2]⟩ .f32) (z : Fin 1) (q : Fin 2) :
    pool h wr br (ix2 z q)
      = (∑ k : Fin 128, ((0 + ∑ i : Fin 50000, h (ix2 i k)) * ((1 / 50000 : ℝ) : EReal)) * wr (ix2 k q))
        + br (ix1 q) := rfl

/-! ## The divisor -/

/-- The single-precision pattern of `50000.0` denotes the real 50000. -/
theorem ofBits_50000 : Ideal.ofBits .f32 0x47435000#32 = ((50000 : ℝ) : EReal) := by
  simp [Ideal.ofBits, Ideal.ieee, -EReal.coe_mul]; norm_num

/-! ## A sum over the rows, tile by tile -/

/-- Rows `5000 t … 5000 t + 4999` as one of the ten tiles. -/
def tileEquiv : Fin 10 × Fin 5000 ≃ Fin 50000 :=
  (finProdFinEquiv (m := 10) (n := 5000)).trans (finCongr (by norm_num))

theorem tileEquiv_val (t : Fin 10) (r : Fin 5000) : (tileEquiv (t, r)).val = 5000 * t.val + r.val := by
  show r.val + 5000 * t.val = 5000 * t.val + r.val
  omega

/-- The sum of `f` over tile `t` (zero past the last tile). -/
def tileSum (f : Fin 50000 → EReal) (t : Nat) : EReal :=
  if h : t < 10 then ∑ r : Fin 5000, f ⟨5000 * t + r.val, by have := r.isLt; omega⟩ else 0

theorem tileSum_of_lt (f : Fin 50000 → EReal) {t : Nat} (h : t < 10) :
    tileSum f t = ∑ r : Fin 5000, f ⟨5000 * t + r.val, by have := r.isLt; omega⟩ := dif_pos h

/-- The whole sum is the sum of the ten tile sums. -/
theorem sum_eq_tileSums (f : Fin 50000 → EReal) :
    ∑ i : Fin 50000, f i = ∑ t ∈ Finset.range 10, tileSum f t := by
  rw [← Fin.sum_univ_eq_sum_range (fun t => tileSum f t) 10, ← Equiv.sum_comp tileEquiv f, Fintype.sum_prod_type]
  refine Finset.sum_congr rfl fun t _ => ?_
  rw [tileSum_of_lt f t.isLt]
  refine Finset.sum_congr rfl fun r _ => ?_
  exact congrArg f (Fin.ext (tileEquiv_val t r))

/-- Accumulating the tile sums one tile at a time from 0 gives `0 +` the whole sum: for any sequence with
    `acc 0 = 0` and `acc (t + 1) = acc t + (the sum over tile t)` for `t < 10`, `acc 10 = 0 + ∑ᵢ f i`. -/
theorem sum_tiles (f : Fin 50000 → EReal) (acc : Nat → EReal) (h0 : acc 0 = 0)
    (hs : ∀ t (ht : t < 10), acc (t + 1)
      = acc t + ∑ r : Fin 5000, f ⟨5000 * t + r.val, by have := r.isLt; omega⟩) :
    acc 10 = 0 + ∑ i : Fin 50000, f i := by
  have key : ∀ t, t ≤ 10 → acc t = ∑ u ∈ Finset.range t, tileSum f u := by
    intro t
    induction t with
    | zero => intro _; rw [h0, Finset.range_zero, Finset.sum_empty]
    | succ t ih =>
      intro ht
      rw [hs t (by omega), ih (by omega), Finset.sum_range_succ, tileSum_of_lt f (by omega : t < 10)]
  rw [key 10 (le_refl _), zero_add, sum_eq_tileSums]

/-- The same with the accumulator given as a function: `tileAcc f t` is the sum over the first `t` tiles. -/
def tileAcc (f : Fin 50000 → EReal) : Nat → EReal
  | 0 => 0
  | t + 1 => tileAcc f t + tileSum f t

theorem tileAcc_ten (f : Fin 50000 → EReal) : tileAcc f 10 = 0 + ∑ i : Fin 50000, f i :=
  sum_tiles f (tileAcc f) rfl fun t ht => by rw [← tileSum_of_lt f ht]; rfl

end Cert.RefSide

end
-- ==== Proof.KI.ToSpec01.lean ====
/- The first two layers' closed forms against the specification's stages. The program hands each degree factor to
   the kernels as a one-column matrix and each bias as a one-row matrix; read at an entry these are the vector's
   entries, so the first layer is `lin` of the features and the second is `lin` of `act` of the aggregate: the same
   sums, term by term. -/
import proofs.«145645_j19997367730789_1_alg».proof.Proof.KI.Value0
import proofs.«145645_j19997367730789_1_alg».proof.Proof.KI.Value1
import proofs.«145645_j19997367730789_1_alg».proof.Proof.KI.Cols
import proofs.«145645_j19997367730789_1_alg».proof.Proof.Ref.Spec

noncomputable section

namespace Cert.KernelIdeal.Hand

open Cert.KernelIdeal Cert.KernelIdeal.Gen Idealize.ShloMosaic
open Idealize.ShloMosaic.ValueIdx
open scoped BigOperators

/-- The first layer's closed form, its normaliser the column of a vector, is the specification's `lin`. -/
theorem G0_colK_eq_lin (x : FVec Ideal S50000x128 .f32) (n : FVec Ideal S50000 .f32) (w : FVec Ideal S128x128 .f32) :
    G0 x (colK n) w = Cert.RefSide.lin x n w := by
  funext j
  obtain ⟨r, q, rfl⟩ : ∃ (r : Fin 50000) (q : Fin 128), j = ix2 r q := ⟨j 0, j 1, eq_ix2 j⟩
  rw [Cert.RefSide.lin_apply]
  show ∑ k : Fin 128, (x (ix2 r k) * colK n (ix2 r 0)) * w (ix2 k q) = _
  rw [colK_apply]

/-- The second layer's closed form, its normalisers the columns of vectors and its bias the row of one, is `lin` of `act`. -/
theorem G1_colK_rowK_eq_lin_act (a : FVec Ideal S50000x128 .f32) (ni : FVec Ideal S50000 .f32)
    (b : FVec Ideal S128 .f32) (no : FVec Ideal S50000 .f32) (w : FVec Ideal S128x128 .f32) :
    G1 a (colK ni) (rowK b) (colK no) w = Cert.RefSide.lin (Cert.RefSide.act a ni b) no w := by
  funext j
  obtain ⟨r, q, rfl⟩ : ∃ (r : Fin 50000) (q : Fin 128), j = ix2 r q := ⟨j 0, j 1, eq_ix2 j⟩
  rw [Cert.RefSide.lin_apply]
  show ∑ k : Fin 128, (max (a (ix2 r k) * colK ni (ix2 r 0) + rowK b (ix2 0 k)) (0 : EReal) * colK no (ix2 r 0)) * w (ix2 k q) = _
  refine Finset.sum_congr rfl fun k _ => ?_
  rw [Cert.RefSide.act_apply, colK_apply, colK_apply, rowK_apply]

end Cert.KernelIdeal.Hand

end
-- ==== Proof.KI.Region2Value.lean ====
import proofs.«145645_j19997367730789_1_alg».proof.Proof.KI.Region2
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))
/-! # Region 2, the values: the accumulator as a running row sum, the output as the readout of its last value -/

theorem hz2 : (![0, 0] : Fin 2 → Nat) = fun _ => 0 := funext fun a => by fin_cases a <;> rfl

/-- A middle point leaves in the accumulator the row sum of the point's blocks added to what it held. -/
theorem sout2_B_eq (c : Dev nD) (i : grid2.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S128x2 .f32) (harg4 : arg4.IsWhole) (arg5 : Memref sig .tc .vmem S1x2 .f32) (harg5 : arg5.IsWhole) (arg6 : Memref sig .tc .vmem S1x2 .f32) (harg6 : arg6.IsWhole) (arg7 : Memref sig .tc .vmem S1x128 .f32) (harg7 : arg7.IsWhole) (hc0 : ¬cond2_0 i) (hc1 : ¬cond2_1 i)
    (x0 : Vec F S5000x128 .f32) (x1 : Vec F S5000x1 .f32) (x2 : Vec F S1x128 .f32) (x3 : Vec F S128x2 .f32) (x4 : Vec F S1x2 .f32) (xs0 : Vec F S1x128 .f32) :
    sout2_B c i arg1 harg1 arg2 harg2 arg3 harg3 arg4 harg4 arg5 harg5 arg6 harg6 arg7 harg7 hc0 hc1 x0 x1 x2 x3 x4 xs0 = k2_pay2 x0 x1 x2 xs0 := by
  unfold sout2_B
  rw [View.read_writes_eq_canon _ _ _ (scover2_B c i arg1 harg1 arg2 harg2 arg3 harg3 arg4 harg4 arg5 harg5 arg6 harg6 arg7 harg7 hc0 hc1 x0 x1 x2 x3 x4 xs0)]
  unfold kernelRun2_B
  dsimp only
  rw [View.canon_unit_zero hz2]
  simp only [View.readAt_eq_ld, harg1.read_unread, harg2.read_unread, harg3.read_unread, harg4.read_unread, harg5.read_unread, harg6.read_unread, harg7.read_unread, View.ld_unit_zero (S := S5000x128) hz2, View.ld_unit_zero (S := S5000x1) hz2, View.ld_unit_zero (S := S1x128) hz2, View.ld_unit_zero (S := S128x2) hz2, View.ld_unit_zero (S := S1x2) hz2]

/-- The last point leaves the same in the accumulator (the readout only reads it), -/
theorem sout2_C_eq (c : Dev nD) (i : grid2.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S128x2 .f32) (harg4 : arg4.IsWhole) (arg5 : Memref sig .tc .vmem S1x2 .f32) (harg5 : arg5.IsWhole) (arg6 : Memref sig .tc .vmem S1x2 .f32) (harg6 : arg6.IsWhole) (arg7 : Memref sig .tc .vmem S1x128 .f32) (harg7 : arg7.IsWhole) (hc0 : ¬cond2_0 i) (hc1 : cond2_1 i)
    (x0 : Vec F S5000x128 .f32) (x1 : Vec F S5000x1 .f32) (x2 : Vec F S1x128 .f32) (x3 : Vec F S128x2 .f32) (x4 : Vec F S1x2 .f32) (xs0 : Vec F S1x128 .f32) :
    sout2_C c i arg1 harg1 arg2 harg2 arg3 harg3 arg4 harg4 arg5 harg5 arg6 harg6 arg7 harg7 hc0 hc1 x0 x1 x2 x3 x4 xs0 = k2_pay2 x0 x1 x2 xs0 := by
  unfold sout2_C
  rw [View.read_writes_eq_canon _ _ _ (scover2_C c i arg1 harg1 arg2 harg2 arg3 harg3 arg4 harg4 arg5 harg5 arg6 harg6 arg7 harg7 hc0 hc1 x0 x1 x2 x3 x4 xs0)]
  unfold kernelRun2_C
  dsimp only
  sl_unfold_words
  rw [View.canon_unit_zero hz2]
  simp only [View.readAt_eq_ld, harg1.read_unread, harg2.read_unread, harg3.read_unread, harg4.read_unread, harg5.read_unread, harg6.read_unread, harg7.read_unread, View.ld_unit_zero (S := S5000x128) hz2, View.ld_unit_zero (S := S5000x1) hz2, View.ld_unit_zero (S := S1x128) hz2, View.ld_unit_zero (S := S128x2) hz2, View.ld_unit_zero (S := S1x2) hz2]

/-- and in the output's buffer the readout of that accumulator value against the weight and bias blocks. -/
theorem out2_C_5_eq (c : Dev nD) (i : grid2.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S128x2 .f32) (harg4 : arg4.IsWhole) (arg5 : Memref sig .tc .vmem S1x2 .f32) (harg5 : arg5.IsWhole) (arg6 : Memref sig .tc .vmem S1x2 .f32) (harg6 : arg6.IsWhole) (arg7 : Memref sig .tc .vmem S1x128 .f32) (harg7 : arg7.IsWhole) (hc0 : ¬cond2_0 i) (hc1 : cond2_1 i)
    (x0 : Vec F S5000x128 .f32) (x1 : Vec F S5000x1 .f32) (x2 : Vec F S1x128 .f32) (x3 : Vec F S128x2 .f32) (x4 : Vec F S1x2 .f32) (xs0 : Vec F S1x128 .f32) :
    out2_C_5 c i arg1 harg1 arg2 harg2 arg3 harg3 arg4 harg4 arg5 harg5 arg6 harg6 arg7 harg7 hc0 hc1 x0 x1 x2 x3 x4 xs0 = k2_pay3 (k2_pay2 x0 x1 x2 xs0) x3 x4 := by
  unfold out2_C_5
  rw [View.read_writes_eq_canon _ _ _ (cover2_C_5 c i arg1 harg1 arg2 harg2 arg3 harg3 arg4 harg4 arg5 harg5 arg6 harg6 arg7 harg7 hc0 hc1 x0 x1 x2 x3 x4 xs0)]
  unfold kernelRun2_C
  dsimp only
  sl_unfold_words
  rw [View.canon_unit_zero hz2]
  simp only [View.readAt_eq_ld, harg1.read_unread, harg2.read_unread, harg3.read_unread, harg4.read_unread, harg5.read_unread, harg6.read_unread, harg7.read_unread, View.ld_unit_zero (S := S5000x128) hz2, View.ld_unit_zero (S := S5000x1) hz2, View.ld_unit_zero (S := S1x128) hz2, View.ld_unit_zero (S := S128x2) hz2, View.ld_unit_zero (S := S1x2) hz2]
  rw [View.readCov_unit_zero (S := S1x128) _ hz2]

/-- The first point zeroes the accumulator, reads the zero row back and adds the point's row sum to it. -/
theorem sout2_A_eq (c : Dev nD) (i : grid2.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S128x2 .f32) (harg4 : arg4.IsWhole) (arg5 : Memref sig .tc .vmem S1x2 .f32) (harg5 : arg5.IsWhole) (arg6 : Memref sig .tc .vmem S1x2 .f32) (harg6 : arg6.IsWhole) (arg7 : Memref sig .tc .vmem S1x128 .f32) (harg7 : arg7.IsWhole) (hc0 : cond2_0 i) (hc1 : ¬cond2_1 i)
    (x0 : Vec F S5000x128 .f32) (x1 : Vec F S5000x1 .f32) (x2 : Vec F S1x128 .f32) (x3 : Vec F S128x2 .f32) (x4 : Vec F S1x2 .f32) :
    sout2_A c i arg1 harg1 arg2 harg2 arg3 harg3 arg4 harg4 arg5 harg5 arg6 harg6 arg7 harg7 hc0 hc1 x0 x1 x2 x3 x4 = k2_pay2 x0 x1 x2 (k2_pay1 (F := F)) := by
  unfold sout2_A
  rw [View.read_writes_eq_canon _ _ _ (scover2_A c i arg1 harg1 arg2 harg2 arg3 harg3 arg4 harg4 arg5 harg5 arg6 harg6 arg7 harg7 hc0 hc1 x0 x1 x2 x3 x4)]
  unfold kernelRun2_A
  dsimp only
  sl_unfold_words
  rw [View.canon_cons_unit_zero (S := S1x128) hz2, View.readCov_unit_zero (S := S1x128) _ hz2]
  simp only [View.readAt_eq_ld, harg1.read_unread, harg2.read_unread, harg3.read_unread, harg4.read_unread, harg5.read_unread, harg6.read_unread, harg7.read_unread, View.ld_unit_zero (S := S5000x128) hz2, View.ld_unit_zero (S := S5000x1) hz2, View.ld_unit_zero (S := S1x128) hz2, View.ld_unit_zero (S := S128x2) hz2, View.ld_unit_zero (S := S1x2) hz2]

/-! ## The accumulator as a running row sum -/

/-- The accumulator after the first `n` points: the zero row, then each point's row sum added in point order. -/
def accAt (c : Dev nD) : ℕ → Vec F S1x128 .f32
  | 0 => k2_pay1 (F := F)
  | n + 1 => if h : n < cfg2.N then k2_pay2 (iblk2 V c 0 ⟨n, h⟩) (iblk2 V c 1 ⟨n, h⟩) (iblk2 V c 2 ⟨n, h⟩) (accAt c n) else accAt c n

theorem accAt_zero (c : Dev nD) : accAt V c 0 = k2_pay1 (F := F) := rfl

/-- One more point: its row sum added to the accumulator so far. -/
theorem accAt_succ (c : Dev nD) (t : Fin cfg2.N) :
    accAt V c (t.val + 1) = k2_pay2 (iblk2 V c 0 t) (iblk2 V c 1 t) (iblk2 V c 2 t) (accAt V c t.val) := by
  obtain ⟨n, hn⟩ := t
  show (if h : n < cfg2.N then k2_pay2 (iblk2 V c 0 ⟨n, h⟩) (iblk2 V c 1 ⟨n, h⟩) (iblk2 V c 2 ⟨n, h⟩) (accAt V c n) else accAt V c n) = _
  rw [dif_pos hn]

/-- What the accumulator holds after point `n` is the running row sum — by induction on the point. -/
theorem outsAt2_acc (c : Dev nD) : ∀ (n : ℕ) (h : n < cfg2.N), (outsAt2 V c n h).2 = accAt V c (n + 1)
  | 0, h => by
    rw [outsAt2_A V c ⟨0, h⟩ rfl (by dsimp only; omega), sout2_A_eq]
    exact (accAt_succ V c ⟨0, h⟩).symm
  | n + 1, h => by
    by_cases h9 : n + 1 = 9
    · rw [outsAt2_C V c ⟨n + 1, h⟩ (Nat.succ_ne_zero n) h9, sout2_C_eq, accAt_succ V c ⟨n + 1, h⟩]
      show k2_pay2 _ _ _ (outsAt2 V c n _).2 = k2_pay2 _ _ _ (accAt V c (n + 1))
      rw [outsAt2_acc c n]
    · rw [outsAt2_B V c ⟨n + 1, h⟩ (Nat.succ_ne_zero n) h9, sout2_B_eq, accAt_succ V c ⟨n + 1, h⟩]
      show k2_pay2 _ _ _ (outsAt2 V c n _).2 = k2_pay2 _ _ _ (accAt V c (n + 1))
      rw [outsAt2_acc c n]

/-- Past the first point, what the point before left in the accumulator is the running row sum so far. -/
theorem outsAt2_prev (c : Dev nD) (t : Fin cfg2.N) (h0 : ¬t.val = 0) :
    (outsAt2 V c (t.val - 1) (Nat.lt_of_le_of_lt (Nat.sub_le _ _) t.isLt)).2 = accAt V c t.val := by
  obtain ⟨n, hn⟩ := t
  cases n with
  | zero => exact absurd rfl h0
  | succ n => exact outsAt2_acc V c n _

/-- What the output's staging buffer holds after the last point: the readout of the accumulator after all ten points. -/
theorem outsAt2_out9 (c : Dev nD) :
    (outsAt2 V c t2_9.val t2_9.isLt).1 = k2_pay3 (accAt V c 10) (iblk2 V c 3 t2_9) (iblk2 V c 4 t2_9) := by
  rw [outsAt2_C V c t2_9 (by decide) rfl, out2_C_5_eq, outsAt2_prev V c t2_9 (by decide)]
  exact congrArg (fun a => k2_pay3 a (iblk2 V c 3 t2_9) (iblk2 V c 4 t2_9)) (accAt_succ V c t2_9).symm

/-! ## The output array -/

/-- The output array's final contents: its one block is the whole array. -/
abbrev result2 (c : Dev nD) : Buf (Elt F) ((c : Thread nD τ).loc main_v47) :=
  k2_pay3 (accAt V c 10) (iblk2 V c 3 t2_9) (iblk2 V c 4 t2_9)

/-- The one write-back, at the last point, writes it: block (0, 0) of the [1,2] array read through zero offsets is the array. -/
theorem flushed2_eq (c : Dev nD) (t : Fin cfg2.N) (hf : (cfg2.win 5).flush t = true) :
    (dat2 V c).flushed 5 t = ((cfg2.win 5).blk t).view.read (Elt F) (result2 V c) := by
  have hN : cfg2.N = 10 := N_2
  have h9 : t.val = 9 := by have := (flush2_5 t).mp hf; have := t.isLt; omega
  obtain rfl : t = t2_9 := Fin.ext h9
  show (cfg2.win 5).cut (grid2.coords t2_9) ((dat2 V c).after 5 t2_9) = _
  rw [after2_5, outsAt2_out9]
  have hz' : (fun a => win2_5.index t2_9 a * main_v47.ty.shape.size a) = fun _ => 0 := funext fun a => by fin_cases a <;> decide
  exact (Memref.read_access_unit_zero (Elt F) main_v47 hz' (fun a => by rw [congrFun hz' a]; simp) (result2 V c)).symm

/-- So the output array ends holding the readout of the accumulator after all ten points. -/
theorem arrAt2_5 (c : Dev nD) : (dat2 V c).arrAt 5 cfg2.N = result2 V c :=
  (dat2 V c).arrAt_eq_of_cover 5 (result2 V c) (flushed2_eq V c) fun i =>
    ⟨t2_9, (flush2_5 t2_9).mpr rfl, by
      show i ∈ ((View.whole main_v47).slice (win2_5.rect t2_9)).set
      rw [View.set_slice_whole, Rect.mem_set_unit]
      intro a
      have h0 : (i 0 : Nat) < 1 := (i 0).isLt
      have h1 : (i 1 : Nat) < 2 := (i 1).isLt
      match a with
      | ⟨0, _⟩ => show win2_5.index t2_9 0 * win2_5.size 0 ≤ (i 0 : Nat) ∧ (i 0 : Nat) < win2_5.index t2_9 0 * win2_5.size 0 + win2_5.xsize (grid2.coords t2_9) 0
                  rw [show win2_5.index t2_9 0 * win2_5.size 0 = 0 from by decide +kernel, show win2_5.xsize (grid2.coords t2_9) 0 = 1 from by decide +kernel]; omega
      | ⟨1, _⟩ => show win2_5.index t2_9 1 * win2_5.size 1 ≤ (i 1 : Nat) ∧ (i 1 : Nat) < win2_5.index t2_9 1 * win2_5.size 1 + win2_5.xsize (grid2.coords t2_9) 1
                  rw [show win2_5.index t2_9 1 * win2_5.size 1 = 0 from by decide +kernel, show win2_5.xsize (grid2.coords t2_9) 1 = 2 from by decide +kernel]; omega⟩

end Cert.KernelIdeal.Hand

end
-- ==== Proof.KI.Region2Blocks.lean ====
import proofs.«145645_j19997367730789_1_alg».proof.Proof.KI.Region2Runs
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))
/-! # Region 2: the windows' blocks at an index

At point `t` the feature and normaliser windows are on row block `t` (rows `5000 t … 5000 t + 4999`); the bias row,
the readout weights and the readout bias windows are on their one block, the whole array. -/

open Idealize.ShloMosaic.ValueIdx

/-- The printed index maps, decided over the ten grid points. -/
theorem blockIdx2 : ∀ t : Fin cfg2.N,
    (win2_0.index t (0 : Fin 2) = t.val ∧ win2_0.index t (1 : Fin 2) = 0)
    ∧ (win2_1.index t (0 : Fin 2) = t.val ∧ win2_1.index t (1 : Fin 2) = 0)
    ∧ (win2_2.index t (0 : Fin 2) = 0 ∧ win2_2.index t (1 : Fin 2) = 0)
    ∧ (win2_3.index t (0 : Fin 2) = 0 ∧ win2_3.index t (1 : Fin 2) = 0)
    ∧ (win2_4.index t (0 : Fin 2) = 0 ∧ win2_4.index t (1 : Fin 2) = 0)
    ∧ (win2_5.index t (0 : Fin 2) = 0 ∧ win2_5.index t (1 : Fin 2) = 0) :=
  (by decide +kernel : ∀ t : Fin grid2.N, _)

/-- The feature window's block at point `t` is rows `5000 t … 5000 t + 4999` of the feature array. -/
theorem iblk2_0_apply (c : Dev nD) (t : Fin cfg2.N) (p : Fin 5000) (k : Fin 128) (i : S50000x128.Idx)
    (h0 : (i 0).val = 5000 * t.val + p.val) (h1 : (i 1).val = k.val) :
    (iblk2 V c 0 t : Vec F S5000x128 .f32) (ix2 p k) = (V c main_v46 : S50000x128.Idx → Elt F .f32) i := by
  have e0 := (blockIdx2 t).1.1
  have e1 := (blockIdx2 t).1.2
  unfold iblk2
  rw [View.read_apply]
  show V c main_v46 _ = V c main_v46 _
  congr 1
  funext a
  apply Fin.ext
  match a with
  | ⟨0, _⟩ => show win2_0.index t 0 * 5000 + 1 * p.val = (i 0).val; rw [e0, h0]; omega
  | ⟨1, _⟩ => show win2_0.index t 1 * 128 + 1 * k.val = (i 1).val; rw [e1, h1]; omega

/-- The normaliser window's block at point `t` is rows `5000 t … 5000 t + 4999` of its column. -/
theorem iblk2_1_apply (c : Dev nD) (t : Fin cfg2.N) (p : Fin 5000) (i : S50000x1.Idx)
    (h0 : (i 0).val = 5000 * t.val + p.val) :
    (iblk2 V c 1 t : Vec F S5000x1 .f32) (ix2 p 0) = (V c main_v21 : S50000x1.Idx → Elt F .f32) i := by
  have e0 := (blockIdx2 t).2.1.1
  have e1 := (blockIdx2 t).2.1.2
  unfold iblk2
  rw [View.read_apply]
  show V c main_v21 _ = V c main_v21 _
  congr 1
  funext a
  apply Fin.ext
  match a with
  | ⟨0, _⟩ => show win2_1.index t 0 * 5000 + 1 * p.val = (i 0).val; rw [e0, h0]; omega
  | ⟨1, _⟩ => show win2_1.index t 1 * 1 + 1 * 0 = (i 1).val; rw [e1]; have hlt : (i 1).val < 1 := (i 1).isLt; omega

/-- The bias window's one block is the bias row. -/
theorem iblk2_2_apply (c : Dev nD) (t : Fin cfg2.N) (k : Fin 128) :
    (iblk2 V c 2 t : Vec F S1x128 .f32) (ix2 0 k) = (V c main_v23 : S1x128.Idx → Elt F .f32) (ix2 0 k) := by
  have e0 := (blockIdx2 t).2.2.1.1
  have e1 := (blockIdx2 t).2.2.1.2
  unfold iblk2
  rw [View.read_apply]
  show V c main_v23 _ = V c main_v23 _
  congr 1
  funext a
  apply Fin.ext
  match a with
  | ⟨0, _⟩ => show win2_2.index t 0 * 1 + 1 * 0 = 0; rw [e0]
  | ⟨1, _⟩ => show win2_2.index t 1 * 128 + 1 * k.val = k.val; rw [e1]; omega

/-- The readout weights' one block is the weight matrix. -/
theorem iblk2_3_apply (c : Dev nD) (t : Fin cfg2.N) (k : Fin 128) (q : Fin 2) :
    (iblk2 V c 3 t : Vec F S128x2 .f32) (ix2 k q) = (V c main_arg7 : S128x2.Idx → Elt F .f32) (ix2 k q) := by
  have e0 := (blockIdx2 t).2.2.2.1.1
  have e1 := (blockIdx2 t).2.2.2.1.2
  unfold iblk2
  rw [View.read_apply]
  show V c main_arg7 _ = V c main_arg7 _
  congr 1
  funext a
  apply Fin.ext
  match a with
  | ⟨0, _⟩ => show win2_3.index t 0 * 128 + 1 * k.val = k.val; rw [e0]; omega
  | ⟨1, _⟩ => show win2_3.index t 1 * 2 + 1 * q.val = q.val; rw [e1]; omega

/-- The readout bias window's one block is the bias row of two. -/
theorem iblk2_4_apply (c : Dev nD) (t : Fin cfg2.N) (q : Fin 2) :
    (iblk2 V c 4 t : Vec F S1x2 .f32) (ix2 0 q) = (V c main_v24 : S1x2.Idx → Elt F .f32) (ix2 0 q) := by
  have e0 := (blockIdx2 t).2.2.2.2.1.1
  have e1 := (blockIdx2 t).2.2.2.2.1.2
  unfold iblk2
  rw [View.read_apply]
  show V c main_v24 _ = V c main_v24 _
  congr 1
  funext a
  apply Fin.ext
  match a with
  | ⟨0, _⟩ => show win2_4.index t 0 * 1 + 1 * 0 = 0; rw [e0]
  | ⟨1, _⟩ => show win2_4.index t 1 * 2 + 1 * q.val = q.val; rw [e1]; omega

end Cert.KernelIdeal.Hand

end
-- ==== Proof.KI.Pay2.lean ====
/- The third kernel's three stored values read at an entry, on the extended reals. The running row starts at zero;
   each grid point adds to entry k of the running row the sum over the block's 5000 rows p of
   max (a[p, k] · n[p, 0] + b[0, k]) 0; the last point multiplies the running row by the real 1/50000, takes its
   product with the read-out matrix and adds the read-out bias. -/
import proofs.«145645_j19997367730789_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws
import Idealize.ShloMosaic.PureOps.IdealRules

set_option maxRecDepth 16384

noncomputable section

namespace Cert.KernelIdeal.Hand

open Cert.KernelIdeal Cert.KernelIdeal.Gen Idealize.ShloMosaic
open Idealize.ShloMosaic.ValueIdx
open scoped BigOperators

/-- The starting row is zero everywhere. -/
theorem pay2_1_apply (u : Fin 1) (k : Fin 128) : k2_pay1 (F := Ideal) (ix2 u k) = 0 := by
  unfold k2_pay1
  show shapeCast S1x128 (broadcast S1x128 (Ideal.ofBits .f32 0x00000000#32)) shapeCasts_S1x128_S1x128 (ix2 u k) = 0
  rw [shapeCast_self]
  exact Ideal.ofBits_zero_f32

/-- A block of the aggregate scaled row by row, plus the bias row, clamped below at zero. -/
def relu2 (x3 : Vec Ideal S5000x128 .f32) (x5 : Vec Ideal S5000x1 .f32) (x9 : Vec Ideal S1x128 .f32) : FVec Ideal S5000x128 .f32 :=
  maximumf
    (addf (mulf (shapeCast S5000x128 x3 shapeCasts_S5000x128_S5000x128)
        (broadcastTo S5000x128 (shapeCast S5000x1 x5 shapeCasts_S5000x1_S5000x1) broadcasts_S5000x1_S5000x128))
      (broadcastTo S5000x128 (shapeCast S1x128 x9 shapeCasts_S1x128_S1x128) broadcasts_S1x128_S5000x128))
    (broadcast S5000x128 (Scalar.ofBits (F := Ideal) .f32 0x00000000#32))

/-- Its entry `(p, k)`: the normaliser's column is broadcast along the row, the bias row down the column. -/
theorem relu2_apply (x3 : Vec Ideal S5000x128 .f32) (x5 : Vec Ideal S5000x1 .f32) (x9 : Vec Ideal S1x128 .f32)
    (p : Fin 5000) (k : Fin 128) :
    relu2 x3 x5 x9 (ix2 p k) = max (x3 (ix2 p k) * x5 (ix2 p 0) + x9 (ix2 0 k)) (0 : EReal) := by
  unfold relu2
  show max (shapeCast S5000x128 x3 shapeCasts_S5000x128_S5000x128 (ix2 p k)
        * broadcastTo S5000x128 (shapeCast S5000x1 x5 shapeCasts_S5000x1_S5000x1) broadcasts_S5000x1_S5000x128 (ix2 p k)
        + broadcastTo S5000x128 (shapeCast S1x128 x9 shapeCasts_S1x128_S1x128) broadcasts_S1x128_S5000x128 (ix2 p k))
      (Ideal.ofBits .f32 0x00000000#32) = _
  simp only [shapeCast_self]
  rw [Ideal.ofBits_zero_f32,
    broadcastTo_apply x5 broadcasts_S5000x1_S5000x128 (ix2 p k) (ix2 p 0) (fun a => by
      match a with
      | ⟨0, _⟩ => rfl
      | ⟨1, _⟩ => rfl),
    broadcastTo_apply x9 broadcasts_S1x128_S5000x128 (ix2 p k) (ix2 0 k) (fun a => by
      match a with
      | ⟨0, _⟩ => rfl
      | ⟨1, _⟩ => rfl)]

/-- The column index `k` with row `p` put back is `(p, k)`. -/
theorem lift_rows (k : Fin 128) (p : Fin 5000) :
    reduces_S5000x128_S128.lift (ix1 k) p = ix2 p k := by
  funext c; apply Fin.ext
  fin_cases c <;> rfl

/-- A grid point's step at entry `k` of the running row: what the row held plus the block's column sum. -/
theorem pay2_2_apply (x3 : Vec Ideal S5000x128 .f32) (x5 : Vec Ideal S5000x1 .f32) (x9 : Vec Ideal S1x128 .f32)
    (x15 : Vec Ideal S1x128 .f32) (u : Fin 1) (k : Fin 128) :
    k2_pay2 (F := Ideal) x3 x5 x9 x15 (ix2 u k)
      = x15 (ix2 u k) + ∑ p : Fin 5000, max (x3 (ix2 p k) * x5 (ix2 p 0) + x9 (ix2 0 k)) (0 : EReal) := by
  unfold k2_pay2
  show shapeCast S1x128 (addf x15 (shapeCast S1x128
      (multiReduction .add [0] S128 (relu2 x3 x5 x9) 0x00000000#32 reduces_S5000x128_S128 (.inl rfl) rfl)
      shapeCasts_S128_S1x128)) shapeCasts_S1x128_S1x128 (ix2 u k) = _
  rw [shapeCast_self]
  show x15 (ix2 u k) + shapeCast S1x128
      (multiReduction .add [0] S128 (relu2 x3 x5 x9) 0x00000000#32 reduces_S5000x128_S128 (.inl rfl) rfl)
      shapeCasts_S128_S1x128 (ix2 u k) = _
  rw [shapeCast_a_1a_apply]
  refine congrArg (x15 (ix2 u k) + ·) ?_
  refine (Ideal.multiReduction_add_single (relu2 x3 x5 x9) 0x00000000#32 reduces_S5000x128_S128 (.inl rfl) rfl (ix1 k)).trans ?_
  show ∑ p : Fin 5000, relu2 x3 x5 x9 (reduces_S5000x128_S128.lift (ix1 k) p) = _
  refine Finset.sum_congr rfl fun p _ => ?_
  exact (congrArg (relu2 x3 x5 x9) (lift_rows k p)).trans (relu2_apply x3 x5 x9 p k)

/-- The program's named reciprocal is the real 1/50000 on the extended reals, by the table of named constants. -/
theorem inv_50000 : Named.named (F := Ideal) κ "inv_50000" (φ := .f32) 0x37A7C5AC#32 = ((1 / 50000 : ℝ) : EReal) :=
  IdealRules.named_const.ideal_named_scalar _ _ _ _ rfl

/-- The last point's stored value at entry `q`: the running row times 1/50000, times the read-out matrix, plus the bias. -/
theorem pay2_3_apply (x25 : Vec Ideal S1x128 .f32) (x29 : Vec Ideal S128x2 .f32) (x32 : Vec Ideal S1x2 .f32)
    (u : Fin 1) (q : Fin 2) :
    k2_pay3 (F := Ideal) x25 x29 x32 (ix2 u q)
      = (∑ k : Fin 128, (x25 (ix2 u k) * ((1 / 50000 : ℝ) : EReal)) * x29 (ix2 k q)) + x32 (ix2 u q) := by
  unfold k2_pay3
  show matmul dot_S1x128_S128x2_S1x2_1_0_0_1_n_n none
      (truncf .bf16 (mulf x25 (broadcast S1x128 (Named.named (F := Ideal) κ "inv_50000" (φ := .f32) 0x37A7C5AC#32))) bitsLt_bf16_f32)
      (truncf .bf16 x29 bitsLt_bf16_f32) (constant S1x2 .f32 0x00000000#32) (ix2 u q)
    + shapeCast S1x2 x32 shapeCasts_S1x2_S1x2 (ix2 u q) = _
  rw [shapeCast_self]
  refine congrArg (· + x32 (ix2 u q)) ?_
  refine (Ideal.matmul_constant_zero_apply dot_S1x128_S128x2_S1x2_1_0_0_1_n_n none _ _ (ix2 u q)).trans ?_
  rw [← Equiv.sum_comp (contrEquiv1 dot_S1x128_S128x2_S1x2_1_0_0_1_n_n 128 rfl rfl).symm]
  refine Finset.sum_congr rfl fun k _ => ?_
  have c2 := contrEquiv1_symm_val dot_S1x128_S128x2_S1x2_1_0_0_1_n_n 128 rfl rfl k
  have l2 : dot_S1x128_S128x2_S1x2_1_0_0_1_n_n.lhsIdx (ix2 u q) ((contrEquiv1 _ 128 rfl rfl).symm k) = ix2 u k := by
    funext ax; apply Fin.ext
    match ax with
    | ⟨0, _⟩ => simp [DotDims.lhsIdx, dot_S1x128_S128x2_S1x2_1_0_0_1_n_n] <;> rfl
    | ⟨1, _⟩ => simp [DotDims.lhsIdx, dot_S1x128_S128x2_S1x2_1_0_0_1_n_n]; exact c2
  have r2 : dot_S1x128_S128x2_S1x2_1_0_0_1_n_n.rhsIdx (ix2 u q) ((contrEquiv1 _ 128 rfl rfl).symm k) = ix2 k q := by
    funext ax; apply Fin.ext
    match ax with
    | ⟨0, _⟩ => simp [DotDims.rhsIdx, dot_S1x128_S128x2_S1x2_1_0_0_1_n_n]; exact c2
    | ⟨1, _⟩ => simp [DotDims.rhsIdx, dot_S1x128_S128x2_S1x2_1_0_0_1_n_n]; rfl
  rw [l2, r2]
  show (x25 (ix2 u k) * Named.named (F := Ideal) κ "inv_50000" (φ := .f32) 0x37A7C5AC#32) * x29 (ix2 k q) = _
  rw [inv_50000]

end Cert.KernelIdeal.Hand

end
-- ==== Proof.KI.ToSpec2.lean ====
/- The third pallas_call's result against the specification's pooling stage, on the extended reals. After n grid
   points entry k of the running row is the sum, accumulated tile by tile from zero, of column k of the rectified
   aggregate over the first n tiles of 5000 rows; after all ten it is 0 plus the whole column sum, and the last point's
   stored value is that row times 1/50000, times the read-out matrix, plus the read-out bias: `pool` of `act`. -/
import proofs.«145645_j19997367730789_1_alg».proof.Proof.KI.Region2Value
import proofs.«145645_j19997367730789_1_alg».proof.Proof.KI.Region2Blocks
import proofs.«145645_j19997367730789_1_alg».proof.Proof.KI.Pay2
import proofs.«145645_j19997367730789_1_alg».proof.Proof.KI.Cols
import proofs.«145645_j19997367730789_1_alg».proof.Proof.Ref.Spec

set_option maxRecDepth 16384

noncomputable section

namespace Cert.KernelIdeal.Hand

open Cert.KernelIdeal Cert.KernelIdeal.Gen Idealize.ShloMosaic Idealize.ShloMosaic.TcCoe Idealize.SL.Sem
open Idealize.ShloMosaic.ValueIdx
open scoped BigOperators

variable (V : (c : Dev nD) → (b : Ref sig .tc) → Buf (Elt Ideal) ((c : Thread nD τ).loc b))

/-- Entry `k` of the running row after `n` grid points is the tile-by-tile sum of column `k` of the rectified
    aggregate over the first `n` tiles: point `n` adds the sum over rows `5000 n … 5000 n + 4999`. -/
theorem accAt_eq_tileAcc (c : Dev nD) (a : FVec Ideal S50000x128 .f32) (ni : FVec Ideal S50000 .f32) (b : FVec Ideal S128 .f32)
    (h0 : V c main_v46 = a) (h1 : V c main_v21 = colK ni) (h2 : V c main_v23 = rowK b) (k : Fin 128) :
    ∀ n, n ≤ 10 → ∀ u : Fin 1,
      accAt V c n (ix2 u k) = Cert.RefSide.tileAcc (fun i => Cert.RefSide.act a ni b (ix2 i k)) n := by
  intro n
  induction n with
  | zero =>
    intro _ u
    rw [accAt_zero]
    exact pay2_1_apply u k
  | succ n ih =>
    intro hn u
    have hN : cfg2.N = 10 := N_2
    have hlt : n < cfg2.N := by rw [hN]; omega
    refine (congrFun (accAt_succ V c ⟨n, hlt⟩) (ix2 u k)).trans ?_
    refine (pay2_2_apply _ _ _ _ u k).trans ?_
    show accAt V c n (ix2 u k) + _
      = Cert.RefSide.tileAcc (fun i => Cert.RefSide.act a ni b (ix2 i k)) n
        + Cert.RefSide.tileSum (fun i => Cert.RefSide.act a ni b (ix2 i k)) n
    rw [ih (by omega) u, Cert.RefSide.tileSum_of_lt _ (by omega : n < 10)]
    refine congrArg (_ + ·) (Finset.sum_congr rfl fun p _ => ?_)
    show _ = Cert.RefSide.act a ni b (ix2 (⟨5000 * n + p.val, by have := p.isLt; omega⟩ : Fin 50000) k)
    rw [Cert.RefSide.act_apply]
    have e0 := iblk2_0_apply V c ⟨n, hlt⟩ p k (ix2 (⟨5000 * n + p.val, by have := p.isLt; omega⟩ : Fin 50000) k) rfl rfl
    have e1 := iblk2_1_apply V c ⟨n, hlt⟩ p (ix2 (⟨5000 * n + p.val, by have := p.isLt; omega⟩ : Fin 50000) 0) rfl
    have e2 := iblk2_2_apply V c ⟨n, hlt⟩ k
    rw [e0, e1, e2, h0, h1, h2, colK_apply, rowK_apply]

/-- The third pallas_call's output array is the specification's pooled read-out of the rectified aggregate. -/
theorem result2_eq_pool (c : Dev nD) (a : FVec Ideal S50000x128 .f32) (ni : FVec Ideal S50000 .f32) (b : FVec Ideal S128 .f32)
    (wr : FVec Ideal S128x2 .f32) (br : FVec Ideal S2 .f32)
    (h0 : V c main_v46 = a) (h1 : V c main_v21 = colK ni) (h2 : V c main_v23 = rowK b) (h3 : V c main_arg7 = wr)
    (h4 : V c main_v24 = row2K br) :
    result2 V c = Cert.RefSide.pool (Cert.RefSide.act a ni b) wr br := by
  funext j
  obtain ⟨u, q, rfl⟩ : ∃ (u : Fin 1) (q : Fin 2), j = ix2 u q := ⟨j 0, j 1, eq_ix2 j⟩
  have hu : u = 0 := Subsingleton.elim _ _
  subst hu
  rw [Cert.RefSide.pool_apply]
  refine (pay2_3_apply _ _ _ 0 q).trans ?_
  refine congrArg₂ (· + ·) ?_ ?_
  · refine Finset.sum_congr rfl fun k _ => ?_
    rw [accAt_eq_tileAcc V c a ni b h0 h1 h2 k 10 (le_refl _) 0, Cert.RefSide.tileAcc_ten, iblk2_3_apply V c t2_9 k q, h3]
  · rw [iblk2_4_apply V c t2_9 q, h4, row2K_apply]

end Cert.KernelIdeal.Hand

end
-- ==== Proof.Ref.RefIsSpec.lean ====
/-
  The reference computes the specification.

  Read one operation at a time, the reference's result is
    pool (act (A (lin (act (A (lin x sₒ W₁)) sᵢ b₁) sₒ W₂)) sᵢ b₂) Wr br
  where `sₒ`, `sᵢ` are the two degree factors (functions of the edge lists alone) and `A` is the
  neighbourhood aggregation (gather the rows at the edges' sources, add them up at the edges' destinations).
  Neither the factors nor the aggregation is opened: they enter only as functions applied to the layer's value,
  so whatever else applies the same functions to the same arguments agrees with the reference through them.

  One lemma per layer: a matrix product of row-scaled features is `lin`; a row scaling, a bias and a clamp
  at zero is `act`; the column sums from 0, the division by the real 50000 (a product with 1/50000 on every
  extended real), the read-out product and its bias are `pool`.
-/
import proofs.«145645_j19997367730789_1_alg».proof.Proof.Ref.ReadP
import proofs.«145645_j19997367730789_1_alg».proof.Proof.Ref.Spec

noncomputable section

open scoped BigOperators

namespace Cert.RefSide

open Cert.ReferenceIdeal Cert.ReferenceIdeal.Gen Cert.ReferenceIdeal.ReadP
open Idealize.ShloMosaic Idealize.ShloMosaic.ValueIdx Idealize.ShloMosaic.TcCoe Idealize.SL.Sem

/-! ## The parts that stay closed -/

/-- The out-degree factor of every node, as the reference computes it from the source list. -/
def normOutRef (src : (⟨S640000, .i32⟩ : BufTy).Contents (Elt Ideal)) : FVec Ideal S50000 .f32 :=
  val_main_v9 (F := Ideal) src

/-- The in-degree factor of every node, as the reference computes it from the destination list. -/
def normInRef (dst : (⟨S640000, .i32⟩ : BufTy).Contents (Elt Ideal)) : FVec Ideal S50000 .f32 :=
  val_main_v19 (F := Ideal) dst

/-- The neighbourhood aggregation: the rows of `h` at the edges' (wrapped) sources, added up at the edges'
    destinations into a zero array. -/
def aggRef (src dst : (⟨S640000, .i32⟩ : BufTy).Contents (Elt Ideal)) (h : FVec Ideal S50000x128 .f32) :
    FVec Ideal S50000x128 .f32 :=
  Host.scatterAdd scatter_S50000x128_S640000x1_S640000x128_1_0_0_1 (val_main_v31 (F := Ideal))
    (val_main_v32 (F := Ideal) dst)
    (Host.gather gather_S50000x128_S640000x1_S640000x128_1_0_n_n_0_1_1128 h (val_main_v29 (F := Ideal) src))

/-- The first aggregation is `aggRef` of the first product. -/
theorem stage_agg1 (x0 : (⟨S50000x128, .f32⟩ : BufTy).Contents (Elt Ideal)) (x1 x2 : (⟨S640000, .i32⟩ : BufTy).Contents (Elt Ideal))
    (x3 : (⟨S128x128, .f32⟩ : BufTy).Contents (Elt Ideal)) :
    val_main_v33 (F := Ideal) x0 x1 x2 x3 = aggRef x1 x2 (val_main_v23 (F := Ideal) x0 x1 x3) := rfl

/-- The second aggregation is the same function of the second product. -/
theorem stage_agg2 (x0 : (⟨S50000x128, .f32⟩ : BufTy).Contents (Elt Ideal)) (x1 x2 : (⟨S640000, .i32⟩ : BufTy).Contents (Elt Ideal))
    (x3 : (⟨S128x128, .f32⟩ : BufTy).Contents (Elt Ideal)) (x4 : (⟨S128, .f32⟩ : BufTy).Contents (Elt Ideal))
    (x5 : (⟨S128x128, .f32⟩ : BufTy).Contents (Elt Ideal)) :
    val_main_v54 (F := Ideal) x0 x1 x2 x3 x4 x5 = aggRef x1 x2 (val_main_v44 (F := Ideal) x0 x1 x2 x3 x4 x5) := rfl

/-! ## Indices -/

theorem rowcol_left (j : S50000x128.Idx) (k : Fin 128) :
    (fun a => match a with | ⟨0, _⟩ => ⟨(j 0).val, (j 0).isLt⟩ | ⟨1, _⟩ => ⟨k.val, k.isLt⟩ : S50000x128.Idx) = ix2 (j 0) k :=
  funext fun a => by match a with | ⟨0, _⟩ => rfl | ⟨1, _⟩ => rfl

theorem rowcol_right (j : S50000x128.Idx) (k : Fin 128) :
    (fun a => match a with | ⟨0, _⟩ => ⟨k.val, k.isLt⟩ | ⟨1, _⟩ => ⟨(j 1).val, (j 1).isLt⟩ : S128x128.Idx) = ix2 k (j 1) :=
  funext fun a => by match a with | ⟨0, _⟩ => rfl | ⟨1, _⟩ => rfl

/-! ## The layers -/

/-- The first product: the features scaled by the out-degree factor, times `W₁`. -/
theorem stage_lin1 (x0 : (⟨S50000x128, .f32⟩ : BufTy).Contents (Elt Ideal)) (x1 : (⟨S640000, .i32⟩ : BufTy).Contents (Elt Ideal))
    (x3 : (⟨S128x128, .f32⟩ : BufTy).Contents (Elt Ideal)) :
    val_main_v23 (F := Ideal) x0 x1 x3 = lin x0 (normOutRef x1) x3 := by
  funext j
  rw [val_main_v23_apply]
  refine Finset.sum_congr rfl fun k _ => ?_
  rw [val_main_v22_apply, val_main_v21_apply, val_main_v20_apply]
  have e1 : lidx_main_v23 j k = ix2 (j 0) k := rowcol_left j k
  have e2 : ridx_main_v23 j k = ix2 k (j 1) := rowcol_right j k
  have e3 : idx_main_v20 (idx_main_v21 (ix2 (j 0) k : S50000x128.Idx)) = ix1 (j 0) :=
    funext fun a => by match a with | ⟨0, _⟩ => rfl
  rw [e1, e2, e3, Ideal.mulf_def]
  rfl

/-- The first activation: the first aggregation scaled by the in-degree factor, plus `b₁`, clamped at zero. -/
theorem stage_act1 (x0 : (⟨S50000x128, .f32⟩ : BufTy).Contents (Elt Ideal)) (x1 x2 : (⟨S640000, .i32⟩ : BufTy).Contents (Elt Ideal))
    (x3 : (⟨S128x128, .f32⟩ : BufTy).Contents (Elt Ideal)) (x4 : (⟨S128, .f32⟩ : BufTy).Contents (Elt Ideal)) :
    val_main_v40 (F := Ideal) x0 x1 x2 x3 x4 = act (val_main_v33 (F := Ideal) x0 x1 x2 x3) (normInRef x2) x4 := by
  funext j
  rw [val_main_v40_apply, val_main_v39_apply, val_main_v36_apply, val_main_v35_apply, val_main_v34_apply,
    val_main_v38_apply, val_main_v37_apply, val_main_call2_v0_apply, val_main_call2_cst_apply]
  have e1 : idx_main_v34 (idx_main_v35 j) = ix1 (j 0) := funext fun a => by match a with | ⟨0, _⟩ => rfl
  have e2 : idx_main_v37 (idx_main_v38 j) = ix1 (j 1) := funext fun a => by match a with | ⟨0, _⟩ => rfl
  rw [e1, e2, Ideal.maximumf_def, Ideal.addf_def, Ideal.mulf_def, Ideal.ofBits_def, Ideal.ofBits_zero_f32]
  rfl

/-- The second product: the first activation scaled by the out-degree factor, times `W₂`. -/
theorem stage_lin2 (x0 : (⟨S50000x128, .f32⟩ : BufTy).Contents (Elt Ideal)) (x1 x2 : (⟨S640000, .i32⟩ : BufTy).Contents (Elt Ideal))
    (x3 : (⟨S128x128, .f32⟩ : BufTy).Contents (Elt Ideal)) (x4 : (⟨S128, .f32⟩ : BufTy).Contents (Elt Ideal))
    (x5 : (⟨S128x128, .f32⟩ : BufTy).Contents (Elt Ideal)) :
    val_main_v44 (F := Ideal) x0 x1 x2 x3 x4 x5 = lin (val_main_v40 (F := Ideal) x0 x1 x2 x3 x4) (normOutRef x1) x5 := by
  funext j
  rw [val_main_v44_apply]
  refine Finset.sum_congr rfl fun k _ => ?_
  rw [val_main_v43_apply, val_main_v42_apply, val_main_v41_apply]
  have e1 : lidx_main_v44 j k = ix2 (j 0) k := rowcol_left j k
  have e2 : ridx_main_v44 j k = ix2 k (j 1) := rowcol_right j k
  have e3 : idx_main_v41 (idx_main_v42 (ix2 (j 0) k : S50000x128.Idx)) = ix1 (j 0) :=
    funext fun a => by match a with | ⟨0, _⟩ => rfl
  rw [e1, e2, e3, Ideal.mulf_def]
  rfl

/-- The second activation: the second aggregation scaled by the in-degree factor, plus `b₂`, clamped at zero. -/
theorem stage_act2 (x0 : (⟨S50000x128, .f32⟩ : BufTy).Contents (Elt Ideal)) (x1 x2 : (⟨S640000, .i32⟩ : BufTy).Contents (Elt Ideal))
    (x3 : (⟨S128x128, .f32⟩ : BufTy).Contents (Elt Ideal)) (x4 : (⟨S128, .f32⟩ : BufTy).Contents (Elt Ideal))
    (x5 : (⟨S128x128, .f32⟩ : BufTy).Contents (Elt Ideal)) (x6 : (⟨S128, .f32⟩ : BufTy).Contents (Elt Ideal)) :
    val_main_v61 (F := Ideal) x0 x1 x2 x3 x4 x5 x6
      = act (val_main_v54 (F := Ideal) x0 x1 x2 x3 x4 x5) (normInRef x2) x6 := by
  funext j
  rw [val_main_v61_apply, val_main_v60_apply, val_main_v57_apply, val_main_v56_apply, val_main_v55_apply,
    val_main_v59_apply, val_main_v58_apply, val_main_call3_v0_apply, val_main_call3_cst_apply]
  have e1 : idx_main_v55 (idx_main_v56 j) = ix1 (j 0) := funext fun a => by match a with | ⟨0, _⟩ => rfl
  have e2 : idx_main_v58 (idx_main_v59 j) = ix1 (j 1) := funext fun a => by match a with | ⟨0, _⟩ => rfl
  rw [e1, e2, Ideal.maximumf_def, Ideal.addf_def, Ideal.mulf_def, Ideal.ofBits_def, Ideal.ofBits_zero_f32]
  rfl

/-- The read-out: column sums from 0, divided by the real 50000, times `Wr`, plus `br`. -/
theorem stage_pool (x0 : (⟨S50000x128, .f32⟩ : BufTy).Contents (Elt Ideal)) (x1 x2 : (⟨S640000, .i32⟩ : BufTy).Contents (Elt Ideal))
    (x3 : (⟨S128x128, .f32⟩ : BufTy).Contents (Elt Ideal)) (x4 : (⟨S128, .f32⟩ : BufTy).Contents (Elt Ideal))
    (x5 : (⟨S128x128, .f32⟩ : BufTy).Contents (Elt Ideal)) (x6 : (⟨S128, .f32⟩ : BufTy).Contents (Elt Ideal))
    (x7 : (⟨S128x2, .f32⟩ : BufTy).Contents (Elt Ideal)) (x8 : (⟨S2, .f32⟩ : BufTy).Contents (Elt Ideal)) :
    val_main_v68 (F := Ideal) x0 x1 x2 x3 x4 x5 x6 x7 x8
      = pool (val_main_v61 (F := Ideal) x0 x1 x2 x3 x4 x5 x6) x7 x8 := by
  funext j
  rw [val_main_v68_apply, val_main_v67_apply, val_main_v66_apply, Ideal.addf_def]
  have e67 : idx_main_v67 j = ix1 (j 1) := funext fun a => by match a with | ⟨0, _⟩ => rfl
  rw [e67]
  refine congrArg (· + x8 (ix1 (j 1))) (Finset.sum_congr rfl fun k _ => ?_)
  rw [val_main_v65_apply, val_main_v64_apply, val_main_cst_15_apply, val_main_v63_apply, val_main_v62_apply,
    val_main_cst_14_apply, Ideal.hostDivf_def, Ideal.ofBits_def, Ideal.ofBits_def, Ideal.ofBits_zero_f32, ofBits_50000,
    Ideal.div_coe (by norm_num : (50000 : ℝ) ≠ 0)]
  have er : ridx_main_v66 j k = ix2 k (j 1) := funext fun a => by match a with | ⟨0, _⟩ => rfl | ⟨1, _⟩ => rfl
  have ei : ∀ i : Fin 50000, idx_main_v62 (idx_main_v63 (lidx_main_v66 j k)) i = ix2 i k := fun i =>
    funext fun a => by match a with | ⟨0, _⟩ => rfl | ⟨1, _⟩ => rfl
  rw [er]
  simp only [ei]
  rfl

/-! ## The whole reference -/

/-- The reference's result is the two-layer encoder of the specification over ITS degree factors and ITS
    aggregation. -/
theorem ref_eq_spec (x0 : (⟨S50000x128, .f32⟩ : BufTy).Contents (Elt Ideal)) (x1 x2 : (⟨S640000, .i32⟩ : BufTy).Contents (Elt Ideal))
    (x3 : (⟨S128x128, .f32⟩ : BufTy).Contents (Elt Ideal)) (x4 : (⟨S128, .f32⟩ : BufTy).Contents (Elt Ideal))
    (x5 : (⟨S128x128, .f32⟩ : BufTy).Contents (Elt Ideal)) (x6 : (⟨S128, .f32⟩ : BufTy).Contents (Elt Ideal))
    (x7 : (⟨S128x2, .f32⟩ : BufTy).Contents (Elt Ideal)) (x8 : (⟨S2, .f32⟩ : BufTy).Contents (Elt Ideal)) :
    val_main_v68 (F := Ideal) x0 x1 x2 x3 x4 x5 x6 x7 x8
      = pool (act (aggRef x1 x2 (lin (act (aggRef x1 x2 (lin x0 (normOutRef x1) x3)) (normInRef x2) x4)
          (normOutRef x1) x5)) (normInRef x2) x6) x7 x8 := by
  rw [stage_pool, stage_act2, stage_agg2, stage_lin2, stage_act1, stage_agg1, stage_lin1]

/-- The same against ANY degree factors and aggregation that agree with the reference's: whoever computes the
    factors and the aggregation by the same operations of the same edge lists supplies the three equations. -/
theorem ref_eq_spec_of (x0 : (⟨S50000x128, .f32⟩ : BufTy).Contents (Elt Ideal)) (x1 x2 : (⟨S640000, .i32⟩ : BufTy).Contents (Elt Ideal))
    (x3 : (⟨S128x128, .f32⟩ : BufTy).Contents (Elt Ideal)) (x4 : (⟨S128, .f32⟩ : BufTy).Contents (Elt Ideal))
    (x5 : (⟨S128x128, .f32⟩ : BufTy).Contents (Elt Ideal)) (x6 : (⟨S128, .f32⟩ : BufTy).Contents (Elt Ideal))
    (x7 : (⟨S128x2, .f32⟩ : BufTy).Contents (Elt Ideal)) (x8 : (⟨S2, .f32⟩ : BufTy).Contents (Elt Ideal))
    (normOut normIn : FVec Ideal S50000 .f32) (agg : FVec Ideal S50000x128 .f32 → FVec Ideal S50000x128 .f32)
    (hO : normOutRef x1 = normOut) (hI : normInRef x2 = normIn) (hA : ∀ h, aggRef x1 x2 h = agg h) :
    val_main_v68 (F := Ideal) x0 x1 x2 x3 x4 x5 x6 x7 x8
      = pool (act (agg (lin (act (agg (lin x0 normOut x3)) normIn x4) normOut x5)) normIn x6) x7 x8 := by
  rw [ref_eq_spec, hO, hI, hA, hA]

/-- The same for the run's result term: after the reference has run from the memory `m`, its result on device
    `c` is the encoder of the specification applied to the nine argument arrays in `m`. -/
theorem res_eq_spec_of (m : (ℓ : Loc nD τ sig) → Buf (Elt Ideal) ℓ) (c : Dev nD)
    (normOut normIn : FVec Ideal S50000 .f32) (agg : FVec Ideal S50000x128 .f32 → FVec Ideal S50000x128 .f32)
    (hO : normOutRef (m ((c.tc : Thread nD τ).loc main_arg1)) = normOut)
    (hI : normInRef (m ((c.tc : Thread nD τ).loc main_arg2)) = normIn)
    (hA : ∀ h, aggRef (m ((c.tc : Thread nD τ).loc main_arg1)) (m ((c.tc : Thread nD τ).loc main_arg2)) h = agg h) :
    Cert.ReferenceIdeal.ValueP.res_main_v68 m c
      = pool (act (agg (lin (act (agg (lin (m ((c.tc : Thread nD τ).loc main_arg0)) normOut
          (m ((c.tc : Thread nD τ).loc main_arg3)))) normIn (m ((c.tc : Thread nD τ).loc main_arg4))) normOut
          (m ((c.tc : Thread nD τ).loc main_arg5)))) normIn (m ((c.tc : Thread nD τ).loc main_arg6)))
          (m ((c.tc : Thread nD τ).loc main_arg7)) (m ((c.tc : Thread nD τ).loc main_arg8)) :=
  (val_main_v68_eq (F := Ideal) m c).trans (ref_eq_spec_of _ _ _ _ _ _ _ _ _ normOut normIn agg hO hI hA)

end Cert.RefSide

end
-- ==== Proof.KI.Chain.lean ====
/-
  What the three kernels find in their input arrays.

  Between the kernels the host runs stretches of array operations. Each stretch is a pure function of the
  contents it starts from, so the contents a kernel finds are the stretches' functions composed, applied to the
  arguments and to whatever the earlier kernels left in their outputs:
  * before the first kernel: the two degree factors (computed from the edge lists by the same operations the
    reference applies, hence the reference's own functions of the same lists) laid out as columns, and the
    biases laid out as rows;
  * before the second kernel: the neighbourhood aggregation of the first kernel's output — again the
    reference's own function of the edge lists, applied to that output;
  * before the third kernel: the aggregation of the second kernel's output.
  Nothing is computed here: the stretches are read off one operation at a time, and a buffer no later stretch
  writes keeps its contents.
-/
import proofs.«145645_j19997367730789_1_alg».proof.Proof.Gen.KernelIdeal.Regions
import proofs.«145645_j19997367730789_1_alg».proof.Proof.KI.Cols
import proofs.«145645_j19997367730789_1_alg».proof.Proof.Ref.RefIsSpec

noncomputable section

namespace Cert.KernelIdeal.Hand

open Cert.KernelIdeal Cert.KernelIdeal.Gen
open Idealize.ShloMosaic Idealize.ShloMosaic.TcCoe Idealize.SL.Sem Idealize.ShloMosaic.StableHlo

/-! ## Each host stretch as a function of the contents it starts from -/

/-- The re-layouts: the out-degree factor as a column. -/
theorem col_out_step (G : Valuation τ sig (Elt Ideal)) :
    (StableHlo.after hostOps0_4 G (Proc.devRef .tc main_v20) : S50000x1.Idx → EReal)
      = colK (G (Proc.devRef .tc main_v9)) := by
  after_results
  rfl

/-- The in-degree factor as a column. -/
theorem col_in_step (G : Valuation τ sig (Elt Ideal)) :
    (StableHlo.after hostOps0_4 G (Proc.devRef .tc main_v21) : S50000x1.Idx → EReal)
      = colK (G (Proc.devRef .tc main_v19)) := by
  after_results
  rfl

/-- The first bias as a row. -/
theorem row_b1_step (G : Valuation τ sig (Elt Ideal)) :
    (StableHlo.after hostOps0_4 G (Proc.devRef .tc main_v22) : S1x128.Idx → EReal)
      = rowK (G (Proc.devRef .tc main_arg4)) := by
  after_results
  rfl

/-- The second bias as a row. -/
theorem row_b2_step (G : Valuation τ sig (Elt Ideal)) :
    (StableHlo.after hostOps0_4 G (Proc.devRef .tc main_v23) : S1x128.Idx → EReal)
      = rowK (G (Proc.devRef .tc main_arg6)) := by
  after_results
  rfl

/-- The read-out bias as a row. -/
theorem row_br_step (G : Valuation τ sig (Elt Ideal)) :
    (StableHlo.after hostOps0_4 G (Proc.devRef .tc main_v24) : S1x2.Idx → EReal)
      = row2K (G (Proc.devRef .tc main_arg8)) := by
  after_results
  rfl

/-- The out-degree factor: the same operations of the source list as the reference's. -/
theorem normOut_step (G : Valuation τ sig (Elt Ideal)) :
    (StableHlo.after hostOps0_1 (StableHlo.after hostOps0 G) (Proc.devRef .tc main_v9) : S50000.Idx → EReal)
      = Cert.RefSide.normOutRef (G (Proc.devRef .tc main_arg1)) := by
  after_results
  simp only [cast_eq, id]
  rfl

/-- The in-degree factor: the same operations of the destination list as the reference's. -/
theorem normIn_step (G : Valuation τ sig (Elt Ideal)) :
    (StableHlo.after hostOps0_3 (StableHlo.after hostOps0_2 G) (Proc.devRef .tc main_v19) : S50000.Idx → EReal)
      = Cert.RefSide.normInRef (G (Proc.devRef .tc main_arg2)) := by
  after_results
  simp only [cast_eq, id]
  rfl

/-- The aggregation after the first kernel: the reference's, of that kernel's output. -/
theorem agg1_step (G : Valuation τ sig (Elt Ideal)) :
    (StableHlo.after hostOps1 G (Proc.devRef .tc main_v35) : S50000x128.Idx → EReal)
      = Cert.RefSide.aggRef (G (Proc.devRef .tc main_arg1)) (G (Proc.devRef .tc main_arg2))
          (G (Proc.devRef .tc main_v25)) := by
  after_results
  rfl

/-- The aggregation after the second kernel: the reference's, of that kernel's output. -/
theorem agg2_step (G : Valuation τ sig (Elt Ideal)) :
    (StableHlo.after hostOps2 G (Proc.devRef .tc main_v46) : S50000x128.Idx → EReal)
      = Cert.RefSide.aggRef (G (Proc.devRef .tc main_arg1)) (G (Proc.devRef .tc main_arg2))
          (G (Proc.devRef .tc main_v36)) := by
  after_results
  rfl

/-! ## What no stretch writes is kept -/

section
variable (m : (ℓ : Loc nD τ sig) → Buf (Elt Ideal) ℓ) (outs : Outs (F := Ideal)) (c : Dev nD)

theorem V2_keep (r : Ref sig .tc) (h1 : r ∉ hostOps0_W) (h2 : r ∉ hostOps0_1_W) :
    V2 m c r = m ((c.tc : Thread nD τ).loc r) :=
  (V2_of m c r h2).trans <| (V1_of m c r h1).trans rfl

theorem V4_keep (r : Ref sig .tc) (h1 : r ∉ hostOps0_W) (h2 : r ∉ hostOps0_1_W) (h3 : r ∉ hostOps0_2_W)
    (h4 : r ∉ hostOps0_3_W) : V4 m c r = m ((c.tc : Thread nD τ).loc r) :=
  (V4_of m c r h4).trans <| (V3_of m c r h3).trans <| V2_keep m c r h1 h2

theorem V5_keep (r : Ref sig .tc) (h1 : r ∉ hostOps0_W) (h2 : r ∉ hostOps0_1_W) (h3 : r ∉ hostOps0_2_W)
    (h4 : r ∉ hostOps0_3_W) (h5 : r ∉ hostOps0_4_W) : V5 m c r = m ((c.tc : Thread nD τ).loc r) :=
  (V5_of m c r h5).trans <| V4_keep m c r h1 h2 h3 h4

theorem V7_keep (r : Ref sig .tc) (h6 : r ∉ ([main_v25] : List (Ref sig .tc))) (h7 : r ∉ hostOps1_W) :
    V7 m outs c r = V5 m c r :=
  (V7_of m outs c r h7).trans (V6_of m outs c r h6)

theorem V9_keep (r : Ref sig .tc) (h8 : r ∉ ([main_v36] : List (Ref sig .tc))) (h9 : r ∉ hostOps2_W) :
    V9 m outs c r = V7 m outs c r :=
  (V9_of m outs c r h9).trans (V8_of m outs c r h8)

/-! ## The degree factors and the re-laid arrays before the first kernel -/

theorem normOut_at (c : Dev nD) :
    (V4 m c main_v9 : S50000.Idx → EReal) = Cert.RefSide.normOutRef (m ((c.tc : Thread nD τ).loc main_arg1)) :=
  (V4_of m c main_v9 (by decide)).trans <| (V3_of m c main_v9 (by decide)).trans (normOut_step (V0 m c))

theorem normIn_at (c : Dev nD) :
    (V4 m c main_v19 : S50000.Idx → EReal) = Cert.RefSide.normInRef (m ((c.tc : Thread nD τ).loc main_arg2)) :=
  (normIn_step (V2 m c)).trans
    (congrArg Cert.RefSide.normInRef (V2_keep m c main_arg2 (by decide) (by decide)))

theorem colOut_at (c : Dev nD) :
    (V5 m c main_v20 : S50000x1.Idx → EReal)
      = colK (Cert.RefSide.normOutRef (m ((c.tc : Thread nD τ).loc main_arg1))) :=
  (col_out_step (V4 m c)).trans (congrArg colK (normOut_at m c))

theorem colIn_at (c : Dev nD) :
    (V5 m c main_v21 : S50000x1.Idx → EReal)
      = colK (Cert.RefSide.normInRef (m ((c.tc : Thread nD τ).loc main_arg2))) :=
  (col_in_step (V4 m c)).trans (congrArg colK (normIn_at m c))

theorem rowB1_at (c : Dev nD) :
    (V5 m c main_v22 : S1x128.Idx → EReal) = rowK (m ((c.tc : Thread nD τ).loc main_arg4)) :=
  (row_b1_step (V4 m c)).trans
    (congrArg rowK (V4_keep m c main_arg4 (by decide) (by decide) (by decide) (by decide)))

theorem rowB2_at (c : Dev nD) :
    (V5 m c main_v23 : S1x128.Idx → EReal) = rowK (m ((c.tc : Thread nD τ).loc main_arg6)) :=
  (row_b2_step (V4 m c)).trans
    (congrArg rowK (V4_keep m c main_arg6 (by decide) (by decide) (by decide) (by decide)))

theorem rowBr_at (c : Dev nD) :
    (V5 m c main_v24 : S1x2.Idx → EReal) = row2K (m ((c.tc : Thread nD τ).loc main_arg8)) :=
  (row_br_step (V4 m c)).trans
    (congrArg row2K (V4_keep m c main_arg8 (by decide) (by decide) (by decide) (by decide)))

/-! ## The three kernels' inputs -/

/-- The first kernel reads the features, the out-degree column and `W₁`. -/
theorem in0 :
    V5 m c main_arg0 = m ((c.tc : Thread nD τ).loc main_arg0)
    ∧ (V5 m c main_v20 : S50000x1.Idx → EReal)
        = colK (Cert.RefSide.normOutRef (m ((c.tc : Thread nD τ).loc main_arg1)))
    ∧ V5 m c main_arg3 = m ((c.tc : Thread nD τ).loc main_arg3) :=
  ⟨V5_keep m c main_arg0 (by decide) (by decide) (by decide) (by decide) (by decide),
   colOut_at m c,
   V5_keep m c main_arg3 (by decide) (by decide) (by decide) (by decide) (by decide)⟩

/-- The second kernel reads the aggregation of the first kernel's output, the in-degree column, the first
    bias row, the out-degree column and `W₂`. -/
theorem in1 :
    (V7 m outs c main_v35 : S50000x128.Idx → EReal)
        = Cert.RefSide.aggRef (m ((c.tc : Thread nD τ).loc main_arg1)) (m ((c.tc : Thread nD τ).loc main_arg2))
            (outs 6 main_v25 c)
    ∧ (V7 m outs c main_v21 : S50000x1.Idx → EReal)
        = colK (Cert.RefSide.normInRef (m ((c.tc : Thread nD τ).loc main_arg2)))
    ∧ (V7 m outs c main_v22 : S1x128.Idx → EReal) = rowK (m ((c.tc : Thread nD τ).loc main_arg4))
    ∧ (V7 m outs c main_v20 : S50000x1.Idx → EReal)
        = colK (Cert.RefSide.normOutRef (m ((c.tc : Thread nD τ).loc main_arg1)))
    ∧ V7 m outs c main_arg5 = m ((c.tc : Thread nD τ).loc main_arg5) := by
  refine ⟨?_, ?_, ?_, ?_, ?_⟩
  · have h1 : V6 m outs c (Proc.devRef .tc main_arg1) = m ((c.tc : Thread nD τ).loc main_arg1) :=
      (V6_of m outs c main_arg1 (by decide)).trans
        (V5_keep m c main_arg1 (by decide) (by decide) (by decide) (by decide) (by decide))
    have h2 : V6 m outs c (Proc.devRef .tc main_arg2) = m ((c.tc : Thread nD τ).loc main_arg2) :=
      (V6_of m outs c main_arg2 (by decide)).trans
        (V5_keep m c main_arg2 (by decide) (by decide) (by decide) (by decide) (by decide))
    have h3 : V6 m outs c (Proc.devRef .tc main_v25) = outs 6 main_v25 c := Function.update_self ..
    refine (agg1_step (V6 m outs c)).trans ?_
    rw [h1, h2, h3]
  · exact (V7_keep m outs c main_v21 (by decide) (by decide)).trans (colIn_at m c)
  · exact (V7_keep m outs c main_v22 (by decide) (by decide)).trans (rowB1_at m c)
  · exact (V7_keep m outs c main_v20 (by decide) (by decide)).trans (colOut_at m c)
  · exact (V7_keep m outs c main_arg5 (by decide) (by decide)).trans
      (V5_keep m c main_arg5 (by decide) (by decide) (by decide) (by decide) (by decide))

/-- The third kernel reads the aggregation of the second kernel's output, the in-degree column, the second
    bias row, `Wr` and the read-out bias row. -/
theorem in2 :
    (V9 m outs c main_v46 : S50000x128.Idx → EReal)
        = Cert.RefSide.aggRef (m ((c.tc : Thread nD τ).loc main_arg1)) (m ((c.tc : Thread nD τ).loc main_arg2))
            (outs 8 main_v36 c)
    ∧ (V9 m outs c main_v21 : S50000x1.Idx → EReal)
        = colK (Cert.RefSide.normInRef (m ((c.tc : Thread nD τ).loc main_arg2)))
    ∧ (V9 m outs c main_v23 : S1x128.Idx → EReal) = rowK (m ((c.tc : Thread nD τ).loc main_arg6))
    ∧ V9 m outs c main_arg7 = m ((c.tc : Thread nD τ).loc main_arg7)
    ∧ (V9 m outs c main_v24 : S1x2.Idx → EReal) = row2K (m ((c.tc : Thread nD τ).loc main_arg8)) := by
  refine ⟨?_, ?_, ?_, ?_, ?_⟩
  · have h1 : V8 m outs c (Proc.devRef .tc main_arg1) = m ((c.tc : Thread nD τ).loc main_arg1) :=
      (V8_of m outs c main_arg1 (by decide)).trans <| (V7_keep m outs c main_arg1 (by decide) (by decide)).trans
        (V5_keep m c main_arg1 (by decide) (by decide) (by decide) (by decide) (by decide))
    have h2 : V8 m outs c (Proc.devRef .tc main_arg2) = m ((c.tc : Thread nD τ).loc main_arg2) :=
      (V8_of m outs c main_arg2 (by decide)).trans <| (V7_keep m outs c main_arg2 (by decide) (by decide)).trans
        (V5_keep m c main_arg2 (by decide) (by decide) (by decide) (by decide) (by decide))
    have h3 : V8 m outs c (Proc.devRef .tc main_v36) = outs 8 main_v36 c := Function.update_self ..
    refine (agg2_step (V8 m outs c)).trans ?_
    rw [h1, h2, h3]
  · exact (V9_keep m outs c main_v21 (by decide) (by decide)).trans <|
      (V7_keep m outs c main_v21 (by decide) (by decide)).trans (colIn_at m c)
  · exact (V9_keep m outs c main_v23 (by decide) (by decide)).trans <|
      (V7_keep m outs c main_v23 (by decide) (by decide)).trans (rowB2_at m c)
  · exact (V9_keep m outs c main_arg7 (by decide) (by decide)).trans <|
      (V7_keep m outs c main_arg7 (by decide) (by decide)).trans
        (V5_keep m c main_arg7 (by decide) (by decide) (by decide) (by decide) (by decide))
  · exact (V9_keep m outs c main_v24 (by decide) (by decide)).trans <|
      (V7_keep m outs c main_v24 (by decide) (by decide)).trans (rowBr_at m c)

end

end Cert.KernelIdeal.Hand

end
-- ==== Proof.KI.Algebraic.lean ====
import proofs.«145645_j19997367730789_1_alg».proof.Proof.KI.Run
import proofs.«145645_j19997367730789_1_alg».proof.Proof.KI.ToSpec01
import proofs.«145645_j19997367730789_1_alg».proof.Proof.KI.ToSpec2
import proofs.«145645_j19997367730789_1_alg».proof.Proof.KI.Chain
import proofs.«145645_j19997367730789_1_alg».proof.Proof.Ref.RefIsSpec

noncomputable section

namespace Cert.KernelIdeal.Hand

open Idealize.ShloMosaic Idealize.ShloMosaic.TcCoe Idealize.SL.Sem
open Cert.KernelIdeal Cert.KernelIdeal.Gen Cert.RefSide

variable (m : (ℓ : Loc nD τ sig) → Buf (Elt Ideal) ℓ)

/-- THE KERNEL PROGRAM'S RESULT AS ONE FUNCTION OF ITS ARGUMENTS. Region 0 leaves `lin x normOut W1` (each row block a
    matmul of the scaled rows); the host gathers and scatter-adds it (`aggRef`); region 1 leaves
    `lin (act · normIn b1) normOut W2` of that; the host aggregates again; region 2's accumulator sums the ten row blocks of
    `act · normIn b2` and its last point reads the mean out through `Wr` and `br`: `pool`. -/
theorem result_eq_spec (c : Dev nD) :
    (dat2 (E9 m) c).arrAt 5 cfg2.N
      = pool (act (aggRef (m ((c.tc : Thread nD τ).loc main_arg1)) (m ((c.tc : Thread nD τ).loc main_arg2))
          (lin (act (aggRef (m ((c.tc : Thread nD τ).loc main_arg1)) (m ((c.tc : Thread nD τ).loc main_arg2))
              (lin (m ((c.tc : Thread nD τ).loc main_arg0)) (normOutRef (m ((c.tc : Thread nD τ).loc main_arg1))) (m ((c.tc : Thread nD τ).loc main_arg3))))
            (normInRef (m ((c.tc : Thread nD τ).loc main_arg2))) (m ((c.tc : Thread nD τ).loc main_arg4)))
          (normOutRef (m ((c.tc : Thread nD τ).loc main_arg1))) (m ((c.tc : Thread nD τ).loc main_arg5))))
        (normInRef (m ((c.tc : Thread nD τ).loc main_arg2))) (m ((c.tc : Thread nD τ).loc main_arg6)))
        (m ((c.tc : Thread nD τ).loc main_arg7)) (m ((c.tc : Thread nD τ).loc main_arg8)) := by
  -- region 0: the layer-1 product
  obtain ⟨a0, a1, a2⟩ := in0 m c
  have r0 : (dat0 (E5 m) c).arrAt 3 cfg0.N = lin (m ((c.tc : Thread nD τ).loc main_arg0)) (normOutRef (m ((c.tc : Thread nD τ).loc main_arg1))) (m ((c.tc : Thread nD τ).loc main_arg3)) := by
    rw [arrAt0_3_eq (E5 m) c]
    show G0 (V5 m c main_arg0) (V5 m c main_v20) (V5 m c main_arg3) = _
    rw [a0, a1, a2]; exact G0_colK_eq_lin _ _ _
  -- region 1: the layer-2 product of the aggregated layer-1 product
  obtain ⟨b0, b1, b2, b3, b4⟩ := in1 m (outs6 m) c
  have o6 : outs6 m 6 main_v25 c = (dat0 (E5 m) c).arrAt 3 cfg0.N := by
    show W6 m c main_v25 = _
    unfold W6; exact Pipeline.withArrays_arr spec0 launch0.win.arr_inj c _ _ 3
  have r1 : (dat1 (E7 m) c).arrAt 5 cfg1.N = lin (act (aggRef (m ((c.tc : Thread nD τ).loc main_arg1)) (m ((c.tc : Thread nD τ).loc main_arg2)) (lin (m ((c.tc : Thread nD τ).loc main_arg0)) (normOutRef (m ((c.tc : Thread nD τ).loc main_arg1))) (m ((c.tc : Thread nD τ).loc main_arg3)))) (normInRef (m ((c.tc : Thread nD τ).loc main_arg2))) (m ((c.tc : Thread nD τ).loc main_arg4))) (normOutRef (m ((c.tc : Thread nD τ).loc main_arg1))) (m ((c.tc : Thread nD τ).loc main_arg5)) := by
    rw [arrAt1_5_eq (E7 m) c]
    show G1 (V7 m (outs6 m) c main_v35) (V7 m (outs6 m) c main_v21) (V7 m (outs6 m) c main_v22) (V7 m (outs6 m) c main_v20) (V7 m (outs6 m) c main_arg5) = _
    rw [b0, b1, b2, b3, b4, o6, r0]; exact G1_colK_rowK_eq_lin_act _ _ _ _ _
  -- region 2: the pooled read-out of the aggregated layer-2 product
  obtain ⟨d0, d1, d2, d3, d4⟩ := in2 m (outs8 m) c
  have o8 : outs8 m 8 main_v36 c = (dat1 (E7 m) c).arrAt 5 cfg1.N := by
    show W8 m c main_v36 = _
    unfold W8; exact Pipeline.withArrays_arr spec1 launch1.win.arr_inj c _ _ 5
  rw [arrAt2_5 (E9 m) c]
  exact result2_eq_pool (E9 m) c _ _ _ _ _ (d0.trans (by rw [o8, r1])) d1 d2 d3 d4

end Cert.KernelIdeal.Hand

end
-- ==== Proof.lean ====
/- The proof of `Cert.Claim`: a graph-convolution encoder in three kernel launches against its plain reference.

   The mathematics. With `normOut`, `normIn` the inverse square roots of the out- and in-degrees (zero for an isolated
   node) and `agg` the gather along `src` followed by the scatter-add along `dst`, both programs compute
     pool (act (agg (lin (act (agg (lin x normOut W1)) normIn b1) normOut W2)) normIn b2) Wr br,
   where `lin h s W` is the product of the row-scaled `h` with `W`, `act a s b = max (a · s + b) 0`, and `pool h Wr br` is the
   column means of `h` times `Wr` plus `br`. The kernel computes the two products and the pooled read-out in row blocks of 5000
   (a block of a product depends on the same block of rows only; the column sums are accumulated block by block, which is the
   whole sum since addition of extended reals is commutative and associative), multiplies by the named constant 1/50000 where
   the reference divides by 50000 (the same on every extended real), and leaves the degree norms and the aggregation to the
   same host operations as the reference. No law used needs finiteness, so the precondition is never opened.

   The frames. Each program's @main is host stretches around three launches; each launch's record (its body at every grid
   point, what enters and leaves its invariant) is proved once, for any float instance, and the launch theorem for a list of
   segments gives termination, no fault, and every buffer's final contents; the reference is host operations only. -/
import proofs.«145645_j19997367730789_1_alg».proof.Defs
import proofs.«145645_j19997367730789_1_alg».proof.Proof.Gen.Kernel
import proofs.«145645_j19997367730789_1_alg».proof.Proof.Gen.KernelIdeal
import proofs.«145645_j19997367730789_1_alg».proof.Proof.Gen.ReferenceIdeal
import proofs.«145645_j19997367730789_1_alg».proof.Proof.Gen.Pre_finite_inputs
import proofs.«145645_j19997367730789_1_alg».proof.Proof.K.Run
import proofs.«145645_j19997367730789_1_alg».proof.Proof.KI.Run
import proofs.«145645_j19997367730789_1_alg».proof.Proof.KI.Algebraic
import proofs.«145645_j19997367730789_1_alg».proof.Proof.Ref.RefIsSpec
import Idealize.ShloMosaic.Adequacy
import Idealize.ShloMosaic.Init

noncomputable section

namespace Cert.Proof

open Idealize.ShloMosaic Idealize.SL.Sem

/-- The word-level kernel runs to the end, faults nowhere and leaves its arguments as launched. -/
theorem frame_k : Cert.frame_Kernel := fun m ρ _ => Cert.Kernel.Hand.frame (F := Bits) m ρ

/-- So does the idealized kernel. -/
theorem frame_ki : Cert.frame_KernelIdeal := fun m ρ _ => Cert.KernelIdeal.Hand.frame (F := Ideal) m ρ

/-- The reference is host operations only: its run, with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The one rewrite of the idealization: the constant the kernel multiplies the column sums by is named, and its name
    denotes 1/50000. -/
theorem preserves : Cert.preserves_Kernel_KernelIdeal :=
  IdealRules.named_const.statement Cert.KernelIdeal.κ "inv_50000" .f32 0x37A7C5AC#32 ((1 / 50000 : ℝ) : EReal) rfl

/-- From memories agreeing on the arguments both programs end with the same result: each side's result is the one
    function of the arguments stated in the header. -/
theorem algebraic : Cert.algebraic_KernelIdeal_ReferenceIdeal := by
  intro m ρ m' ρ' _ hagree
  refine ⟨fun c => (Cert.KernelIdeal.Hand.dat2 (Cert.KernelIdeal.Hand.E9 m) c).arrAt 5 Cert.KernelIdeal.cfg2.N,
    Cert.KernelIdeal.Hand.run_result (F := Ideal) m ρ, ?_⟩
  refine (θ_run Cert.ReferenceIdeal.defs _ _).mono (fun _ h c => ⟨(h c).1.trans ?_, (h c).2⟩)
    (Cert.ReferenceIdeal.ValueP.run (F := Ideal) m' ρ')
  show Cert.ReferenceIdeal.ValueP.res_main_v68 m' c
    = (Cert.KernelIdeal.Hand.dat2 (Cert.KernelIdeal.Hand.E9 m) c).arrAt 5 Cert.KernelIdeal.cfg2.N
  rw [Cert.KernelIdeal.Hand.result_eq_spec m c, Cert.RefSide.res_eq_spec_of m' c _ _ _ rfl rfl (fun _ => rfl),
    (hagree c).1, (hagree c).2.1, (hagree c).2.2.1, (hagree c).2.2.2.1, (hagree c).2.2.2.2.1, (hagree c).2.2.2.2.2.1,
    (hagree c).2.2.2.2.2.2.1, (hagree c).2.2.2.2.2.2.2.1, (hagree c).2.2.2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
